-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S256x512 : Shape := ⟨2, ![256, 512]⟩
abbrev S4096x256 : Shape := ⟨2, ![4096, 256]⟩
abbrev S4096 : Shape := ⟨1, ![4096]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096x40960 : S_.BroadcastsInDim S4096x40960 (![] : Fin 0 → Fin S4096x40960.rank)
  reducesTo_S4096x40960_S_d0_1 : S4096x40960.ReducesTo [0, 1] S_
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S256x512 : S_.BroadcastsInDim S256x512 (![] : Fin 0 → Fin S256x512.rank)
  reducesTo_S256x512_S_d0_1 : S256x512.ReducesTo [0, 1] S_
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg14 : FVec F S256 .f32) (main_arg15 : FVec F S4096x256 .f32) (main_arg16 : FVec F S4096 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S4096x256 .f32 := Host.absf main_arg15
  let main_cst_28 : FVec F S_ .f32 := constant S_ .f32 0x7F800000#32
  let main_v75 : FVec F S4096x256 .f32 := broadcastInDim S4096x256 ![] bcast_S_S4096x256 main_cst_28
  let main_v76 : IVec S4096x256 1 := cmpf .olt main_v74 main_v75
  let main_c_29 : IVec S_ 1 := constantI S_ 1 1#1
  let main_v77 : IVec S_ 1 := (fun x v => Host.reduce IntOp.andi x v reducesTo_S4096x256_S_d0_1 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  main_v83

def fn_part3 {F : FTy → Type} [FloatOps F] (main_arg11 : FVec F S1x32 .f32) (main_arg12 : FVec F S1 .f32) (main_arg13 : FVec F S256x512 .f32) (main_arg14 : FVec F S256 .f32) (main_arg15 : FVec F S4096x256 .f32) (main_arg16 : FVec F S4096 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S256x512 .f32 := Host.absf main_arg13
  let main_cst_24 : FVec F S_ .f32 := constant S_ .f32 0x7F800000#32
  let main_v65 : FVec F S256x512 .f32 := broadcastInDim S256x512 ![] bcast_S_S256x512 main_cst_24
  let main_v66 : IVec S256x512 1 := cmpf .olt main_v64 main_v65
  let main_c_25 : IVec S_ 1 := constantI S_ 1 1#1
  let main_v67 : IVec S_ 1 := (fun x v => Host.reduce IntOp.andi x v reducesTo_S256x512_S_d0_1 h_S_) main_v66 main_c_25
  fn_part4 (F := F) main_arg14 main_arg15 main_arg16 main_v63 main_v67

def fn_part2 {F : FTy → Type} [FloatOps F] (main_arg7 : FVec F S32x512 .f32) (main_arg8 : FVec F S32 .f32) (main_arg9 : FVec F S32x32 .f32) (main_arg10 : FVec F S32 .f32) (main_arg11 : FVec F S1x32 .f32) (main_arg12 : FVec F S1 .f32) (main_arg13 : FVec F S256x512 .f32) (main_arg14 : FVec F S256 .f32) (main_arg15 : FVec F S4096x256 .f32) (main_arg16 : FVec F S4096 .f32) (main_v33 : IVec S_ 1) : IVec S_ 1 :=
  let main_v34 : FVec F S32x512 .f32 := Host.absf main_arg7
  let main_cst_12 : FVec F S_ .f32 := constant S_ .f32 0x7F800000#32
  let main_v35 : FVec F S32x512 .f32 := broadcastInDim S32x512 ![] bcast_S_S32x512 main_cst_12
  let main_v36 : IVec S32x512 1 := cmpf .olt main_v34 main_v35
  let main_c_13 : IVec S_ 1 := constantI S_ 1 1#1
  let main_v37 : IVec S_ 1 := (fun x v => Host.reduce IntOp.andi x v reducesTo_S32x512_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_arg15 main_arg16 main_v48 main_v49 main_v50

def fn_part1 {F : FTy → Type} [FloatOps F] (main_arg4 : FVec F S256 .f32) (main_arg5 : FVec F S256x40960 .f32) (main_arg6 : FVec F S256 .f32) (main_arg7 : FVec F S32x512 .f32) (main_arg8 : FVec F S32 .f32) (main_arg9 : FVec F S32x32 .f32) (main_arg10 : FVec F S32 .f32) (main_arg11 : FVec F S1x32 .f32) (main_arg12 : FVec F S1 .f32) (main_arg13 : FVec F S256x512 .f32) (main_arg14 : FVec F S256 .f32) (main_arg15 : FVec F S4096x256 .f32) (main_arg16 : FVec F S4096 .f32) (main_v13 : IVec S_ 1) (main_v16 : IVec S256x40960 1) : IVec S_ 1 :=
  let main_c_5 : IVec S_ 1 := constantI S_ 1 1#1
  let main_v17 : IVec S_ 1 := (fun x v => Host.reduce IntOp.andi x v reducesTo_S256x40960_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x40960 .f32 := Host.absf main_arg5
  let main_cst_8 : FVec F S_ .f32 := constant S_ .f32 0x7F800000#32
  let main_v25 : FVec F S256x40960 .f32 := broadcastInDim S256x40960 ![] bcast_S_S256x40960 main_cst_8
  let main_v26 : IVec S256x40960 1 := cmpf .olt main_v24 main_v25
  let main_c_9 : IVec S_ 1 := constantI S_ 1 1#1
  let main_v27 : IVec S_ 1 := (fun x v => Host.reduce IntOp.andi x v reducesTo_S256x40960_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x1 .f32) (main_arg1 : FVec F S4096x40960 .f32) (main_arg2 : FVec F S4096x40960 .f32) (main_arg3 : FVec F S256x40960 .f32) (main_arg4 : FVec F S256 .f32) (main_arg5 : FVec F S256x40960 .f32) (main_arg6 : FVec F S256 .f32) (main_arg7 : FVec F S32x512 .f32) (main_arg8 : FVec F S32 .f32) (main_arg9 : FVec F S32x32 .f32) (main_arg10 : FVec F S32 .f32) (main_arg11 : FVec F S1x32 .f32) (main_arg12 : FVec F S1 .f32) (main_arg13 : FVec F S256x512 .f32) (main_arg14 : FVec F S256 .f32) (main_arg15 : FVec F S4096x256 .f32) (main_arg16 : FVec F S4096 .f32) : IVec S_ 1 :=
  let main_v0 : FVec F S4096x1 .f32 := Host.absf main_arg0
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S4096x40960 .f32 := Host.absf main_arg2
  let main_cst_2 : FVec F S_ .f32 := constant S_ .f32 0x7F800000#32
  let main_v10 : FVec F S4096x40960 .f32 := broadcastInDim S4096x40960 ![] bcast_S_S4096x40960 main_cst_2
  let main_v11 : IVec S4096x40960 1 := cmpf .olt main_v9 main_v10
  let main_c_3 : IVec S_ 1 := constantI S_ 1 1#1
  let main_v12 : IVec S_ 1 := (fun x v => Host.reduce IntOp.andi x v reducesTo_S4096x40960_S_d0_1 h_S_) main_v11 main_c_3
  let main_v13 : IVec S_ 1 := andi main_v8 main_v12
  let main_v14 : FVec F S256x40960 .f32 := Host.absf main_arg3
  let main_cst_4 : FVec F S_ .f32 := constant S_ .f32 0x7F800000#32
  let main_v15 : FVec F S256x40960 .f32 := broadcastInDim S256x40960 ![] bcast_S_S256x40960 main_cst_4
  let main_v16 : IVec S256x40960 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x1 : Shape := ⟨2, ![4096, 1]⟩
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S256x512 : Shape := ⟨2, ![256, 512]⟩
abbrev S4096x256 : Shape := ⟨2, ![4096, 256]⟩
abbrev S4096 : Shape := ⟨1, ![4096]⟩
abbrev S4096x512 : Shape := ⟨2, ![4096, 512]⟩
abbrev S512x256 : Shape := ⟨2, ![512, 256]⟩
abbrev S1x256 : Shape := ⟨2, ![1, 256]⟩
abbrev S4096x4096 : Shape := ⟨2, ![4096, 4096]⟩
abbrev S512x1 : Shape := ⟨2, ![512, 1]⟩
abbrev S512x4096 : Shape := ⟨2, ![512, 4096]⟩
abbrev S512x512 : Shape := ⟨2, ![512, 512]⟩
abbrev S512x32 : Shape := ⟨2, ![512, 32]⟩
abbrev S32x1 : Shape := ⟨2, ![32, 1]⟩
abbrev S1x1 : Shape := ⟨2, ![1, 1]⟩
abbrev S256x4096 : Shape := ⟨2, ![256, 4096]⟩
abbrev S1x4096 : Shape := ⟨2, ![1, 4096]⟩

abbrev nBuf : Space → Nat
  | .hbm => 21
  | .vmem => 34
  | .smem => 0
  | _ => 0

abbrev bufTy : (tb : Table) → Fin (tcTables nBuf tb) → BufTy
  | .hbm, ⟨0, _⟩ => ⟨S4096x1, .f32⟩
  | .hbm, ⟨1, _⟩ => ⟨S4096x40960, .f32⟩
  | .hbm, ⟨2, _⟩ => ⟨S4096x40960, .f32⟩
  | .hbm, ⟨3, _⟩ => ⟨S256x40960, .f32⟩
  | .hbm, ⟨4, _⟩ => ⟨S256, .f32⟩
  | .hbm, ⟨5, _⟩ => ⟨S256x40960, .f32⟩
  | .hbm, ⟨6, _⟩ => ⟨S256, .f32⟩
  | .hbm, ⟨7, _⟩ => ⟨S32x512, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S256x512, .f32⟩
  | .hbm, ⟨14, _⟩ => ⟨S256, .f32⟩
  | .hbm, ⟨15, _⟩ => ⟨S4096x256, .f32⟩
  | .hbm, ⟨16, _⟩ => ⟨S4096, .f32⟩
  | .hbm, ⟨17, _⟩ => ⟨S4096x256, .f32⟩
  | .hbm, ⟨18, _⟩ => ⟨S4096x256, .f32⟩
  | .hbm, ⟨19, _⟩ => ⟨S4096x1, .f32⟩
  | .hbm, ⟨20, _⟩ => ⟨S4096x4096, .f32⟩
  | .local _ .vmem, ⟨0, _⟩ => ⟨S4096x512, .f32⟩
  | .local _ .vmem, ⟨1, _⟩ => ⟨S4096x512, .f32⟩
  | .local _ .vmem, ⟨2, _⟩ => ⟨S256x512, .f32⟩
  | .local _ .vmem, ⟨3, _⟩ => ⟨S256x512, .f32⟩
  | .local _ .vmem, ⟨4, _⟩ => ⟨S256, .f32⟩
  | .local _ .vmem, ⟨5, _⟩ => ⟨S4096x256, .f32⟩
  | .local _ .vmem, ⟨6, _⟩ => ⟨S4096x256, .f32⟩
  | .local _ .vmem, ⟨7, _⟩ => ⟨S4096x512, .f32⟩
  | .local _ .vmem, ⟨8, _⟩ => ⟨S4096x512, .f32⟩
  | .local _ .vmem, ⟨9, _⟩ => ⟨S256x512, .f32⟩
  | .local _ .vmem, ⟨10, _⟩ => ⟨S256x512, .f32⟩
  | .local _ .vmem, ⟨11, _⟩ => ⟨S256, .f32⟩
  | .local _ .vmem, ⟨12, _⟩ => ⟨S4096x256, .f32⟩
  | .local _ .vmem, ⟨13, _⟩ => ⟨S4096x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x1, .f32⟩
  | .local _ .vmem, ⟨19, _⟩ => ⟨S512x1, .f32⟩
  | .local _ .vmem, ⟨20, _⟩ => ⟨S32x512, .f32⟩
  | .local _ .vmem, ⟨21, _⟩ => ⟨S32, .f32⟩
  | .local _ .vmem, ⟨22, _⟩ => ⟨S32x32, .f32⟩
  | .local _ .vmem, ⟨23, _⟩ => ⟨S32, .f32⟩
  | .local _ .vmem, ⟨24, _⟩ => ⟨S1x32, .f32⟩
  | .local _ .vmem, ⟨25, _⟩ => ⟨S1, .f32⟩
  | .local _ .vmem, ⟨26, _⟩ => ⟨S256x512, .f32⟩
  | .local _ .vmem, ⟨27, _⟩ => ⟨S256, .f32⟩
  | .local _ .vmem, ⟨28, _⟩ => ⟨S4096x256, .f32⟩
  | .local _ .vmem, ⟨29, _⟩ => ⟨S4096, .f32⟩
  | .local _ .vmem, ⟨30, _⟩ => ⟨S512x1, .f32⟩
  | .local _ .vmem, ⟨31, _⟩ => ⟨S512x1, .f32⟩
  | .local _ .vmem, ⟨32, _⟩ => ⟨S512x4096, .f32⟩
  | .local _ .vmem, ⟨33, _⟩ => ⟨S512x4096, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2_0 : Ref sig .tc := ⟨.hbm, 19, rfl⟩
abbrev main_v2_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg13_0 : Ref sig .tc := ⟨.vmem, 30, rfl⟩
abbrev cc2_stg13_1 : Ref sig .tc := ⟨.vmem, 31, rfl⟩
abbrev cc2_stg14_0 : Ref sig .tc := ⟨.vmem, 32, rfl⟩
abbrev cc2_stg14_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem12_0 : DmaSem sig := 27
abbrev cc2_sem13_0 : DmaSem sig := 28
abbrev cc2_sem13_1 : DmaSem sig := 29
abbrev cc2_sem14_0 : DmaSem sig := 30
abbrev cc2_sem14_1 : DmaSem sig := 31

abbrev nD : Nat := 1
abbrev τ : Topo := Topo.v7x

variable {F : FTy → Type} [FloatOps F]

abbrev grid0 : Pipeline.Grid := ⟨1, ![80], ![false]⟩

def k0_cond2 (i : grid0.Coords) : BitVec 1 :=
  let arg0 : BitVec 32 := BitVec.ofNat 32 (i 0).val
  let c79_i32 : BitVec 32 := 79#32
  let v14 : BitVec 1 := Scalar.cmpi .eq arg0 c79_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![80], ![false]⟩

def k1_cond2 (i : grid1.Coords) : BitVec 1 :=
  let arg0 : BitVec 32 := BitVec.ofNat 32 (i 0).val
  let c79_i32 : BitVec 32 := 79#32
  let v14 : BitVec 1 := Scalar.cmpi .eq arg0 c79_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S4096x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S4096 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S512x1 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S512x4096 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

class Facts₀ : Prop where
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  concatenates_S512x256_S512x256_S512x512_d1 : Shape.Concatenates [S512x256, S512x256] S512x512 1
  broadcasts_S512x1_S512x512 : S512x1.Broadcasts S512x512
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  broadcasts_S1x256_S512x256 : S1x256.Broadcasts S512x256
  transposes_S4096x256_p1_0_S256x4096 : S4096x256.Transposes [1, 0] S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S4096x512_S512x256_S4096x256_1_0_0_1_n_n_wf : DotDims.WF S4096x512 S512x256 S4096x256 [1] [0] [0] [1] [] []
  dot_S512x512_S512x32_S512x32_1_0_0_1_n_n_wf : DotDims.WF S512x512 S512x32 S512x32 [1] [0] [0] [1] [] []
  dot_S512x32_S32x32_S512x32_1_0_0_1_n_n_wf : DotDims.WF S512x32 S32x32 S512x32 [1] [0] [0] [1] [] []
  dot_S512x32_S32x1_S512x1_1_0_0_1_n_n_wf : DotDims.WF S512x32 S32x1 S512x1 [1] [0] [0] [1] [] []
  dot_S512x512_S512x256_S512x256_1_0_0_1_n_n_wf : DotDims.WF S512x512 S512x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x40960.size a
  hwx0_0 : ∀ i : grid0.Coords, EltTy.bits .f32 = 32 ∨ (Rect.block (s := S4096x40960) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x40960.size a
  hwx0_1 : ∀ i : grid0.Coords, EltTy.bits .f32 = 32 ∨ (Rect.block (s := S256x40960) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .f32 = 32 ∨ (Rect.block (s := S4096x256) S4096x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x40960.size a
  hwx1_0 : ∀ i : grid1.Coords, EltTy.bits .f32 = 32 ∨ (Rect.block (s := S4096x40960) S4096x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x40960.size a
  hwx1_1 : ∀ i : grid1.Coords, EltTy.bits .f32 = 32 ∨ (Rect.block (s := S256x40960) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x256.size a
  hwx1_3 : ∀ i : grid1.Coords, EltTy.bits .f32 = 32 ∨ (Rect.block (s := S4096x256) S4096x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S4096x256.size a
  hwx2_1 : ∀ i : grid2.Coords, EltTy.bits .f32 = 32 ∨ (Rect.block (s := S4096x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S4096x1.size a
  hwx2_2 : ∀ i : grid2.Coords, EltTy.bits .f32 = 32 ∨ (Rect.block (s := S4096x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x512.size a ≤ S32x512.size a
  hwx2_3 : ∀ i : grid2.Coords, EltTy.bits .f32 = 32 ∨ (Rect.block (s := S32x512) S32x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32.size a ≤ S32.size a
  hwx2_6 : ∀ i : grid2.Coords, EltTy.bits .f32 = 32 ∨ (Rect.block (s := S32) S32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1.size a ≤ S1.size a
  hwx2_8 : ∀ i : grid2.Coords, EltTy.bits .f32 = 32 ∨ (Rect.block (s := S1) S1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x512.size a ≤ S256x512.size a
  hwx2_9 : ∀ i : grid2.Coords, EltTy.bits .f32 = 32 ∨ (Rect.block (s := S256x512) S256x512.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256.size a ≤ S256.size a
  hwx2_10 : ∀ i : grid2.Coords, EltTy.bits .f32 = 32 ∨ (Rect.block (s := S256) S256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S4096x256.size a ≤ S4096x256.size a
  hwx2_11 : ∀ i : grid2.Coords, EltTy.bits .f32 = 32 ∨ (Rect.block (s := S4096x256) S4096x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S4096.size a ≤ S4096.size a
  hwx2_12 : ∀ i : grid2.Coords, EltTy.bits .f32 = 32 ∨ (Rect.block (s := S4096) S4096.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S512x1.size a ≤ S4096x1.size a
  hwx2_13 : ∀ i : grid2.Coords, EltTy.bits .f32 = 32 ∨ (Rect.block (s := S4096x1) S512x1.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S512x4096.size a ≤ S4096x4096.size a
  hwx2_14 : ∀ i : grid2.Coords, EltTy.bits .f32 = 32 ∨ (Rect.block (s := S4096x4096) S512x4096.size (cc2_transform_14 i) (hinb2_14 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_arg1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4096x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S32x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg12) S1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg13) S256x512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg14) S256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg15) S4096x256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg16) S4096.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v2_0) S512x1.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v2_1) S512x4096.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S4096x1 : Shape := ⟨2, ![4096, 1]⟩
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S256x512 : Shape := ⟨2, ![256, 512]⟩
abbrev S4096x256 : Shape := ⟨2, ![4096, 256]⟩
abbrev S4096 : Shape := ⟨1, ![4096]⟩
abbrev S40960x256 : Shape := ⟨2, ![40960, 256]⟩
abbrev S1x256 : Shape := ⟨2, ![1, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S1x1 : Shape := ⟨2, ![1, 1]⟩
abbrev S512x256 : Shape := ⟨2, ![512, 256]⟩
abbrev S256x4096 : Shape := ⟨2, ![256, 4096]⟩
abbrev S4096x4096 : Shape := ⟨2, ![4096, 4096]⟩
abbrev S1x4096 : Shape := ⟨2, ![1, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x40960, .f32⟩
  | .hbm, ⟨2, _⟩ => ⟨S4096x40960, .f32⟩
  | .hbm, ⟨3, _⟩ => ⟨S256x40960, .f32⟩
  | .hbm, ⟨4, _⟩ => ⟨S256, .f32⟩
  | .hbm, ⟨5, _⟩ => ⟨S256x40960, .f32⟩
  | .hbm, ⟨6, _⟩ => ⟨S256, .f32⟩
  | .hbm, ⟨7, _⟩ => ⟨S32x512, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S256x512, .f32⟩
  | .hbm, ⟨14, _⟩ => ⟨S256, .f32⟩
  | .hbm, ⟨15, _⟩ => ⟨S4096x256, .f32⟩
  | .hbm, ⟨16, _⟩ => ⟨S4096, .f32⟩
  | .hbm, ⟨17, _⟩ => ⟨S40960x256, .f32⟩
  | .hbm, ⟨18, _⟩ => ⟨S4096x256, .f32⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S40960x256, .f32⟩
  | .hbm, ⟨23, _⟩ => ⟨S4096x256, .f32⟩
  | .hbm, ⟨24, _⟩ => ⟨S1x256, .f32⟩
  | .hbm, ⟨25, _⟩ => ⟨S4096x256, .f32⟩
  | .hbm, ⟨26, _⟩ => ⟨S4096x256, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S512x32, .f32⟩
  | .hbm, ⟨41, _⟩ => ⟨S4096x32, .f32⟩
  | .hbm, ⟨42, _⟩ => ⟨S1x32, .f32⟩
  | .hbm, ⟨43, _⟩ => ⟨S4096x32, .f32⟩
  | .hbm, ⟨44, _⟩ => ⟨S4096x32, .f32⟩
  | .hbm, ⟨45, _⟩ => ⟨S_, .f32⟩
  | .hbm, ⟨46, _⟩ => ⟨S4096x32, .f32⟩
  | .hbm, ⟨47, _⟩ => ⟨S4096x32, .f32⟩
  | .hbm, ⟨48, _⟩ => ⟨S32x32, .f32⟩
  | .hbm, ⟨49, _⟩ => ⟨S4096x32, .f32⟩
  | .hbm, ⟨50, _⟩ => ⟨S1x32, .f32⟩
  | .hbm, ⟨51, _⟩ => ⟨S4096x32, .f32⟩
  | .hbm, ⟨52, _⟩ => ⟨S4096x32, .f32⟩
  | .hbm, ⟨53, _⟩ => ⟨S_, .f32⟩
  | .hbm, ⟨54, _⟩ => ⟨S4096x32, .f32⟩
  | .hbm, ⟨55, _⟩ => ⟨S4096x32, .f32⟩
  | .hbm, ⟨56, _⟩ => ⟨S32x1, .f32⟩
  | .hbm, ⟨57, _⟩ => ⟨S4096x1, .f32⟩
  | .hbm, ⟨58, _⟩ => ⟨S1x1, .f32⟩
  | .hbm, ⟨59, _⟩ => ⟨S4096x1, .f32⟩
  | .hbm, ⟨60, _⟩ => ⟨S4096x1, .f32⟩
  | .hbm, ⟨61, _⟩ => ⟨S512x256, .f32⟩
  | .hbm, ⟨62, _⟩ => ⟨S4096x256, .f32⟩
  | .hbm, ⟨63, _⟩ => ⟨S1x256, .f32⟩
  | .hbm, ⟨64, _⟩ => ⟨S4096x256, .f32⟩
  | .hbm, ⟨65, _⟩ => ⟨S4096x256, .f32⟩
  | .hbm, ⟨66, _⟩ => ⟨S_, .f32⟩
  | .hbm, ⟨67, _⟩ => ⟨S4096x256, .f32⟩
  | .hbm, ⟨68, _⟩ => ⟨S4096x256, .f32⟩
  | .hbm, ⟨69, _⟩ => ⟨S256x4096, .f32⟩
  | .hbm, ⟨70, _⟩ => ⟨S4096x4096, .f32⟩
  | .hbm, ⟨71, _⟩ => ⟨S1x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_cst : Ref sig .tc := ⟨.hbm, 45, rfl⟩
abbrev main_call1_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_cst : Ref sig .tc := ⟨.hbm, 53, rfl⟩
abbrev main_call2_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call3_cst : Ref sig .tc := ⟨.hbm, 66, rfl⟩
abbrev main_call3_v0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call4_cst : Ref sig .tc := ⟨.hbm, 74, rfl⟩
abbrev main_call4_v0 : Ref sig .tc := ⟨.hbm, 75, rfl⟩
abbrev main_v48 : Ref sig .tc := ⟨.hbm, 76, rfl⟩

abbrev nD : Nat := 1
abbrev τ : Topo := Topo.v7x

variable {F : FTy → Type} [FloatOps F]

class Facts₀ : Prop where
  transposes_S256x40960_S40960x256_1_0 : S256x40960.Transposes [1, 0] S40960x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  bcast_S4096x1_S4096x512_0_1 : S4096x1.BroadcastsInDim S4096x512 (![0, 1] : Fin 2 → Fin S4096x512.rank)
  bcast_S_S4096x1 : S_.BroadcastsInDim S4096x1 (![] : Fin 0 → Fin S4096x1.rank)
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  transposes_S256x512_S512x256_1_0 : S256x512.Transposes [1, 0] S512x256
  bcast_S_S4096x256 : S_.BroadcastsInDim S4096x256 (![] : Fin 0 → Fin S4096x256.rank)
  transposes_S4096x256_S256x4096_1_0 : S4096x256.Transposes [1, 0] S256x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x40960_S40960x256_S4096x256_1_0_0_1_n_n_wf : DotDims.WF S4096x40960 S40960x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []
  dot_S4096x512_S512x256_S4096x256_1_0_0_1_n_n_wf : DotDims.WF S4096x512 S512x256 S4096x256 [1] [0] [0] [1] [] []
  dot_S4096x256_S256x4096_S4096x4096_1_0_0_1_n_n_wf : DotDims.WF S4096x256 S256x4096 S4096x4096 [1] [0] [0] [1] [] []

variable [Facts₀]

def dot_S4096x40960_S40960x256_S4096x256_1_0_0_1_n_n : DotDims S4096x40960 S40960x256 S4096x256 where
  lhsContracting := [1]
  rhsContracting := [0]
  lhsNonContracting := [0]
  rhsNonContracting := [1]
  lhsBatch := []
  rhsBatch := []
  wf := dot_S4096x40960_S40960x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.Embed0Base.lean ====
/-
  The first embedding product, white · W_wᵀ + b_w, is one kernel call over 80 grid points: point t multiplies the t-th
  block of 512 feature columns of the batch (4096 rows) by the matching 512 columns of the 256 × 40960 weight and adds
  the 4096 × 256 product into an accumulator that lives in a scratch buffer between points. The accumulator is cleared
  at the first point; at the last point accumulator + bias row is written to the result block.
  This module fixes what the later ones share: each window's block at a point, the fact that an input's staging buffer
  holds its block at every point, the two branch conditions as statements about the point's number, where the result
  window is idle, and the call's scoped buffers split at the accumulator.
-/
import proofs.«145307_j27281632264596_1_alg».proof.Proof.Gen.KernelIdeal.Launch
import proofs.«145307_j27281632264596_1_alg».proof.Proof.Gen.KernelIdeal.Skeleton
import proofs.«145307_j27281632264596_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Embed0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at grid point `t`, cut out of its array as the call finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The batch's feature block: its staging buffer holds column block `t` at point `t`. -/
theorem holds_x {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight's column block likewise. -/
theorem holds_w {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias row is one block for the whole grid: fetched at the first point, it is still there at every later one. -/
theorem holds_b {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two branches of the body, by the point's number -/

/-- The accumulator is cleared exactly when the grid coordinate is 0. -/
abbrev isFirst (i : grid0.Coords) : Prop :=
  (Scalar.cmpi .ne (Scalar.extui (Scalar.cmpi .eq (BitVec.ofNat 32 (i 0).val) 0#32)) 0#32) = 1#1
/-- The result block is written exactly when the grid coordinate is 79. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 79 :=
  (by decide +kernel : ∀ t : Fin grid0.N, isLast (grid0.coords t) ↔ t.val = 79)

/-- The inputs are read at every point. -/
theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
/-- Before the last point nothing is stored into the result block, and it is not written back. -/
theorem idle_out : ∀ t : Fin cfg0.N, ¬isLast (grid0.coords t) → cfg0.idle 3 (grid0.coords t) = true := by decide +kernel
theorem keep_out : ∀ t : Fin cfg0.N, ¬isLast (grid0.coords t) → (cfg0.win 3).flush t = false := by decide +kernel
/-- At the last point it is stored into. -/
theorem live_out : ∀ t : Fin cfg0.N, isLast (grid0.coords t) → cfg0.idle 3 (grid0.coords t) = false := by decide +kernel

/-! ## The memrefs the body is called with -/

abbrev mx (t : Fin cfg0.N) : Memref sig .tc .vmem S4096x512 .f32 := win0_0.stage (cfg0.slots t 0)
abbrev hx (t : Fin cfg0.N) : (mx t).IsWhole := hstage0_0 ((cfg0.slots t 0).cast nbuf0_0)
abbrev mw (t : Fin cfg0.N) : Memref sig .tc .vmem S256x512 .f32 := win0_1.stage (cfg0.slots t 1)
abbrev hw (t : Fin cfg0.N) : (mw t).IsWhole := hstage0_1 ((cfg0.slots t 1).cast nbuf0_1)
abbrev mb (t : Fin cfg0.N) : Memref sig .tc .vmem S256 .f32 := win0_2.stage (cfg0.slots t 2)
abbrev hb (t : Fin cfg0.N) : (mb t).IsWhole := hstage0_2 ((cfg0.slots t 2).cast nbuf0_2)
abbrev mo (t : Fin cfg0.N) : Memref sig .tc .vmem S4096x256 .f32 := win0_3.stage (cfg0.slots t 3)
abbrev ho (t : Fin cfg0.N) : (mo t).IsWhole := hstage0_3 ((cfg0.slots t 3).cast nbuf0_3)
/-- The accumulator: a whole scoped buffer of the call's own. -/
abbrev accM : Memref sig .tc .vmem S4096x256 .f32 := Memref.whole cc0_scratch0
abbrev accV : View sig .tc .vmem S4096x256 .f32 := accM.view
/-- The result window's one staging buffer, as a view through which its contents are stated. -/
abbrev outV : View sig .tc .vmem S4096x256 .f32 := (Memref.whole cc0_stg3_0 : Memref sig .tc .vmem S4096x256 .f32).view

/-- What the call's other scoped buffers are to this region: never opened. -/
abbrev others (c : Dev nD) : sProp 𝕄 :=
  Pipeline.scopedRestBut (Ix := Unit) (Name := ℕ) (U := UR sig nD τ) (Lvl := ℕ) (Val := Elt F) spec0 c [cc0_scratch0]

/-- The class invariant, opened at the accumulator: the accumulator at some contents, the other scoped buffers, the
    generator register at some state. -/
theorem PhiA_split (c : Dev nD) :
    (Pipeline.ΦA spec0 c : sProp 𝕄)
      = iprop(iprop((∃ d, owns (c : Thread nD τ) accM fullShare d) ∗ others (F := F) c) ∗ (∃ r, prngReg c r)) := by
  unfold Pipeline.ΦA; rw [scopedRest0_split]; simp only [accM, owns_whole]; try rfl

end Cert.KernelIdeal.Embed0

end
-- ==== Proof.Embed0RunFirst.lean ====
/-
  The body at the FIRST grid point: the accumulator is cleared, then the product of the point's two blocks is added to
  it. The bias row and the result block are not touched. What the accumulator's buffer ends with is recorded as the list
  of pieces the stores wrote (last first); the run itself finds that list.
-/
import proofs.«145307_j27281632264596_1_alg».proof.Proof.Embed0Base

set_option maxRecDepth 16384

noncomputable section

namespace Cert.KernelIdeal.Embed0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input blocks at `x0`, `x1`; the bias row and the result block at contents handed back
    untouched; the accumulator at anything — the body runs to the continuation holding all of them, the accumulator
    with its pieces written. -/
noncomputable def runFirst (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) :
    { LS : List (View.Piece (Elt F) S4096x256 .f32) //
      ∀ (x2 : Vec F S256 .f32) (x3 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LS)) -∗ K ⟨⟩))
          ⊢ wp frame (wpE (defs₀ (F := F)) Variants.none c none) E (cc0__embed_kernel i arg1 harg1 arg2 harg2 arg3 harg3 arg4 harg4 arg5 harg5) K } := by
  refine ⟨?_, fun x2 x3 E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1
    obtain rfl := harg3.eq_unread hf2; obtain rfl := harg4.eq_unread hf3
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Embed0

end
-- ==== Proof.Embed0RunMid.lean ====
/-
  The body at a grid point that is neither first nor last: the product of the point's two blocks is added to the
  accumulator, which holds what the point before left (`xs`). The bias row and the result block are not touched.
-/
import proofs.«145307_j27281632264596_1_alg».proof.Proof.Embed0RunFirst

set_option maxRecDepth 16384

noncomputable section

namespace Cert.KernelIdeal.Embed0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) :
    { LS : List (View.Piece (Elt F) S4096x256 .f32) //
      ∀ (x2 : Vec F S256 .f32) (x3 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LS)) -∗ K ⟨⟩))
          ⊢ wp frame (wpE (defs₀ (F := F)) Variants.none c none) E (cc0__embed_kernel i arg1 harg1 arg2 harg2 arg3 harg3 arg4 harg4 arg5 harg5) K } := by
  refine ⟨?_, fun x2 x3 E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1
    obtain rfl := harg3.eq_unread hf2; obtain rfl := harg4.eq_unread hf3
    obtain rfl := harg5.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Embed0

end
-- ==== Proof.Embed0RunLast.lean ====
/-
  The body at the LAST grid point: the product of the point's two blocks is added to the accumulator (holding what the
  point before left, `xs`), and then accumulator + bias row, the row repeated down the 4096 rows, is stored to the result
  block, whose earlier contents do not matter.
-/
import proofs.«145307_j27281632264596_1_alg».proof.Proof.Embed0RunMid

set_option maxRecDepth 16384

noncomputable section

namespace Cert.KernelIdeal.Embed0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) :
    Σ' (LO : List (View.Piece (Elt F) S4096x256 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__embed_kernel i arg1 harg1 arg2 harg2 arg3 harg3 arg4 harg4 arg5 harg5) K } := by
  refine ⟨?_, ?_, fun E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1
    obtain rfl := harg3.eq_unread hf2
    obtain rfl := harg5.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

end Cert.KernelIdeal.Embed0

end
-- ==== Proof.Embed0Body.lean ====
/-
  What the accumulator and the result block hold after each of the 80 grid points, and the body's obligation to the
  pipeline at every point.
  After point 0 the accumulator holds 0 + (block 0 of the batch)·(block 0 of the weight)ᵀ; after point t > 0 it holds
  what point t − 1 left plus the product of the t-th blocks; at point 79 the result block receives that sum plus the bias
  row repeated down the rows. Between points the accumulator's contents travel in the region's invariant; the result
  window is idle (handed back as found, not written back) until the last point.
-/
import proofs.«145307_j27281632264596_1_alg».proof.Proof.Embed0RunLast

set_option maxRecDepth 16384

noncomputable section

namespace Cert.KernelIdeal.Embed0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's stores cover the buffer they write -/

theorem coverFirst (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) (y : S4096x256.Idx) :
    ∃ pc ∈ (runFirst c i arg1 harg1 arg2 harg2 arg3 harg3 arg4 harg4 arg5 harg5 hf hl x0 x1).1, y ∈ pc.1.set :=
  View.cover_of_tiledL (runFirst c i arg1 harg1 arg2 harg2 arg3 harg3 arg4 harg4 arg5 harg5 hf hl x0 x1).1 S4096x256.size (by sl_kernel_rfl) y

/-- The accumulator after the first point. -/
def accFirst (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) : Vec F S4096x256 .f32 :=
  accV.read (Elt F) (accV.writes (Elt F) accV.junk (runFirst c i arg1 harg1 arg2 harg2 arg3 harg3 arg4 harg4 arg5 harg5 hf hl x0 x1).1)

theorem coverMid (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) (y : S4096x256.Idx) :
    ∃ pc ∈ (runMid c i arg1 harg1 arg2 harg2 arg3 harg3 arg4 harg4 arg5 harg5 hf hl x0 x1 xs).1, y ∈ pc.1.set :=
  View.cover_of_tiledL (runMid c i arg1 harg1 arg2 harg2 arg3 harg3 arg4 harg4 arg5 harg5 hf hl x0 x1 xs).1 S4096x256.size (by sl_kernel_rfl) y

/-- The accumulator after a middle point, over what the point before left (`xs`). -/
def accMid (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) : Vec F S4096x256 .f32 :=
  accV.read (Elt F) (accV.writes (Elt F) accV.junk (runMid c i arg1 harg1 arg2 harg2 arg3 harg3 arg4 harg4 arg5 harg5 hf hl x0 x1 xs).1)

theorem coverLastAcc (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) (y : S4096x256.Idx) :
    ∃ pc ∈ (runLast c i arg1 harg1 arg2 harg2 arg3 harg3 arg4 harg4 arg5 harg5 hf hl x0 x1 x2 xs).2.1, y ∈ pc.1.set :=
  View.cover_of_tiledL (runLast c i arg1 harg1 arg2 harg2 arg3 harg3 arg4 harg4 arg5 harg5 hf hl x0 x1 x2 xs).2.1 S4096x256.size (by sl_kernel_rfl) y

/-- The accumulator after the last point. -/
def accLast (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) : Vec F S4096x256 .f32 :=
  accV.read (Elt F) (accV.writes (Elt F) accV.junk (runLast c i arg1 harg1 arg2 harg2 arg3 harg3 arg4 harg4 arg5 harg5 hf hl x0 x1 x2 xs).2.1)

theorem coverLastOut (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) (y : S4096x256.Idx) :
    ∃ pc ∈ (runLast c i arg1 harg1 arg2 harg2 arg3 harg3 arg4 harg4 arg5 harg5 hf hl x0 x1 x2 xs).1, y ∈ pc.1.set :=
  View.cover_of_tiledL (runLast c i arg1 harg1 arg2 harg2 arg3 harg3 arg4 harg4 arg5 harg5 hf hl x0 x1 x2 xs).1 S4096x256.size (by sl_kernel_rfl) y

/-- The result block after the last point. -/
def outLast (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) : Vec F S4096x256 .f32 :=
  outV.read (Elt F) (outV.writes (Elt F) outV.junk (runLast c i arg1 harg1 arg2 harg2 arg3 harg3 arg4 harg4 arg5 harg5 hf hl x0 x1 x2 xs).1)

/-- Where the result window is idle its `after` is consulted by nothing: any contents serve. -/
def unusedOut : Vec F S4096x256 .f32 := outV.read (Elt F) outV.junk

section Points

variable (V : (c : Dev nD) → (b : Ref sig .tc) → Buf (Elt F) ((c : Thread nD τ).loc b))

/-! ## The accumulation, point by point -/

/-- After the body at position `n`: (the result block, the accumulator). -/
def stateAt (c : Dev nD) : (n : ℕ) → n < cfg0.N → Vec F S4096x256 .f32 × Vec F S4096x256 .f32
  | 0, hn => (unusedOut, accFirst c (grid0.coords ⟨0, hn⟩) (mx ⟨0, hn⟩) (hx ⟨0, hn⟩) (mw ⟨0, hn⟩) (hw ⟨0, hn⟩) (mb ⟨0, hn⟩) (hb ⟨0, hn⟩) (mo ⟨0, hn⟩) (ho ⟨0, hn⟩) accM (Memref.isWhole_whole _)
      ((isFirst_iff ⟨0, hn⟩).mpr rfl) (fun h => absurd ((isLast_iff ⟨0, hn⟩).mp h) (show ¬(0 : ℕ) = 79 by decide)) (iblk V c 0 ⟨0, hn⟩) (iblk V c 1 ⟨0, hn⟩))
  | n + 1, hn =>
    if h : n + 1 = 79 then
      (outLast c (grid0.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) ((isLast_iff ⟨n + 1, hn⟩).mpr h)
          (iblk V c 0 ⟨n + 1, hn⟩) (iblk V c 1 ⟨n + 1, hn⟩) (iblk V c 2 ⟨n + 1, hn⟩) (stateAt c n (Nat.lt_of_succ_lt hn)).2,
        accLast c (grid0.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) ((isLast_iff ⟨n + 1, hn⟩).mpr h)
          (iblk V c 0 ⟨n + 1, hn⟩) (iblk V c 1 ⟨n + 1, hn⟩) (iblk V c 2 ⟨n + 1, hn⟩) (stateAt c n (Nat.lt_of_succ_lt hn)).2)
    else
      (unusedOut, accMid c (grid0.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) (fun hh => h ((isLast_iff ⟨n + 1, hn⟩).mp hh))
          (iblk V c 0 ⟨n + 1, hn⟩) (iblk V c 1 ⟨n + 1, hn⟩) (stateAt c n (Nat.lt_of_succ_lt hn)).2)

theorem stateAt_first (c : Dev nD) (t : Fin cfg0.N) (h0 : t.val = 0) :
    stateAt V c t.val t.isLt = (unusedOut, accFirst c (grid0.coords t) (mx t) (hx t) (mw t) (hw t) (mb t) (hb t) (mo t) (ho t) accM (Memref.isWhole_whole _)
      ((isFirst_iff t).mpr h0) (fun h => absurd ((isLast_iff t).mp h) (by omega)) (iblk V c 0 t) (iblk V c 1 t)) := by
  obtain ⟨n, hn⟩ := t
  cases n with
  | zero => exact rfl
  | succ n => exact absurd h0 (Nat.succ_ne_zero n)

theorem stateAt_mid (c : Dev nD) (t : Fin cfg0.N) (h0 : t.val ≠ 0) (h1 : t.val ≠ 79) :
    stateAt V c t.val t.isLt = (unusedOut, accMid c (grid0.coords t) (mx t) (hx t) (mw t) (hw t) (mb t) (hb t) (mo t) (ho t) accM (Memref.isWhole_whole _)
      (fun hh => h0 ((isFirst_iff t).mp hh)) (fun hh => h1 ((isLast_iff t).mp hh)) (iblk V c 0 t) (iblk V c 1 t)
      (stateAt V c (t.val - 1) (Nat.lt_of_le_of_lt (Nat.sub_le _ _) t.isLt)).2) := by
  obtain ⟨n, hn⟩ := t
  cases n with
  | zero => exact absurd rfl h0
  | succ n => exact (dif_neg h1).trans rfl

theorem stateAt_last (c : Dev nD) (t : Fin cfg0.N) (h0 : t.val ≠ 0) (h1 : t.val = 79) :
    stateAt V c t.val t.isLt = (outLast c (grid0.coords t) (mx t) (hx t) (mw t) (hw t) (mb t) (hb t) (mo t) (ho t) accM (Memref.isWhole_whole _)
        (fun hh => h0 ((isFirst_iff t).mp hh)) ((isLast_iff t).mpr h1) (iblk V c 0 t) (iblk V c 1 t) (iblk V c 2 t)
        (stateAt V c (t.val - 1) (Nat.lt_of_le_of_lt (Nat.sub_le _ _) t.isLt)).2,
      accLast c (grid0.coords t) (mx t) (hx t) (mw t) (hw t) (mb t) (hb t) (mo t) (ho t) accM (Memref.isWhole_whole _)
        (fun hh => h0 ((isFirst_iff t).mp hh)) ((isLast_iff t).mpr h1) (iblk V c 0 t) (iblk V c 1 t) (iblk V c 2 t)
        (stateAt V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant: the accumulator travels in it -/

/-- Before position `n`: at the start the class invariant (the accumulator at anything); afterwards the accumulator at
    what the point before left, the call's other scoped buffers, the generator register at some state. -/
def Phi (c : Dev nD) : (n : ℕ) → n ≤ cfg0.N → sProp 𝕄
  | 0, _ => Pipeline.ΦA spec0 c
  | n + 1, hn => iprop(iprop(owns (c : Thread nD τ) accM fullShare ((stateAt V c n hn).2) ∗ others (F := F) c) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(iprop(owns (c : Thread nD τ) accM fullShare ((stateAt V c n hn).2) ∗ others (F := F) c) ∗ (∃ r, prngReg c r)) := rfl

theorem Phi_pos (c : Dev nD) (n : ℕ) (h : n ≤ cfg0.N) (hz : n ≠ 0) :
    Phi V c n h = iprop(iprop(owns (c : Thread nD τ) accM fullShare ((stateAt V c (n - 1) (by omega)).2) ∗ others (F := F) c) ∗ (∃ r, prngReg c r)) := by
  cases n with
  | zero => exact absurd rfl hz
  | succ n => rfl

/-! ## The pipeline's proof data -/

/-- The arrays as the call finds them; after the body at point `t` each input's buffer still at its block and the result
    block at `stateAt`'s first component; the invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (stateAt V c t.val t.isLt).1
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_b (c : Dev nD) (t : Fin cfg0.N) : (dat V c).after 2 t = iblk V c 2 t := by dsimp only [dat]
theorem after_out (c : Dev nD) (t : Fin cfg0.N) : (dat V c).after 3 t = (stateAt V c t.val t.isLt).1 := by dsimp only [dat]

theorem before_x (c : Dev nD) (t : Fin cfg0.N) (d) : (dat V c).before 0 t d = iblk V c 0 t :=
  holds_x V (dat V c) (A_eq V c 0) (after_x V c) t d
theorem before_w (c : Dev nD) (t : Fin cfg0.N) (d) : (dat V c).before 1 t d = iblk V c 1 t :=
  holds_w V (dat V c) (A_eq V c 1) (after_w V c) t d
theorem before_b (c : Dev nD) (t : Fin cfg0.N) (d) : (dat V c).before 2 t d = iblk V c 2 t :=
  holds_b V (dat V c) (A_eq V c 2) (after_b V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mb t) fullShare ((dat V c).before 2 t d))
    ∗ (∃ d, owns (c : Thread nD τ) (mo t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_x (c : Dev nD) (t : Fin cfg0.N) :
    (dat V c).leavesExact 0 t = owns (c : Thread nD τ) (mx t) fullShare (iblk V c 0 t) := by
  unfold Dat.leavesExact; rw [live_x t, after_x]
theorem leaves_w (c : Dev nD) (t : Fin cfg0.N) :
    (dat V c).leavesExact 1 t = owns (c : Thread nD τ) (mw t) fullShare (iblk V c 1 t) := by
  unfold Dat.leavesExact; rw [live_w t, after_w]
theorem leaves_b (c : Dev nD) (t : Fin cfg0.N) :
    (dat V c).leavesExact 2 t = owns (c : Thread nD τ) (mb t) fullShare (iblk V c 2 t) := by
  unfold Dat.leavesExact; rw [live_b t, after_b]

set_option maxHeartbeats 4000000 in
/-- The body at any point. The inputs' buffers hold their blocks; the point's number says which case it is in; the
    invariant hands the body the accumulator (at anything at the first point, at what the point before left afterwards)
    and takes it back at this point's contents; the result block is handed back as found before the last point and
    written at it; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).owesAt () t.succ = (dat V c).owesAt () t.castSucc from rfl]
  rw [show (dat V c).Φ t.succ = Phi V c (t.val + 1) t.isLt from rfl, Phi_succ]
  rw [leaves_x, leaves_w, leaves_b]
  have hN : t.val < 80 := lt_of_lt_of_eq t.isLt (show cfg0.N = 80 from N_0)
  by_cases h0 : t.val = 0
  · -- the first point
    have hnl : ¬isLast (grid0.coords t) := fun h => absurd ((isLast_iff t).mp h) (by omega)
    rw [Dat.leavesExact_idle (dat V c) 3 t (idle_out t hnl) (keep_out t hnl)]
    rw [stateAt_first V c t h0]
    unfold accFirst; (try dsimp only)
    rw [Phi_castSucc V c t, Phi_zero V c _ _ h0, PhiA_split]
    iintro ⟨⟨⟨HS, Hoth⟩, Hg⟩, Ho, ⟨%d0, H0⟩, ⟨%d1, H1⟩, ⟨%d2, H2⟩, ⟨%d3, H3⟩⟩
    iapply ((runFirst c (grid0.coords t) _ _ _ _ _ _ _ _ _ _ ((isFirst_iff t).mpr h0) hnl (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitl [HS Hoth]
      · isplitl [HS]
        · unfold owns; iexists _; isplitr
          swap; · iexact HS
          ipureintro; exact View.read_writes_of_cover _ _ _ _ _ (coverFirst c _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · by_cases h1 : t.val = 79
    · -- the last point
      have hl : isLast (grid0.coords t) := (isLast_iff t).mpr h1
      rw [show (dat V c).leavesExact 3 t = owns (c : Thread nD τ) (mo t) fullShare ((dat V c).after 3 t) from by
        unfold Dat.leavesExact; rw [live_out t hl], after_out]
      rw [stateAt_last V c t h0 h1]
      unfold accLast outLast; (try dsimp only)
      rw [Phi_castSucc V c t, Phi_pos V c _ _ h0]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ (fun hh => h0 ((isFirst_iff t).mp hh)) hl (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastAcc c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · -- a middle point
      have hnl : ¬isLast (grid0.coords t) := fun h => h1 ((isLast_iff t).mp h)
      rw [Dat.leavesExact_idle (dat V c) 3 t (idle_out t hnl) (keep_out t hnl)]
      rw [stateAt_mid V c t h0 h1]
      unfold accMid; (try dsimp only)
      rw [Phi_castSucc V c t, Phi_pos V c _ _ h0]
      iintro ⟨⟨⟨HS, Hoth⟩, Hg⟩, Ho, ⟨%d0, H0⟩, ⟨%d1, H1⟩, ⟨%d2, H2⟩, ⟨%d3, H3⟩⟩
      iapply ((runMid c (grid0.coords t) _ _ _ _ _ _ _ _ _ _ (fun hh => h0 ((isFirst_iff t).mp hh)) hnl (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem phi_in (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _

/-- After the last point the invariant gives the class invariant back: the accumulator's contents are forgotten. -/
theorem phi_out (c : Dev nD) : (dat V c).Φ (Fin.last cfg0.N) ⊢ Pipeline.ΦA spec0 c := by
  have hN : cfg0.N = 80 := N_0
  rw [show (dat V c).Φ (Fin.last cfg0.N) = Phi V c (Fin.last cfg0.N).val (Nat.le_of_lt_succ (Fin.last cfg0.N).isLt) from rfl,
    Phi_pos V c _ _ (by rw [Fin.val_last]; omega), PhiA_split]
  iintro ⟨⟨HS, Hoth⟩, Hg⟩
  isplitl [HS Hoth]
  · isplitl [HS]
    · iexists _; iexact HS
    iexact Hoth
  iexact Hg

end Points

end Cert.KernelIdeal.Embed0

end
-- ==== Proof.Embed1Base.lean ====
/-
  The second embedding product, black · W_bᵀ + b_b, is one kernel call over 80 grid points: point t multiplies the t-th
  block of 512 feature columns of the batch (4096 rows) by the matching 512 columns of the 256 × 40960 weight and adds
  the 4096 × 256 product into an accumulator that lives in a scratch buffer between points. The accumulator is cleared
  at the first point; at the last point accumulator + bias row is written to the result block.
  This module fixes what the later ones share: each window's block at a point, the fact that an input's staging buffer
  holds its block at every point, the two branch conditions as statements about the point's number, where the result
  window is idle, and the call's scoped buffers split at the accumulator.
-/
import proofs.«145307_j27281632264596_1_alg».proof.Proof.Gen.KernelIdeal.Launch
import proofs.«145307_j27281632264596_1_alg».proof.Proof.Gen.KernelIdeal.Skeleton
import proofs.«145307_j27281632264596_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Embed1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at grid point `t`, cut out of its array as the call finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The batch's feature block: its staging buffer holds column block `t` at point `t`. -/
theorem holds_x {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight's column block likewise. -/
theorem holds_w {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias row is one block for the whole grid: fetched at the first point, it is still there at every later one. -/
theorem holds_b {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two branches of the body, by the point's number -/

/-- The accumulator is cleared exactly when the grid coordinate is 0. -/
abbrev isFirst (i : grid1.Coords) : Prop :=
  (Scalar.cmpi .ne (Scalar.extui (Scalar.cmpi .eq (BitVec.ofNat 32 (i 0).val) 0#32)) 0#32) = 1#1
/-- The result block is written exactly when the grid coordinate is 79. -/
abbrev isLast (i : grid1.Coords) : Prop := k1_cond2 i = 1#1

theorem isFirst_iff : ∀ t : Fin cfg1.N, isFirst (grid1.coords t) ↔ t.val = 0 :=
  (by decide +kernel : ∀ t : Fin grid1.N, isFirst (grid1.coords t) ↔ t.val = 0)
theorem isLast_iff : ∀ t : Fin cfg1.N, isLast (grid1.coords t) ↔ t.val = 79 :=
  (by decide +kernel : ∀ t : Fin grid1.N, isLast (grid1.coords t) ↔ t.val = 79)

/-- The inputs are read at every point. -/
theorem live_x : ∀ t : Fin cfg1.N, cfg1.idle 0 (grid1.coords t) = false := by decide +kernel
theorem live_w : ∀ t : Fin cfg1.N, cfg1.idle 1 (grid1.coords t) = false := by decide +kernel
theorem live_b : ∀ t : Fin cfg1.N, cfg1.idle 2 (grid1.coords t) = false := by decide +kernel
/-- Before the last point nothing is stored into the result block, and it is not written back. -/
theorem idle_out : ∀ t : Fin cfg1.N, ¬isLast (grid1.coords t) → cfg1.idle 3 (grid1.coords t) = true := by decide +kernel
theorem keep_out : ∀ t : Fin cfg1.N, ¬isLast (grid1.coords t) → (cfg1.win 3).flush t = false := by decide +kernel
/-- At the last point it is stored into. -/
theorem live_out : ∀ t : Fin cfg1.N, isLast (grid1.coords t) → cfg1.idle 3 (grid1.coords t) = false := by decide +kernel

/-! ## The memrefs the body is called with -/

abbrev mx (t : Fin cfg1.N) : Memref sig .tc .vmem S4096x512 .f32 := win1_0.stage (cfg1.slots t 0)
abbrev hx (t : Fin cfg1.N) : (mx t).IsWhole := hstage1_0 ((cfg1.slots t 0).cast nbuf1_0)
abbrev mw (t : Fin cfg1.N) : Memref sig .tc .vmem S256x512 .f32 := win1_1.stage (cfg1.slots t 1)
abbrev hw (t : Fin cfg1.N) : (mw t).IsWhole := hstage1_1 ((cfg1.slots t 1).cast nbuf1_1)
abbrev mb (t : Fin cfg1.N) : Memref sig .tc .vmem S256 .f32 := win1_2.stage (cfg1.slots t 2)
abbrev hb (t : Fin cfg1.N) : (mb t).IsWhole := hstage1_2 ((cfg1.slots t 2).cast nbuf1_2)
abbrev mo (t : Fin cfg1.N) : Memref sig .tc .vmem S4096x256 .f32 := win1_3.stage (cfg1.slots t 3)
abbrev ho (t : Fin cfg1.N) : (mo t).IsWhole := hstage1_3 ((cfg1.slots t 3).cast nbuf1_3)
/-- The accumulator: a whole scoped buffer of the call's own. -/
abbrev accM : Memref sig .tc .vmem S4096x256 .f32 := Memref.whole cc1_scratch0
abbrev accV : View sig .tc .vmem S4096x256 .f32 := accM.view
/-- The result window's one staging buffer, as a view through which its contents are stated. -/
abbrev outV : View sig .tc .vmem S4096x256 .f32 := (Memref.whole cc1_stg3_0 : Memref sig .tc .vmem S4096x256 .f32).view

/-- What the call's other scoped buffers are to this region: never opened. -/
abbrev others (c : Dev nD) : sProp 𝕄 :=
  Pipeline.scopedRestBut (Ix := Unit) (Name := ℕ) (U := UR sig nD τ) (Lvl := ℕ) (Val := Elt F) spec1 c [cc1_scratch0]

/-- The class invariant, opened at the accumulator: the accumulator at some contents, the other scoped buffers, the
    generator register at some state. -/
theorem PhiA_split (c : Dev nD) :
    (Pipeline.ΦA spec1 c : sProp 𝕄)
      = iprop(iprop((∃ d, owns (c : Thread nD τ) accM fullShare d) ∗ others (F := F) c) ∗ (∃ r, prngReg c r)) := by
  unfold Pipeline.ΦA; rw [scopedRest1_split]; simp only [accM, owns_whole]; try rfl

end Cert.KernelIdeal.Embed1

end
-- ==== Proof.Embed1RunFirst.lean ====
/-
  The body at the FIRST grid point: the accumulator is cleared, then the product of the point's two blocks is added to
  it. The bias row and the result block are not touched. What the accumulator's buffer ends with is recorded as the list
  of pieces the stores wrote (last first); the run itself finds that list.
-/
import proofs.«145307_j27281632264596_1_alg».proof.Proof.Embed1Base

set_option maxRecDepth 16384

noncomputable section

namespace Cert.KernelIdeal.Embed1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input blocks at `x0`, `x1`; the bias row and the result block at contents handed back
    untouched; the accumulator at anything — the body runs to the continuation holding all of them, the accumulator
    with its pieces written. -/
noncomputable def runFirst (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) :
    { LS : List (View.Piece (Elt F) S4096x256 .f32) //
      ∀ (x2 : Vec F S256 .f32) (x3 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LS)) -∗ K ⟨⟩))
          ⊢ wp frame (wpE (defs₀ (F := F)) Variants.none c none) E (cc1__embed_kernel i arg1 harg1 arg2 harg2 arg3 harg3 arg4 harg4 arg5 harg5) K } := by
  refine ⟨?_, fun x2 x3 E K => ?run⟩
  case run =>
    simp only [cc1__embed_kernel_eq_skeleton]; unfold cc1__embed_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1
    obtain rfl := harg3.eq_unread hf2; obtain rfl := harg4.eq_unread hf3
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Embed1

end
-- ==== Proof.Embed1RunMid.lean ====
/-
  The body at a grid point that is neither first nor last: the product of the point's two blocks is added to the
  accumulator, which holds what the point before left (`xs`). The bias row and the result block are not touched.
-/
import proofs.«145307_j27281632264596_1_alg».proof.Proof.Embed1RunFirst

set_option maxRecDepth 16384

noncomputable section

namespace Cert.KernelIdeal.Embed1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) :
    { LS : List (View.Piece (Elt F) S4096x256 .f32) //
      ∀ (x2 : Vec F S256 .f32) (x3 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LS)) -∗ K ⟨⟩))
          ⊢ wp frame (wpE (defs₀ (F := F)) Variants.none c none) E (cc1__embed_kernel i arg1 harg1 arg2 harg2 arg3 harg3 arg4 harg4 arg5 harg5) K } := by
  refine ⟨?_, fun x2 x3 E K => ?run⟩
  case run =>
    simp only [cc1__embed_kernel_eq_skeleton]; unfold cc1__embed_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1
    obtain rfl := harg3.eq_unread hf2; obtain rfl := harg4.eq_unread hf3
    obtain rfl := harg5.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Embed1

end
-- ==== Proof.Embed1RunLast.lean ====
/-
  The body at the LAST grid point: the product of the point's two blocks is added to the accumulator (holding what the
  point before left, `xs`), and then accumulator + bias row, the row repeated down the 4096 rows, is stored to the result
  block, whose earlier contents do not matter.
-/
import proofs.«145307_j27281632264596_1_alg».proof.Proof.Embed1RunMid

set_option maxRecDepth 16384

noncomputable section

namespace Cert.KernelIdeal.Embed1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) :
    Σ' (LO : List (View.Piece (Elt F) S4096x256 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__embed_kernel i arg1 harg1 arg2 harg2 arg3 harg3 arg4 harg4 arg5 harg5) K } := by
  refine ⟨?_, ?_, fun E K => ?run⟩
  case run =>
    simp only [cc1__embed_kernel_eq_skeleton]; unfold cc1__embed_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1
    obtain rfl := harg3.eq_unread hf2
    obtain rfl := harg5.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

end Cert.KernelIdeal.Embed1

end
-- ==== Proof.Embed1Body.lean ====
/-
  What the accumulator and the result block hold after each of the 80 grid points, and the body's obligation to the
  pipeline at every point.
  After point 0 the accumulator holds 0 + (block 0 of the batch)·(block 0 of the weight)ᵀ; after point t > 0 it holds
  what point t − 1 left plus the product of the t-th blocks; at point 79 the result block receives that sum plus the bias
  row repeated down the rows. Between points the accumulator's contents travel in the region's invariant; the result
  window is idle (handed back as found, not written back) until the last point.
-/
import proofs.«145307_j27281632264596_1_alg».proof.Proof.Embed1RunLast

set_option maxRecDepth 16384

noncomputable section

namespace Cert.KernelIdeal.Embed1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's stores cover the buffer they write -/

theorem coverFirst (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) (y : S4096x256.Idx) :
    ∃ pc ∈ (runFirst c i arg1 harg1 arg2 harg2 arg3 harg3 arg4 harg4 arg5 harg5 hf hl x0 x1).1, y ∈ pc.1.set :=
  View.cover_of_tiledL (runFirst c i arg1 harg1 arg2 harg2 arg3 harg3 arg4 harg4 arg5 harg5 hf hl x0 x1).1 S4096x256.size (by sl_kernel_rfl) y

/-- The accumulator after the first point. -/
def accFirst (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) : Vec F S4096x256 .f32 :=
  accV.read (Elt F) (accV.writes (Elt F) accV.junk (runFirst c i arg1 harg1 arg2 harg2 arg3 harg3 arg4 harg4 arg5 harg5 hf hl x0 x1).1)

theorem coverMid (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) (y : S4096x256.Idx) :
    ∃ pc ∈ (runMid c i arg1 harg1 arg2 harg2 arg3 harg3 arg4 harg4 arg5 harg5 hf hl x0 x1 xs).1, y ∈ pc.1.set :=
  View.cover_of_tiledL (runMid c i arg1 harg1 arg2 harg2 arg3 harg3 arg4 harg4 arg5 harg5 hf hl x0 x1 xs).1 S4096x256.size (by sl_kernel_rfl) y

/-- The accumulator after a middle point, over what the point before left (`xs`). -/
def accMid (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) : Vec F S4096x256 .f32 :=
  accV.read (Elt F) (accV.writes (Elt F) accV.junk (runMid c i arg1 harg1 arg2 harg2 arg3 harg3 arg4 harg4 arg5 harg5 hf hl x0 x1 xs).1)

theorem coverLastAcc (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) (y : S4096x256.Idx) :
    ∃ pc ∈ (runLast c i arg1 harg1 arg2 harg2 arg3 harg3 arg4 harg4 arg5 harg5 hf hl x0 x1 x2 xs).2.1, y ∈ pc.1.set :=
  View.cover_of_tiledL (runLast c i arg1 harg1 arg2 harg2 arg3 harg3 arg4 harg4 arg5 harg5 hf hl x0 x1 x2 xs).2.1 S4096x256.size (by sl_kernel_rfl) y

/-- The accumulator after the last point. -/
def accLast (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) : Vec F S4096x256 .f32 :=
  accV.read (Elt F) (accV.writes (Elt F) accV.junk (runLast c i arg1 harg1 arg2 harg2 arg3 harg3 arg4 harg4 arg5 harg5 hf hl x0 x1 x2 xs).2.1)

theorem coverLastOut (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) (y : S4096x256.Idx) :
    ∃ pc ∈ (runLast c i arg1 harg1 arg2 harg2 arg3 harg3 arg4 harg4 arg5 harg5 hf hl x0 x1 x2 xs).1, y ∈ pc.1.set :=
  View.cover_of_tiledL (runLast c i arg1 harg1 arg2 harg2 arg3 harg3 arg4 harg4 arg5 harg5 hf hl x0 x1 x2 xs).1 S4096x256.size (by sl_kernel_rfl) y

/-- The result block after the last point. -/
def outLast (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) : Vec F S4096x256 .f32 :=
  outV.read (Elt F) (outV.writes (Elt F) outV.junk (runLast c i arg1 harg1 arg2 harg2 arg3 harg3 arg4 harg4 arg5 harg5 hf hl x0 x1 x2 xs).1)

/-- Where the result window is idle its `after` is consulted by nothing: any contents serve. -/
def unusedOut : Vec F S4096x256 .f32 := outV.read (Elt F) outV.junk

section Points

variable (V : (c : Dev nD) → (b : Ref sig .tc) → Buf (Elt F) ((c : Thread nD τ).loc b))

/-! ## The accumulation, point by point -/

/-- After the body at position `n`: (the result block, the accumulator). -/
def stateAt (c : Dev nD) : (n : ℕ) → n < cfg1.N → Vec F S4096x256 .f32 × Vec F S4096x256 .f32
  | 0, hn => (unusedOut, accFirst c (grid1.coords ⟨0, hn⟩) (mx ⟨0, hn⟩) (hx ⟨0, hn⟩) (mw ⟨0, hn⟩) (hw ⟨0, hn⟩) (mb ⟨0, hn⟩) (hb ⟨0, hn⟩) (mo ⟨0, hn⟩) (ho ⟨0, hn⟩) accM (Memref.isWhole_whole _)
      ((isFirst_iff ⟨0, hn⟩).mpr rfl) (fun h => absurd ((isLast_iff ⟨0, hn⟩).mp h) (show ¬(0 : ℕ) = 79 by decide)) (iblk V c 0 ⟨0, hn⟩) (iblk V c 1 ⟨0, hn⟩))
  | n + 1, hn =>
    if h : n + 1 = 79 then
      (outLast c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) ((isLast_iff ⟨n + 1, hn⟩).mpr h)
          (iblk V c 0 ⟨n + 1, hn⟩) (iblk V c 1 ⟨n + 1, hn⟩) (iblk V c 2 ⟨n + 1, hn⟩) (stateAt c n (Nat.lt_of_succ_lt hn)).2,
        accLast c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) ((isLast_iff ⟨n + 1, hn⟩).mpr h)
          (iblk V c 0 ⟨n + 1, hn⟩) (iblk V c 1 ⟨n + 1, hn⟩) (iblk V c 2 ⟨n + 1, hn⟩) (stateAt c n (Nat.lt_of_succ_lt hn)).2)
    else
      (unusedOut, accMid c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) (fun hh => h ((isLast_iff ⟨n + 1, hn⟩).mp hh))
          (iblk V c 0 ⟨n + 1, hn⟩) (iblk V c 1 ⟨n + 1, hn⟩) (stateAt c n (Nat.lt_of_succ_lt hn)).2)

theorem stateAt_first (c : Dev nD) (t : Fin cfg1.N) (h0 : t.val = 0) :
    stateAt V c t.val t.isLt = (unusedOut, accFirst c (grid1.coords t) (mx t) (hx t) (mw t) (hw t) (mb t) (hb t) (mo t) (ho t) accM (Memref.isWhole_whole _)
      ((isFirst_iff t).mpr h0) (fun h => absurd ((isLast_iff t).mp h) (by omega)) (iblk V c 0 t) (iblk V c 1 t)) := by
  obtain ⟨n, hn⟩ := t
  cases n with
  | zero => exact rfl
  | succ n => exact absurd h0 (Nat.succ_ne_zero n)

theorem stateAt_mid (c : Dev nD) (t : Fin cfg1.N) (h0 : t.val ≠ 0) (h1 : t.val ≠ 79) :
    stateAt V c t.val t.isLt = (unusedOut, accMid c (grid1.coords t) (mx t) (hx t) (mw t) (hw t) (mb t) (hb t) (mo t) (ho t) accM (Memref.isWhole_whole _)
      (fun hh => h0 ((isFirst_iff t).mp hh)) (fun hh => h1 ((isLast_iff t).mp hh)) (iblk V c 0 t) (iblk V c 1 t)
      (stateAt V c (t.val - 1) (Nat.lt_of_le_of_lt (Nat.sub_le _ _) t.isLt)).2) := by
  obtain ⟨n, hn⟩ := t
  cases n with
  | zero => exact absurd rfl h0
  | succ n => exact (dif_neg h1).trans rfl

theorem stateAt_last (c : Dev nD) (t : Fin cfg1.N) (h0 : t.val ≠ 0) (h1 : t.val = 79) :
    stateAt V c t.val t.isLt = (outLast c (grid1.coords t) (mx t) (hx t) (mw t) (hw t) (mb t) (hb t) (mo t) (ho t) accM (Memref.isWhole_whole _)
        (fun hh => h0 ((isFirst_iff t).mp hh)) ((isLast_iff t).mpr h1) (iblk V c 0 t) (iblk V c 1 t) (iblk V c 2 t)
        (stateAt V c (t.val - 1) (Nat.lt_of_le_of_lt (Nat.sub_le _ _) t.isLt)).2,
      accLast c (grid1.coords t) (mx t) (hx t) (mw t) (hw t) (mb t) (hb t) (mo t) (ho t) accM (Memref.isWhole_whole _)
        (fun hh => h0 ((isFirst_iff t).mp hh)) ((isLast_iff t).mpr h1) (iblk V c 0 t) (iblk V c 1 t) (iblk V c 2 t)
        (stateAt V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant: the accumulator travels in it -/

/-- Before position `n`: at the start the class invariant (the accumulator at anything); afterwards the accumulator at
    what the point before left, the call's other scoped buffers, the generator register at some state. -/
def Phi (c : Dev nD) : (n : ℕ) → n ≤ cfg1.N → sProp 𝕄
  | 0, _ => Pipeline.ΦA spec1 c
  | n + 1, hn => iprop(iprop(owns (c : Thread nD τ) accM fullShare ((stateAt V c n hn).2) ∗ others (F := F) c) ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop(iprop(owns (c : Thread nD τ) accM fullShare ((stateAt V c n hn).2) ∗ others (F := F) c) ∗ (∃ r, prngReg c r)) := rfl

theorem Phi_pos (c : Dev nD) (n : ℕ) (h : n ≤ cfg1.N) (hz : n ≠ 0) :
    Phi V c n h = iprop(iprop(owns (c : Thread nD τ) accM fullShare ((stateAt V c (n - 1) (by omega)).2) ∗ others (F := F) c) ∗ (∃ r, prngReg c r)) := by
  cases n with
  | zero => exact absurd rfl hz
  | succ n => rfl

/-! ## The pipeline's proof data -/

/-- The arrays as the call finds them; after the body at point `t` each input's buffer still at its block and the result
    block at `stateAt`'s first component; the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (stateAt V c t.val t.isLt).1
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = Phi V c t.val (Nat.le_of_lt t.isLt) := by
  dsimp only [dat]; simp only [Fin.coe_castSucc]

theorem after_x (c : Dev nD) (t : Fin cfg1.N) : (dat V c).after 0 t = iblk V c 0 t := by dsimp only [dat]
theorem after_w (c : Dev nD) (t : Fin cfg1.N) : (dat V c).after 1 t = iblk V c 1 t := by dsimp only [dat]
theorem after_b (c : Dev nD) (t : Fin cfg1.N) : (dat V c).after 2 t = iblk V c 2 t := by dsimp only [dat]
theorem after_out (c : Dev nD) (t : Fin cfg1.N) : (dat V c).after 3 t = (stateAt V c t.val t.isLt).1 := by dsimp only [dat]

theorem before_x (c : Dev nD) (t : Fin cfg1.N) (d) : (dat V c).before 0 t d = iblk V c 0 t :=
  holds_x V (dat V c) (A_eq V c 0) (after_x V c) t d
theorem before_w (c : Dev nD) (t : Fin cfg1.N) (d) : (dat V c).before 1 t d = iblk V c 1 t :=
  holds_w V (dat V c) (A_eq V c 1) (after_w V c) t d
theorem before_b (c : Dev nD) (t : Fin cfg1.N) (d) : (dat V c).before 2 t d = iblk V c 2 t :=
  holds_b V (dat V c) (A_eq V c 2) (after_b V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mb t) fullShare ((dat V c).before 2 t d))
    ∗ (∃ d, owns (c : Thread nD τ) (mo t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_x (c : Dev nD) (t : Fin cfg1.N) :
    (dat V c).leavesExact 0 t = owns (c : Thread nD τ) (mx t) fullShare (iblk V c 0 t) := by
  unfold Dat.leavesExact; rw [live_x t, after_x]
theorem leaves_w (c : Dev nD) (t : Fin cfg1.N) :
    (dat V c).leavesExact 1 t = owns (c : Thread nD τ) (mw t) fullShare (iblk V c 1 t) := by
  unfold Dat.leavesExact; rw [live_w t, after_w]
theorem leaves_b (c : Dev nD) (t : Fin cfg1.N) :
    (dat V c).leavesExact 2 t = owns (c : Thread nD τ) (mb t) fullShare (iblk V c 2 t) := by
  unfold Dat.leavesExact; rw [live_b t, after_b]

set_option maxHeartbeats 4000000 in
/-- The body at any point. The inputs' buffers hold their blocks; the point's number says which case it is in; the
    invariant hands the body the accumulator (at anything at the first point, at what the point before left afterwards)
    and takes it back at this point's contents; the result block is handed back as found before the last point and
    written at it; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_b]
  rw [show (dat V c).owesAt () t.succ = (dat V c).owesAt () t.castSucc from rfl]
  rw [show (dat V c).Φ t.succ = Phi V c (t.val + 1) t.isLt from rfl, Phi_succ]
  rw [leaves_x, leaves_w, leaves_b]
  have hN : t.val < 80 := lt_of_lt_of_eq t.isLt (show cfg1.N = 80 from N_1)
  by_cases h0 : t.val = 0
  · -- the first point
    have hnl : ¬isLast (grid1.coords t) := fun h => absurd ((isLast_iff t).mp h) (by omega)
    rw [Dat.leavesExact_idle (dat V c) 3 t (idle_out t hnl) (keep_out t hnl)]
    rw [stateAt_first V c t h0]
    unfold accFirst; (try dsimp only)
    rw [Phi_castSucc V c t, Phi_zero V c _ _ h0, PhiA_split]
    iintro ⟨⟨⟨HS, Hoth⟩, Hg⟩, Ho, ⟨%d0, H0⟩, ⟨%d1, H1⟩, ⟨%d2, H2⟩, ⟨%d3, H3⟩⟩
    iapply ((runFirst c (grid1.coords t) _ _ _ _ _ _ _ _ _ _ ((isFirst_iff t).mpr h0) hnl (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitl [HS Hoth]
      · isplitl [HS]
        · unfold owns; iexists _; isplitr
          swap; · iexact HS
          ipureintro; exact View.read_writes_of_cover _ _ _ _ _ (coverFirst c _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · by_cases h1 : t.val = 79
    · -- the last point
      have hl : isLast (grid1.coords t) := (isLast_iff t).mpr h1
      rw [show (dat V c).leavesExact 3 t = owns (c : Thread nD τ) (mo t) fullShare ((dat V c).after 3 t) from by
        unfold Dat.leavesExact; rw [live_out t hl], after_out]
      rw [stateAt_last V c t h0 h1]
      unfold accLast outLast; (try dsimp only)
      rw [Phi_castSucc V c t, Phi_pos V c _ _ h0]
      iintro ⟨⟨⟨HS, Hoth⟩, Hg⟩, Ho, ⟨%d0, H0⟩, ⟨%d1, H1⟩, ⟨%d2, H2⟩, ⟨%d3, H3⟩⟩
      iapply ((runLast c (grid1.coords t) _ _ _ _ _ _ _ _ _ _ (fun hh => h0 ((isFirst_iff t).mp hh)) hl (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastAcc c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · -- a middle point
      have hnl : ¬isLast (grid1.coords t) := fun h => h1 ((isLast_iff t).mp h)
      rw [Dat.leavesExact_idle (dat V c) 3 t (idle_out t hnl) (keep_out t hnl)]
      rw [stateAt_mid V c t h0 h1]
      unfold accMid; (try dsimp only)
      rw [Phi_castSucc V c t, Phi_pos V c _ _ h0]
      iintro ⟨⟨⟨HS, Hoth⟩, Hg⟩, Ho, ⟨%d0, H0⟩, ⟨%d1, H1⟩, ⟨%d2, H2⟩, ⟨%d3, H3⟩⟩
      iapply ((runMid c (grid1.coords t) _ _ _ _ _ _ _ _ _ _ (fun hh => h0 ((isFirst_iff t).mp hh)) hnl (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem phi_in (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After the last point the invariant gives the class invariant back: the accumulator's contents are forgotten. -/
theorem phi_out (c : Dev nD) : (dat V c).Φ (Fin.last cfg1.N) ⊢ Pipeline.ΦA spec1 c := by
  have hN : cfg1.N = 80 := N_1
  rw [show (dat V c).Φ (Fin.last cfg1.N) = Phi V c (Fin.last cfg1.N).val (Nat.le_of_lt_succ (Fin.last cfg1.N).isLt) from rfl,
    Phi_pos V c _ _ (by rw [Fin.val_last]; omega), PhiA_split]
  iintro ⟨⟨HS, Hoth⟩, Hg⟩
  isplitl [HS Hoth]
  · isplitl [HS]
    · iexists _; iexact HS
    iexact Hoth
  iexact Hg

end Points

end Cert.KernelIdeal.Embed1

end
-- ==== Proof.MlpRegion.lean ====
import proofs.«145307_j27281632264596_1_alg».proof.Proof.Gen.KernelIdeal.Launch
import proofs.«145307_j27281632264596_1_alg».proof.Proof.Gen.KernelIdeal.Skeleton
import proofs.«145307_j27281632264596_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third region: the dense head on one batch tile

The third region runs over 8 grid points, one per tile of 512 batch rows.  At a point the body reads
thirteen input blocks (the two embedded halves of the tile, the side-to-move column, and the ten weight and
bias arrays, which are whole and the same at every point) and writes two output blocks, each with a single
store that covers the whole block.  So what the body leaves in an output block is a closed function of the
thirteen input blocks, and every input block is left as it was found.

This module states that function for each output (`out2_13`, `out2_14`), proves the body's triple against
it, packages the per-point contents as the pipeline's proof data (`dat2`), and discharges the library's
body obligation at every point.  Everything is stated at a parameter `V`, the buffers' contents when the
region is entered.
-/

set_option maxRecDepth 16384

noncomputable section

namespace Cert.KernelIdeal.MlpRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it was fetched
    there: where it was not fetched the block index has not moved since the last fetch, and the body leaves the
    block in place.  Stated for any proof data whose array is `V`'s and whose `after` is the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole block -/

abbrev rw_S512x256 : Rect S512x256 := Rect.unit (s := S512x256) ![0, 0] S512x256.size inb_S512x256_S512x256_0_0
abbrev rw_S512x1 : Rect S512x1 := Rect.unit (s := S512x1) ![0, 0] S512x1.size inb_S512x1_S512x1_0_0
abbrev rw_S32x512 : Rect S32x512 := Rect.unit (s := S32x512) ![0, 0] S32x512.size inb_S32x512_S32x512_0_0
abbrev rw_S32 : Rect S32 := Rect.unit (s := S32) ![0] S32.size inb_S32_S32_0
abbrev rw_S32x32 : Rect S32x32 := Rect.unit (s := S32x32) ![0, 0] S32x32.size inb_S32x32_S32x32_0_0
abbrev rw_S1x32 : Rect S1x32 := Rect.unit (s := S1x32) ![0, 0] S1x32.size inb_S1x32_S1x32_0_0
abbrev rw_S1 : Rect S1 := Rect.unit (s := S1) ![0] S1.size inb_S1_S1_0
abbrev rw_S256x512 : Rect S256x512 := Rect.unit (s := S256x512) ![0, 0] S256x512.size inb_S256x512_S256x512_0_0
abbrev rw_S256 : Rect S256 := Rect.unit (s := S256) ![0] S256.size inb_S256_S256_0
abbrev rw_S4096x256 : Rect S4096x256 := Rect.unit (s := S4096x256) ![0, 0] S4096x256.size inb_S4096x256_S4096x256_0_0
abbrev rw_S4096 : Rect S4096 := Rect.unit (s := S4096) ![0] S4096.size inb_S4096_S4096_0
abbrev rw_S512x4096 : Rect S512x4096 := Rect.unit (s := S512x4096) ![0, 0] S512x4096.size inb_S512x4096_S512x4096_0_0

/-! ## What the body leaves in each output block -/

/-- The first output block (512 x 1) after the body: its one store, whose payload is the last layer applied to
    the hidden activations of the tile. -/
def out2_13 (x0 : Vec F S512x256 .f32) (x1 : Vec F S512x256 .f32) (x2 : Vec F S512x1 .f32) (x3 : Vec F S32x512 .f32) (x4 : Vec F S32 .f32) (x5 : Vec F S32x32 .f32) (x6 : Vec F S32 .f32) (x7 : Vec F S1x32 .f32) (x8 : Vec F S1 .f32) (x9 : Vec F S256x512 .f32) (x10 : Vec F S256 .f32) (x11 : Vec F S4096x256 .f32) (x12 : Vec F S4096 .f32) : Vec F S512x1 .f32 :=
  View.canon [⟨rw_S512x1, k2_pay1 (k2_pay4 (View.ld x0 rw_S512x256) (View.ld x1 rw_S512x256) (View.ld x2 rw_S512x1) (View.ld x3 rw_S32x512) (View.ld x4 rw_S32) (View.ld x5 rw_S32x32) (View.ld x6 rw_S32)) (View.ld x7 rw_S1x32) (View.ld x8 rw_S1)⟩]

/-- The second output block (512 x 4096) after the body: its one store, whose payload is the auxiliary head
    applied to the mixed embedding of the tile. -/
def out2_14 (x0 : Vec F S512x256 .f32) (x1 : Vec F S512x256 .f32) (x2 : Vec F S512x1 .f32) (x3 : Vec F S32x512 .f32) (x4 : Vec F S32 .f32) (x5 : Vec F S32x32 .f32) (x6 : Vec F S32 .f32) (x7 : Vec F S1x32 .f32) (x8 : Vec F S1 .f32) (x9 : Vec F S256x512 .f32) (x10 : Vec F S256 .f32) (x11 : Vec F S4096x256 .f32) (x12 : Vec F S4096 .f32) : Vec F S512x4096 .f32 :=
  View.canon [⟨rw_S512x4096, k2_pay2 (k2_pay3 (View.ld x0 rw_S512x256) (View.ld x1 rw_S512x256) (View.ld x2 rw_S512x1)) (View.ld x9 rw_S256x512) (View.ld x10 rw_S256) (View.ld x11 rw_S4096x256) (View.ld x12 rw_S4096)⟩]

/-- A single whole-block store covers the block. -/
theorem cover2_13 (p0 : Vec F S512x1 .f32) (y : S512x1.Idx) :
    ∃ pc ∈ ([⟨rw_S512x1, p0⟩] : List (View.Piece (Elt F) S512x1 .f32)), y ∈ pc.1.set :=
  View.cover_of_tiled [⟨rw_S512x1, p0⟩] S512x1.size (by rfl) y

theorem cover2_14 (p0 : Vec F S512x4096 .f32) (y : S512x4096.Idx) :
    ∃ pc ∈ ([⟨rw_S512x4096, p0⟩] : List (View.Piece (Elt F) S512x4096 .f32)), y ∈ pc.1.set :=
  View.cover_of_tiled [⟨rw_S512x4096, p0⟩] S512x4096.size (by rfl) y

/-! ## The body's triple -/

set_option maxHeartbeats 1000000 in
/-- The body on whole staging memrefs, the inputs' at read contents `x_w` and the outputs' at anything, runs to
    the continuation holding the inputs as they were and each output at `out2_13` / `out2_14` of the inputs. -/
theorem sound_kernel2 (c : Dev nD) (E : Set ℕ) (i : grid2.Coords) (arg1 : Memref sig .tc .vmem S512x256 .f32) (harg1 : arg1.IsWhole) (arg2 : Memref sig .tc .vmem S512x256 .f32) (harg2 : arg2.IsWhole) (arg3 : Memref sig .tc .vmem S512x1 .f32) (harg3 : arg3.IsWhole) (arg4 : Memref sig .tc .vmem S32x512 .f32) (harg4 : arg4.IsWhole) (arg5 : Memref sig .tc .vmem S32 .f32) (harg5 : arg5.IsWhole) (arg6 : Memref sig .tc .vmem S32x32 .f32) (harg6 : arg6.IsWhole) (arg7 : Memref sig .tc .vmem S32 .f32) (harg7 : arg7.IsWhole) (arg8 : Memref sig .tc .vmem S1x32 .f32) (harg8 : arg8.IsWhole) (arg9 : Memref sig .tc .vmem S1 .f32) (harg9 : arg9.IsWhole) (arg10 : Memref sig .tc .vmem S256x512 .f32) (harg10 : arg10.IsWhole) (arg11 : Memref sig .tc .vmem S256 .f32) (harg11 : arg11.IsWhole) (arg12 : Memref sig .tc .vmem S4096x256 .f32) (harg12 : arg12.IsWhole) (arg13 : Memref sig .tc .vmem S4096 .f32) (harg13 : arg13.IsWhole) (arg14 : Memref sig .tc .vmem S512x1 .f32) (harg14 : arg14.IsWhole) (arg15 : Memref sig .tc .vmem S512x4096 .f32) (harg15 : arg15.IsWhole)
    (x0 : Vec F S512x256 .f32) (x1 : Vec F S512x256 .f32) (x2 : Vec F S512x1 .f32) (x3 : Vec F S32x512 .f32) (x4 : Vec F S32 .f32) (x5 : Vec F S32x32 .f32) (x6 : Vec F S32 .f32) (x7 : Vec F S1x32 .f32) (x8 : Vec F S1 .f32) (x9 : Vec F S256x512 .f32) (x10 : Vec F S256 .f32) (x11 : Vec F S4096x256 .f32) (x12 : Vec F S4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (out2_13 x0 x1 x2 x3 x4 x5 x6 x7 x8 x9 x10 x11 x12) ∗ owns (c : Thread nD τ) arg15 fullShare (out2_14 x0 x1 x2 x3 x4 x5 x6 x7 x8 x9 x10 x11 x12)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover2_13 _)
  iexists _; isplitr
  swap; · iexact H14
  ipureintro
  exact View.read_writes_eq_canon _ _ _ (cover2_14 _)

/-! ## The proof data of the region -/

/-- The proof data on core `c`: the arrays as the region finds them (`V`); after the body at point `t` each
    input's buffer at its block and each output's at `out2_13` / `out2_14` of the input blocks at `t`; the
    invariant is the untouched rest; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) := by dsimp only [dat2]
theorem after2_14 (c : Dev nD) (t : Fin cfg2.N) : (dat2 V c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t))

set_option maxHeartbeats 1000000 in
/-- The body at any point: the inputs' memrefs hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel2 c Set.univ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.MlpRegion

end
-- ==== Proof.Whole.lean ====
/-
  The whole program: three kernel calls one after the other with nothing between them. The contents of the unscoped
  buffers are followed from the launch through each call — a call changes only its result arrays, to what its pipeline's
  write-backs leave there — and the three calls' records are chained into one run: every weakly fair execution terminates
  and ends with every unscoped buffer at the contents after the third call.
-/
import proofs.«145307_j27281632264596_1_alg».proof.Proof.Embed0Body
import proofs.«145307_j27281632264596_1_alg».proof.Proof.Embed1Body
import proofs.«145307_j27281632264596_1_alg».proof.Proof.MlpRegion
import proofs.«145307_j27281632264596_1_alg».proof.Proof.Gen.KernelIdeal.Regions
import Idealize.ShloMosaic.Lib.Pipeline.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents at each boundary -/

/-- At launch. -/
abbrev W0 : Dev nD → Valuation τ sig (Elt F) := fun c b => m ((c : Dev nD), b)
abbrev E0 : (c : Dev nD) → (b : Ref sig .tc) → Buf (Elt F) ((c : Thread nD τ).loc b) := fun c b => W0 m c b

/-- After region 0: its arrays at what the pipeline's write-backs leave, every other buffer as entered. -/
def W1 (c : Dev nD) : Valuation τ sig (Elt F) :=
  Pipeline.withArrays spec0 c (W0 m c) fun w => (Embed0.dat (E0 m) c).arrAt w cfg0.N
theorem W1_arr (c : Dev nD) (w : Fin cfg0.W) :
    W1 m c (Proc.devRef .tc (Pipeline.arrRef spec0 w)) = (Embed0.dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev E1 : (c : Dev nD) → (b : Ref sig .tc) → Buf (Elt F) ((c : Thread nD τ).loc b) := fun c b => W1 m c b
theorem hF0 (c : Dev nD) (w : Fin cfg0.W) : (Embed0.dat (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After region 1: its arrays at what the pipeline's write-backs leave, every other buffer as entered. -/
def W2 (c : Dev nD) : Valuation τ sig (Elt F) :=
  Pipeline.withArrays spec1 c (W1 m c) fun w => (Embed1.dat (E1 m) c).arrAt w cfg1.N
theorem W2_arr (c : Dev nD) (w : Fin cfg1.W) :
    W2 m c (Proc.devRef .tc (Pipeline.arrRef spec1 w)) = (Embed1.dat (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev E2 : (c : Dev nD) → (b : Ref sig .tc) → Buf (Elt F) ((c : Thread nD τ).loc b) := fun c b => W2 m c b
theorem hF1 (c : Dev nD) (w : Fin cfg1.W) : (Embed1.dat (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After region 2: its arrays at what the pipeline's write-backs leave, every other buffer as entered. -/
def W3 (c : Dev nD) : Valuation τ sig (Elt F) :=
  Pipeline.withArrays spec2 c (W2 m c) fun w => (MlpRegion.dat2 (E2 m) c).arrAt w cfg2.N
theorem W3_arr (c : Dev nD) (w : Fin cfg2.W) :
    W3 m c (Proc.devRef .tc (Pipeline.arrRef spec2 w)) = (MlpRegion.dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references. -/
abbrev E3 : (c : Dev nD) → (b : Ref sig .tc) → Buf (Elt F) ((c : Thread nD τ).loc b) := fun c b => W3 m c b
theorem hF2 (c : Dev nD) (w : Fin cfg2.W) : (MlpRegion.dat2 (E2 m) c).arrAt w cfg2.N = E3 m c (Pipeline.arrRef spec2 w) :=
  (W3_arr m c w).symm
theorem hrest2 (c : Dev nD) : ∀ b, b ∉ Finset.univ.image (Pipeline.arrRef spec2) → E3 m c b = E2 m c b :=
  fun b hb => W3_of_ne m c b fun w e => hb (Finset.mem_image.mpr ⟨w, Finset.mem_univ _, e⟩)

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => Embed0.dat (E0 m) c
  | ⟨1, _⟩ => fun c => Embed1.dat (E1 m) c
  | ⟨2, _⟩ => fun c => MlpRegion.dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every call: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at the boundary's contents, left with the
    region's arrays at what its write-backs leave and every other buffer as entered. Its arrays are split out of the
    unscoped buffers and put back; the generator register goes into the region's invariant and comes out; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Embed0.body_obligation (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Embed0.phi_out (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the
    region's arrays at what its write-backs leave and every other buffer as entered. Its arrays are split out of the
    unscoped buffers and put back; the generator register goes into the region's invariant and comes out; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Embed1.body_obligation (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Embed1.phi_out (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary's contents, left with the
    region's arrays at what its write-backs leave and every other buffer as entered. Its arrays are split out of the
    unscoped buffers and put back; the generator register goes into the region's invariant and comes out; nothing is
    owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (MlpRegion.body_obligation2 (E2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

abbrev segs : List (Pipeline.Seg (pcfgs (F := F)) adm (pdats m) () defs₀ 𝒱₀ L lv) :=
  [ .region (reg0 m), .region (reg1 m), .region (reg2 m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every final state has each unscoped buffer at the contents after the third call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c => by
      show iprop(StableHlo.held (c : Thread nD τ) (Pipeline.ucRefs τ sig) (W3 m c) ∗ (∃ r, prngReg c r) ∗ ∃ W, owes (c : Thread nD τ) (0 : CellTallies nD τ sig Unit) W)
        ⊢ (iprop((StableHlo.held (c : Thread nD τ) (Pipeline.ucRefs τ sig) (W3 m c) ∗ ∃ r, prngReg c r) ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Whole

end
-- ==== Proof.WholeArgs.lean ====
/-
  Read off the last boundary: every argument array is as launched — at each call it is either no window of that call,
  or an input window, whose array the pipeline leaves as it found it — and each array a call produces holds what that
  call's write-backs leave until a later call's input window reads it.
-/
import proofs.«145307_j27281632264596_1_alg».proof.Proof.Whole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array after its call is the array before it. -/
theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((Embed0.dat (E0 m) c).arrAt_in w hw _).trans (Embed0.A_eq (E0 m) c w))
theorem W2_in (c : Dev nD) (w : Fin cfg1.W) (hw : (cfg1.win w).isOut = false) :
    W2 m c (Proc.devRef .tc (Pipeline.arrRef spec1 w)) = W1 m c (Proc.devRef .tc (Pipeline.arrRef spec1 w)) :=
  (W2_arr m c w).trans (((Embed1.dat (E1 m) c).arrAt_in w hw _).trans (Embed1.A_eq (E1 m) c w))
theorem W3_in (c : Dev nD) (w : Fin cfg2.W) (hw : (cfg2.win w).isOut = false) :
    W3 m c (Proc.devRef .tc (Pipeline.arrRef spec2 w)) = W2 m c (Proc.devRef .tc (Pipeline.arrRef spec2 w)) :=
  (W3_arr m c w).trans (((MlpRegion.dat2 (E2 m) c).arrAt_in w hw _).trans (MlpRegion.A_eq2 (E2 m) c w))

theorem W3_main_arg0 (c : Dev nD) : W3 m c (Proc.devRef .tc main_arg0) = m ((c : Thread nD τ).loc main_arg0) :=
  (W3_in m c 2 rfl).trans <| (W2_of_ne m c main_arg0 (by decide)).trans <| (W1_of_ne m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (W1_in m c 0 rfl).trans rfl
theorem W3_main_arg2 (c : Dev nD) : W3 m c (Proc.devRef .tc main_arg2) = m ((c : Thread nD τ).loc main_arg2) :=
  (W3_of_ne m c main_arg2 (by decide)).trans <| (W2_in m c 0 rfl).trans <| (W1_of_ne m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (W1_in m c 1 rfl).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (W1_in m c 2 rfl).trans rfl
theorem W3_main_arg5 (c : Dev nD) : W3 m c (Proc.devRef .tc main_arg5) = m ((c : Thread nD τ).loc main_arg5) :=
  (W3_of_ne m c main_arg5 (by decide)).trans <| (W2_in m c 1 rfl).trans <| (W1_of_ne m c main_arg5 (by decide)).trans rfl
theorem W3_main_arg6 (c : Dev nD) : W3 m c (Proc.devRef .tc main_arg6) = m ((c : Thread nD τ).loc main_arg6) :=
  (W3_of_ne m c main_arg6 (by decide)).trans <| (W2_in m c 2 rfl).trans <| (W1_of_ne m c main_arg6 (by decide)).trans rfl
theorem W3_main_arg7 (c : Dev nD) : W3 m c (Proc.devRef .tc main_arg7) = m ((c : Thread nD τ).loc main_arg7) :=
  (W3_in m c 3 rfl).trans <| (W2_of_ne m c main_arg7 (by decide)).trans <| (W1_of_ne m c main_arg7 (by decide)).trans rfl
theorem W3_main_arg8 (c : Dev nD) : W3 m c (Proc.devRef .tc main_arg8) = m ((c : Thread nD τ).loc main_arg8) :=
  (W3_in m c 4 rfl).trans <| (W2_of_ne m c main_arg8 (by decide)).trans <| (W1_of_ne m c main_arg8 (by decide)).trans rfl
theorem W3_main_arg9 (c : Dev nD) : W3 m c (Proc.devRef .tc main_arg9) = m ((c : Thread nD τ).loc main_arg9) :=
  (W3_in m c 5 rfl).trans <| (W2_of_ne m c main_arg9 (by decide)).trans <| (W1_of_ne m c main_arg9 (by decide)).trans rfl
theorem W3_main_arg10 (c : Dev nD) : W3 m c (Proc.devRef .tc main_arg10) = m ((c : Thread nD τ).loc main_arg10) :=
  (W3_in m c 6 rfl).trans <| (W2_of_ne m c main_arg10 (by decide)).trans <| (W1_of_ne m c main_arg10 (by decide)).trans rfl
theorem W3_main_arg11 (c : Dev nD) : W3 m c (Proc.devRef .tc main_arg11) = m ((c : Thread nD τ).loc main_arg11) :=
  (W3_in m c 7 rfl).trans <| (W2_of_ne m c main_arg11 (by decide)).trans <| (W1_of_ne m c main_arg11 (by decide)).trans rfl
theorem W3_main_arg12 (c : Dev nD) : W3 m c (Proc.devRef .tc main_arg12) = m ((c : Thread nD τ).loc main_arg12) :=
  (W3_in m c 8 rfl).trans <| (W2_of_ne m c main_arg12 (by decide)).trans <| (W1_of_ne m c main_arg12 (by decide)).trans rfl
theorem W3_main_arg13 (c : Dev nD) : W3 m c (Proc.devRef .tc main_arg13) = m ((c : Thread nD τ).loc main_arg13) :=
  (W3_in m c 9 rfl).trans <| (W2_of_ne m c main_arg13 (by decide)).trans <| (W1_of_ne m c main_arg13 (by decide)).trans rfl
theorem W3_main_arg14 (c : Dev nD) : W3 m c (Proc.devRef .tc main_arg14) = m ((c : Thread nD τ).loc main_arg14) :=
  (W3_in m c 10 rfl).trans <| (W2_of_ne m c main_arg14 (by decide)).trans <| (W1_of_ne m c main_arg14 (by decide)).trans rfl
theorem W3_main_arg15 (c : Dev nD) : W3 m c (Proc.devRef .tc main_arg15) = m ((c : Thread nD τ).loc main_arg15) :=
  (W3_in m c 11 rfl).trans <| (W2_of_ne m c main_arg15 (by decide)).trans <| (W1_of_ne m c main_arg15 (by decide)).trans rfl
theorem W3_main_arg16 (c : Dev nD) : W3 m c (Proc.devRef .tc main_arg16) = m ((c : Thread nD τ).loc main_arg16) :=
  (W3_in m c 12 rfl).trans <| (W2_of_ne m c main_arg16 (by decide)).trans <| (W1_of_ne m c main_arg16 (by decide)).trans rfl

/-- The first product, as the third call finds it: what the first call's write-backs left. -/
theorem E2_main_v0 (c : Dev nD) : E2 m c main_v0 = (Embed0.dat (E0 m) c).arrAt 3 cfg0.N :=
  (W2_of_ne m c main_v0 (by decide)).trans (W1_arr m c 3)
/-- The second product likewise. -/
theorem E2_main_v1 (c : Dev nD) : E2 m c main_v1 = (Embed1.dat (E1 m) c).arrAt 3 cfg1.N :=
  W2_arr m c 3
/-- An argument as the third call finds it. -/
theorem E2_of_arg (c : Dev nD) (b : Ref sig .tc) (h0 : ∀ w, Pipeline.arrRef spec0 w ≠ b) (h1 : ∀ w, Pipeline.arrRef spec1 w ≠ b) :
    E2 m c b = m ((c : Thread nD τ).loc b) :=
  (W2_of_ne m c b h1).trans ((W1_of_ne m c b h0).trans rfl)
/-- An argument as the second call finds it. -/
theorem E1_of_arg (c : Dev nD) (b : Ref sig .tc) (h0 : ∀ w, Pipeline.arrRef spec0 w ≠ b) :
    E1 m c b = m ((c : Thread nD τ).loc b) :=
  (W1_of_ne m c b h0).trans rfl
/-- The two results at the end. -/
theorem W3_main_v2_0 (c : Dev nD) : W3 m c (Proc.devRef .tc main_v2_0) = (MlpRegion.dat2 (E2 m) c).arrAt 13 cfg2.N := W3_arr m c 13
theorem W3_main_v2_1 (c : Dev nD) : W3 m c (Proc.devRef .tc main_v2_1) = (MlpRegion.dat2 (E2 m) c).arrAt 14 cfg2.N := W3_arr m c 14

variable (ρ : Dev nD → PrngReg)

/-- The program's run, its post read at the arguments and the two results. -/
theorem run_named : θ_run defs (onTc (τ := τ) (main (F := F))) ⟨m, fun _ => 0, ρ⟩ (fun r => ∀ c : Dev nD,
      r.2.mem ((c.tc : Thread nD τ).loc main_v2_0) = (MlpRegion.dat2 (E2 m) c).arrAt 13 cfg2.N
      ∧ r.2.mem ((c.tc : Thread nD τ).loc main_v2_1) = (MlpRegion.dat2 (E2 m) c).arrAt 14 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v2_0 (by decide))).trans (W3_main_v2_0 m c),
     (h c _ (mem_uc main_v2_1 (by decide))).trans (W3_main_v2_1 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c),
     (h c _ (mem_uc main_arg10 (by decide))).trans (W3_main_arg10 m c),
     (h c _ (mem_uc main_arg11 (by decide))).trans (W3_main_arg11 m c),
     (h c _ (mem_uc main_arg12 (by decide))).trans (W3_main_arg12 m c),
     (h c _ (mem_uc main_arg13 (by decide))).trans (W3_main_arg13 m c),
     (h c _ (mem_uc main_arg14 (by decide))).trans (W3_main_arg14 m c),
     (h c _ (mem_uc main_arg15 (by decide))).trans (W3_main_arg15 m c),
     (h c _ (mem_uc main_arg16 (by decide))).trans (W3_main_arg16 m c)⟩)
    (run_all m ρ)

/-- The frame: the same run, its post read at the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2.2) (run_named m ρ)

end Cert.KernelIdeal.Whole

end
-- ==== Proof.Embed0BaseBits.lean ====
/-
  The first embedding product, white · W_wᵀ + b_w, is one kernel call over 80 grid points: point t multiplies the t-th
  block of 512 feature columns of the batch (4096 rows) by the matching 512 columns of the 256 × 40960 weight and adds
  the 4096 × 256 product into an accumulator that lives in a scratch buffer between points. The accumulator is cleared
  at the first point; at the last point accumulator + bias row is written to the result block.
  This module fixes what the later ones share: each window's block at a point, the fact that an input's staging buffer
  holds its block at every point, the two branch conditions as statements about the point's number, where the result
  window is idle, and the call's scoped buffers split at the accumulator.
-/
import proofs.«145307_j27281632264596_1_alg».proof.Proof.Gen.Kernel.Launch
import proofs.«145307_j27281632264596_1_alg».proof.Proof.Gen.Kernel.Skeleton
import proofs.«145307_j27281632264596_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Embed0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at grid point `t`, cut out of its array as the call finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The batch's feature block: its staging buffer holds column block `t` at point `t`. -/
theorem holds_x {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight's column block likewise. -/
theorem holds_w {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias row is one block for the whole grid: fetched at the first point, it is still there at every later one. -/
theorem holds_b {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two branches of the body, by the point's number -/

/-- The accumulator is cleared exactly when the grid coordinate is 0. -/
abbrev isFirst (i : grid0.Coords) : Prop :=
  (Scalar.cmpi .ne (Scalar.extui (Scalar.cmpi .eq (BitVec.ofNat 32 (i 0).val) 0#32)) 0#32) = 1#1
/-- The result block is written exactly when the grid coordinate is 79. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 79 :=
  (by decide +kernel : ∀ t : Fin grid0.N, isLast (grid0.coords t) ↔ t.val = 79)

/-- The inputs are read at every point. -/
theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
/-- Before the last point nothing is stored into the result block, and it is not written back. -/
theorem idle_out : ∀ t : Fin cfg0.N, ¬isLast (grid0.coords t) → cfg0.idle 3 (grid0.coords t) = true := by decide +kernel
theorem keep_out : ∀ t : Fin cfg0.N, ¬isLast (grid0.coords t) → (cfg0.win 3).flush t = false := by decide +kernel
/-- At the last point it is stored into. -/
theorem live_out : ∀ t : Fin cfg0.N, isLast (grid0.coords t) → cfg0.idle 3 (grid0.coords t) = false := by decide +kernel

/-! ## The memrefs the body is called with -/

abbrev mx (t : Fin cfg0.N) : Memref sig .tc .vmem S4096x512 .f32 := win0_0.stage (cfg0.slots t 0)
abbrev hx (t : Fin cfg0.N) : (mx t).IsWhole := hstage0_0 ((cfg0.slots t 0).cast nbuf0_0)
abbrev mw (t : Fin cfg0.N) : Memref sig .tc .vmem S256x512 .f32 := win0_1.stage (cfg0.slots t 1)
abbrev hw (t : Fin cfg0.N) : (mw t).IsWhole := hstage0_1 ((cfg0.slots t 1).cast nbuf0_1)
abbrev mb (t : Fin cfg0.N) : Memref sig .tc .vmem S256 .f32 := win0_2.stage (cfg0.slots t 2)
abbrev hb (t : Fin cfg0.N) : (mb t).IsWhole := hstage0_2 ((cfg0.slots t 2).cast nbuf0_2)
abbrev mo (t : Fin cfg0.N) : Memref sig .tc .vmem S4096x256 .f32 := win0_3.stage (cfg0.slots t 3)
abbrev ho (t : Fin cfg0.N) : (mo t).IsWhole := hstage0_3 ((cfg0.slots t 3).cast nbuf0_3)
/-- The accumulator: a whole scoped buffer of the call's own. -/
abbrev accM : Memref sig .tc .vmem S4096x256 .f32 := Memref.whole cc0_scratch0
abbrev accV : View sig .tc .vmem S4096x256 .f32 := accM.view
/-- The result window's one staging buffer, as a view through which its contents are stated. -/
abbrev outV : View sig .tc .vmem S4096x256 .f32 := (Memref.whole cc0_stg3_0 : Memref sig .tc .vmem S4096x256 .f32).view

/-- What the call's other scoped buffers are to this region: never opened. -/
abbrev others (c : Dev nD) : sProp 𝕄 :=
  Pipeline.scopedRestBut (Ix := Unit) (Name := ℕ) (U := UR sig nD τ) (Lvl := ℕ) (Val := Elt F) spec0 c [cc0_scratch0]

/-- The class invariant, opened at the accumulator: the accumulator at some contents, the other scoped buffers, the
    generator register at some state. -/
theorem PhiA_split (c : Dev nD) :
    (Pipeline.ΦA spec0 c : sProp 𝕄)
      = iprop(iprop((∃ d, owns (c : Thread nD τ) accM fullShare d) ∗ others (F := F) c) ∗ (∃ r, prngReg c r)) := by
  unfold Pipeline.ΦA; rw [scopedRest0_split]; simp only [accM, owns_whole]; try rfl

end Cert.Kernel.Embed0

end
-- ==== Proof.Embed0RunFirstBits.lean ====
/-
  The body at the FIRST grid point: the accumulator is cleared, then the product of the point's two blocks is added to
  it. The bias row and the result block are not touched. What the accumulator's buffer ends with is recorded as the list
  of pieces the stores wrote (last first); the run itself finds that list.
-/
import proofs.«145307_j27281632264596_1_alg».proof.Proof.Embed0BaseBits

set_option maxRecDepth 16384

noncomputable section

namespace Cert.Kernel.Embed0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input blocks at `x0`, `x1`; the bias row and the result block at contents handed back
    untouched; the accumulator at anything — the body runs to the continuation holding all of them, the accumulator
    with its pieces written. -/
noncomputable def runFirst (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) :
    { LS : List (View.Piece (Elt F) S4096x256 .f32) //
      ∀ (x2 : Vec F S256 .f32) (x3 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LS)) -∗ K ⟨⟩))
          ⊢ wp frame (wpE (defs₀ (F := F)) Variants.none c none) E (cc0__embed_kernel i arg1 harg1 arg2 harg2 arg3 harg3 arg4 harg4 arg5 harg5) K } := by
  refine ⟨?_, fun x2 x3 E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1
    obtain rfl := harg3.eq_unread hf2; obtain rfl := harg4.eq_unread hf3
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Embed0

end
-- ==== Proof.Embed0RunMidBits.lean ====
/-
  The body at a grid point that is neither first nor last: the product of the point's two blocks is added to the
  accumulator, which holds what the point before left (`xs`). The bias row and the result block are not touched.
-/
import proofs.«145307_j27281632264596_1_alg».proof.Proof.Embed0RunFirstBits

set_option maxRecDepth 16384

noncomputable section

namespace Cert.Kernel.Embed0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) :
    { LS : List (View.Piece (Elt F) S4096x256 .f32) //
      ∀ (x2 : Vec F S256 .f32) (x3 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LS)) -∗ K ⟨⟩))
          ⊢ wp frame (wpE (defs₀ (F := F)) Variants.none c none) E (cc0__embed_kernel i arg1 harg1 arg2 harg2 arg3 harg3 arg4 harg4 arg5 harg5) K } := by
  refine ⟨?_, fun x2 x3 E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1
    obtain rfl := harg3.eq_unread hf2; obtain rfl := harg4.eq_unread hf3
    obtain rfl := harg5.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Embed0

end
-- ==== Proof.Embed0RunLastBits.lean ====
/-
  The body at the LAST grid point: the product of the point's two blocks is added to the accumulator (holding what the
  point before left, `xs`), and then accumulator + bias row, the row repeated down the 4096 rows, is stored to the result
  block, whose earlier contents do not matter.
-/
import proofs.«145307_j27281632264596_1_alg».proof.Proof.Embed0RunMidBits

set_option maxRecDepth 16384

noncomputable section

namespace Cert.Kernel.Embed0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) :
    Σ' (LO : List (View.Piece (Elt F) S4096x256 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__embed_kernel i arg1 harg1 arg2 harg2 arg3 harg3 arg4 harg4 arg5 harg5) K } := by
  refine ⟨?_, ?_, fun E K => ?run⟩
  case run =>
    simp only [cc0__embed_kernel_eq_skeleton]; unfold cc0__embed_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1
    obtain rfl := harg3.eq_unread hf2
    obtain rfl := harg5.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

end Cert.Kernel.Embed0

end
-- ==== Proof.Embed0BodyBits.lean ====
/-
  What the accumulator and the result block hold after each of the 80 grid points, and the body's obligation to the
  pipeline at every point.
  After point 0 the accumulator holds 0 + (block 0 of the batch)·(block 0 of the weight)ᵀ; after point t > 0 it holds
  what point t − 1 left plus the product of the t-th blocks; at point 79 the result block receives that sum plus the bias
  row repeated down the rows. Between points the accumulator's contents travel in the region's invariant; the result
  window is idle (handed back as found, not written back) until the last point.
-/
import proofs.«145307_j27281632264596_1_alg».proof.Proof.Embed0RunLastBits

set_option maxRecDepth 16384

noncomputable section

namespace Cert.Kernel.Embed0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's stores cover the buffer they write -/

theorem coverFirst (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) (y : S4096x256.Idx) :
    ∃ pc ∈ (runFirst c i arg1 harg1 arg2 harg2 arg3 harg3 arg4 harg4 arg5 harg5 hf hl x0 x1).1, y ∈ pc.1.set :=
  View.cover_of_tiledL (runFirst c i arg1 harg1 arg2 harg2 arg3 harg3 arg4 harg4 arg5 harg5 hf hl x0 x1).1 S4096x256.size (by sl_kernel_rfl) y

/-- The accumulator after the first point. -/
def accFirst (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) : Vec F S4096x256 .f32 :=
  accV.read (Elt F) (accV.writes (Elt F) accV.junk (runFirst c i arg1 harg1 arg2 harg2 arg3 harg3 arg4 harg4 arg5 harg5 hf hl x0 x1).1)

theorem coverMid (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) (y : S4096x256.Idx) :
    ∃ pc ∈ (runMid c i arg1 harg1 arg2 harg2 arg3 harg3 arg4 harg4 arg5 harg5 hf hl x0 x1 xs).1, y ∈ pc.1.set :=
  View.cover_of_tiledL (runMid c i arg1 harg1 arg2 harg2 arg3 harg3 arg4 harg4 arg5 harg5 hf hl x0 x1 xs).1 S4096x256.size (by sl_kernel_rfl) y

/-- The accumulator after a middle point, over what the point before left (`xs`). -/
def accMid (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) : Vec F S4096x256 .f32 :=
  accV.read (Elt F) (accV.writes (Elt F) accV.junk (runMid c i arg1 harg1 arg2 harg2 arg3 harg3 arg4 harg4 arg5 harg5 hf hl x0 x1 xs).1)

theorem coverLastAcc (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) (y : S4096x256.Idx) :
    ∃ pc ∈ (runLast c i arg1 harg1 arg2 harg2 arg3 harg3 arg4 harg4 arg5 harg5 hf hl x0 x1 x2 xs).2.1, y ∈ pc.1.set :=
  View.cover_of_tiledL (runLast c i arg1 harg1 arg2 harg2 arg3 harg3 arg4 harg4 arg5 harg5 hf hl x0 x1 x2 xs).2.1 S4096x256.size (by sl_kernel_rfl) y

/-- The accumulator after the last point. -/
def accLast (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) : Vec F S4096x256 .f32 :=
  accV.read (Elt F) (accV.writes (Elt F) accV.junk (runLast c i arg1 harg1 arg2 harg2 arg3 harg3 arg4 harg4 arg5 harg5 hf hl x0 x1 x2 xs).2.1)

theorem coverLastOut (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) (y : S4096x256.Idx) :
    ∃ pc ∈ (runLast c i arg1 harg1 arg2 harg2 arg3 harg3 arg4 harg4 arg5 harg5 hf hl x0 x1 x2 xs).1, y ∈ pc.1.set :=
  View.cover_of_tiledL (runLast c i arg1 harg1 arg2 harg2 arg3 harg3 arg4 harg4 arg5 harg5 hf hl x0 x1 x2 xs).1 S4096x256.size (by sl_kernel_rfl) y

/-- The result block after the last point. -/
def outLast (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) : Vec F S4096x256 .f32 :=
  outV.read (Elt F) (outV.writes (Elt F) outV.junk (runLast c i arg1 harg1 arg2 harg2 arg3 harg3 arg4 harg4 arg5 harg5 hf hl x0 x1 x2 xs).1)

/-- Where the result window is idle its `after` is consulted by nothing: any contents serve. -/
def unusedOut : Vec F S4096x256 .f32 := outV.read (Elt F) outV.junk

section Points

variable (V : (c : Dev nD) → (b : Ref sig .tc) → Buf (Elt F) ((c : Thread nD τ).loc b))

/-! ## The accumulation, point by point -/

/-- After the body at position `n`: (the result block, the accumulator). -/
def stateAt (c : Dev nD) : (n : ℕ) → n < cfg0.N → Vec F S4096x256 .f32 × Vec F S4096x256 .f32
  | 0, hn => (unusedOut, accFirst c (grid0.coords ⟨0, hn⟩) (mx ⟨0, hn⟩) (hx ⟨0, hn⟩) (mw ⟨0, hn⟩) (hw ⟨0, hn⟩) (mb ⟨0, hn⟩) (hb ⟨0, hn⟩) (mo ⟨0, hn⟩) (ho ⟨0, hn⟩) accM (Memref.isWhole_whole _)
      ((isFirst_iff ⟨0, hn⟩).mpr rfl) (fun h => absurd ((isLast_iff ⟨0, hn⟩).mp h) (show ¬(0 : ℕ) = 79 by decide)) (iblk V c 0 ⟨0, hn⟩) (iblk V c 1 ⟨0, hn⟩))
  | n + 1, hn =>
    if h : n + 1 = 79 then
      (outLast c (grid0.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) ((isLast_iff ⟨n + 1, hn⟩).mpr h)
          (iblk V c 0 ⟨n + 1, hn⟩) (iblk V c 1 ⟨n + 1, hn⟩) (iblk V c 2 ⟨n + 1, hn⟩) (stateAt c n (Nat.lt_of_succ_lt hn)).2,
        accLast c (grid0.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) ((isLast_iff ⟨n + 1, hn⟩).mpr h)
          (iblk V c 0 ⟨n + 1, hn⟩) (iblk V c 1 ⟨n + 1, hn⟩) (iblk V c 2 ⟨n + 1, hn⟩) (stateAt c n (Nat.lt_of_succ_lt hn)).2)
    else
      (unusedOut, accMid c (grid0.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) (fun hh => h ((isLast_iff ⟨n + 1, hn⟩).mp hh))
          (iblk V c 0 ⟨n + 1, hn⟩) (iblk V c 1 ⟨n + 1, hn⟩) (stateAt c n (Nat.lt_of_succ_lt hn)).2)

theorem stateAt_first (c : Dev nD) (t : Fin cfg0.N) (h0 : t.val = 0) :
    stateAt V c t.val t.isLt = (unusedOut, accFirst c (grid0.coords t) (mx t) (hx t) (mw t) (hw t) (mb t) (hb t) (mo t) (ho t) accM (Memref.isWhole_whole _)
      ((isFirst_iff t).mpr h0) (fun h => absurd ((isLast_iff t).mp h) (by omega)) (iblk V c 0 t) (iblk V c 1 t)) := by
  obtain ⟨n, hn⟩ := t
  cases n with
  | zero => exact rfl
  | succ n => exact absurd h0 (Nat.succ_ne_zero n)

theorem stateAt_mid (c : Dev nD) (t : Fin cfg0.N) (h0 : t.val ≠ 0) (h1 : t.val ≠ 79) :
    stateAt V c t.val t.isLt = (unusedOut, accMid c (grid0.coords t) (mx t) (hx t) (mw t) (hw t) (mb t) (hb t) (mo t) (ho t) accM (Memref.isWhole_whole _)
      (fun hh => h0 ((isFirst_iff t).mp hh)) (fun hh => h1 ((isLast_iff t).mp hh)) (iblk V c 0 t) (iblk V c 1 t)
      (stateAt V c (t.val - 1) (Nat.lt_of_le_of_lt (Nat.sub_le _ _) t.isLt)).2) := by
  obtain ⟨n, hn⟩ := t
  cases n with
  | zero => exact absurd rfl h0
  | succ n => exact (dif_neg h1).trans rfl

theorem stateAt_last (c : Dev nD) (t : Fin cfg0.N) (h0 : t.val ≠ 0) (h1 : t.val = 79) :
    stateAt V c t.val t.isLt = (outLast c (grid0.coords t) (mx t) (hx t) (mw t) (hw t) (mb t) (hb t) (mo t) (ho t) accM (Memref.isWhole_whole _)
        (fun hh => h0 ((isFirst_iff t).mp hh)) ((isLast_iff t).mpr h1) (iblk V c 0 t) (iblk V c 1 t) (iblk V c 2 t)
        (stateAt V c (t.val - 1) (Nat.lt_of_le_of_lt (Nat.sub_le _ _) t.isLt)).2,
      accLast c (grid0.coords t) (mx t) (hx t) (mw t) (hw t) (mb t) (hb t) (mo t) (ho t) accM (Memref.isWhole_whole _)
        (fun hh => h0 ((isFirst_iff t).mp hh)) ((isLast_iff t).mpr h1) (iblk V c 0 t) (iblk V c 1 t) (iblk V c 2 t)
        (stateAt V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant: the accumulator travels in it -/

/-- Before position `n`: at the start the class invariant (the accumulator at anything); afterwards the accumulator at
    what the point before left, the call's other scoped buffers, the generator register at some state. -/
def Phi (c : Dev nD) : (n : ℕ) → n ≤ cfg0.N → sProp 𝕄
  | 0, _ => Pipeline.ΦA spec0 c
  | n + 1, hn => iprop(iprop(owns (c : Thread nD τ) accM fullShare ((stateAt V c n hn).2) ∗ others (F := F) c) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(iprop(owns (c : Thread nD τ) accM fullShare ((stateAt V c n hn).2) ∗ others (F := F) c) ∗ (∃ r, prngReg c r)) := rfl

theorem Phi_pos (c : Dev nD) (n : ℕ) (h : n ≤ cfg0.N) (hz : n ≠ 0) :
    Phi V c n h = iprop(iprop(owns (c : Thread nD τ) accM fullShare ((stateAt V c (n - 1) (by omega)).2) ∗ others (F := F) c) ∗ (∃ r, prngReg c r)) := by
  cases n with
  | zero => exact absurd rfl hz
  | succ n => rfl

/-! ## The pipeline's proof data -/

/-- The arrays as the call finds them; after the body at point `t` each input's buffer still at its block and the result
    block at `stateAt`'s first component; the invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (stateAt V c t.val t.isLt).1
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_b (c : Dev nD) (t : Fin cfg0.N) : (dat V c).after 2 t = iblk V c 2 t := by dsimp only [dat]
theorem after_out (c : Dev nD) (t : Fin cfg0.N) : (dat V c).after 3 t = (stateAt V c t.val t.isLt).1 := by dsimp only [dat]

theorem before_x (c : Dev nD) (t : Fin cfg0.N) (d) : (dat V c).before 0 t d = iblk V c 0 t :=
  holds_x V (dat V c) (A_eq V c 0) (after_x V c) t d
theorem before_w (c : Dev nD) (t : Fin cfg0.N) (d) : (dat V c).before 1 t d = iblk V c 1 t :=
  holds_w V (dat V c) (A_eq V c 1) (after_w V c) t d
theorem before_b (c : Dev nD) (t : Fin cfg0.N) (d) : (dat V c).before 2 t d = iblk V c 2 t :=
  holds_b V (dat V c) (A_eq V c 2) (after_b V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mb t) fullShare ((dat V c).before 2 t d))
    ∗ (∃ d, owns (c : Thread nD τ) (mo t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_x (c : Dev nD) (t : Fin cfg0.N) :
    (dat V c).leavesExact 0 t = owns (c : Thread nD τ) (mx t) fullShare (iblk V c 0 t) := by
  unfold Dat.leavesExact; rw [live_x t, after_x]
theorem leaves_w (c : Dev nD) (t : Fin cfg0.N) :
    (dat V c).leavesExact 1 t = owns (c : Thread nD τ) (mw t) fullShare (iblk V c 1 t) := by
  unfold Dat.leavesExact; rw [live_w t, after_w]
theorem leaves_b (c : Dev nD) (t : Fin cfg0.N) :
    (dat V c).leavesExact 2 t = owns (c : Thread nD τ) (mb t) fullShare (iblk V c 2 t) := by
  unfold Dat.leavesExact; rw [live_b t, after_b]

set_option maxHeartbeats 4000000 in
/-- The body at any point. The inputs' buffers hold their blocks; the point's number says which case it is in; the
    invariant hands the body the accumulator (at anything at the first point, at what the point before left afterwards)
    and takes it back at this point's contents; the result block is handed back as found before the last point and
    written at it; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).owesAt () t.succ = (dat V c).owesAt () t.castSucc from rfl]
  rw [show (dat V c).Φ t.succ = Phi V c (t.val + 1) t.isLt from rfl, Phi_succ]
  rw [leaves_x, leaves_w, leaves_b]
  have hN : t.val < 80 := lt_of_lt_of_eq t.isLt (show cfg0.N = 80 from N_0)
  by_cases h0 : t.val = 0
  · -- the first point
    have hnl : ¬isLast (grid0.coords t) := fun h => absurd ((isLast_iff t).mp h) (by omega)
    rw [Dat.leavesExact_idle (dat V c) 3 t (idle_out t hnl) (keep_out t hnl)]
    rw [stateAt_first V c t h0]
    unfold accFirst; (try dsimp only)
    rw [Phi_castSucc V c t, Phi_zero V c _ _ h0, PhiA_split]
    iintro ⟨⟨⟨HS, Hoth⟩, Hg⟩, Ho, ⟨%d0, H0⟩, ⟨%d1, H1⟩, ⟨%d2, H2⟩, ⟨%d3, H3⟩⟩
    iapply ((runFirst c (grid0.coords t) _ _ _ _ _ _ _ _ _ _ ((isFirst_iff t).mpr h0) hnl (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitl [HS Hoth]
      · isplitl [HS]
        · unfold owns; iexists _; isplitr
          swap; · iexact HS
          ipureintro; exact View.read_writes_of_cover _ _ _ _ _ (coverFirst c _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · by_cases h1 : t.val = 79
    · -- the last point
      have hl : isLast (grid0.coords t) := (isLast_iff t).mpr h1
      rw [show (dat V c).leavesExact 3 t = owns (c : Thread nD τ) (mo t) fullShare ((dat V c).after 3 t) from by
        unfold Dat.leavesExact; rw [live_out t hl], after_out]
      rw [stateAt_last V c t h0 h1]
      unfold accLast outLast; (try dsimp only)
      rw [Phi_castSucc V c t, Phi_pos V c _ _ h0]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ (fun hh => h0 ((isFirst_iff t).mp hh)) hl (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastAcc c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · -- a middle point
      have hnl : ¬isLast (grid0.coords t) := fun h => h1 ((isLast_iff t).mp h)
      rw [Dat.leavesExact_idle (dat V c) 3 t (idle_out t hnl) (keep_out t hnl)]
      rw [stateAt_mid V c t h0 h1]
      unfold accMid; (try dsimp only)
      rw [Phi_castSucc V c t, Phi_pos V c _ _ h0]
      iintro ⟨⟨⟨HS, Hoth⟩, Hg⟩, Ho, ⟨%d0, H0⟩, ⟨%d1, H1⟩, ⟨%d2, H2⟩, ⟨%d3, H3⟩⟩
      iapply ((runMid c (grid0.coords t) _ _ _ _ _ _ _ _ _ _ (fun hh => h0 ((isFirst_iff t).mp hh)) hnl (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem phi_in (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _

/-- After the last point the invariant gives the class invariant back: the accumulator's contents are forgotten. -/
theorem phi_out (c : Dev nD) : (dat V c).Φ (Fin.last cfg0.N) ⊢ Pipeline.ΦA spec0 c := by
  have hN : cfg0.N = 80 := N_0
  rw [show (dat V c).Φ (Fin.last cfg0.N) = Phi V c (Fin.last cfg0.N).val (Nat.le_of_lt_succ (Fin.last cfg0.N).isLt) from rfl,
    Phi_pos V c _ _ (by rw [Fin.val_last]; omega), PhiA_split]
  iintro ⟨⟨HS, Hoth⟩, Hg⟩
  isplitl [HS Hoth]
  · isplitl [HS]
    · iexists _; iexact HS
    iexact Hoth
  iexact Hg

end Points

end Cert.Kernel.Embed0

end
-- ==== Proof.Embed1BaseBits.lean ====
/-
  The second embedding product, black · W_bᵀ + b_b, is one kernel call over 80 grid points: point t multiplies the t-th
  block of 512 feature columns of the batch (4096 rows) by the matching 512 columns of the 256 × 40960 weight and adds
  the 4096 × 256 product into an accumulator that lives in a scratch buffer between points. The accumulator is cleared
  at the first point; at the last point accumulator + bias row is written to the result block.
  This module fixes what the later ones share: each window's block at a point, the fact that an input's staging buffer
  holds its block at every point, the two branch conditions as statements about the point's number, where the result
  window is idle, and the call's scoped buffers split at the accumulator.
-/
import proofs.«145307_j27281632264596_1_alg».proof.Proof.Gen.Kernel.Launch
import proofs.«145307_j27281632264596_1_alg».proof.Proof.Gen.Kernel.Skeleton
import proofs.«145307_j27281632264596_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Embed1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at grid point `t`, cut out of its array as the call finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The batch's feature block: its staging buffer holds column block `t` at point `t`. -/
theorem holds_x {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight's column block likewise. -/
theorem holds_w {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The bias row is one block for the whole grid: fetched at the first point, it is still there at every later one. -/
theorem holds_b {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Blocks

/-! ## The two branches of the body, by the point's number -/

/-- The accumulator is cleared exactly when the grid coordinate is 0. -/
abbrev isFirst (i : grid1.Coords) : Prop :=
  (Scalar.cmpi .ne (Scalar.extui (Scalar.cmpi .eq (BitVec.ofNat 32 (i 0).val) 0#32)) 0#32) = 1#1
/-- The result block is written exactly when the grid coordinate is 79. -/
abbrev isLast (i : grid1.Coords) : Prop := k1_cond2 i = 1#1

theorem isFirst_iff : ∀ t : Fin cfg1.N, isFirst (grid1.coords t) ↔ t.val = 0 :=
  (by decide +kernel : ∀ t : Fin grid1.N, isFirst (grid1.coords t) ↔ t.val = 0)
theorem isLast_iff : ∀ t : Fin cfg1.N, isLast (grid1.coords t) ↔ t.val = 79 :=
  (by decide +kernel : ∀ t : Fin grid1.N, isLast (grid1.coords t) ↔ t.val = 79)

/-- The inputs are read at every point. -/
theorem live_x : ∀ t : Fin cfg1.N, cfg1.idle 0 (grid1.coords t) = false := by decide +kernel
theorem live_w : ∀ t : Fin cfg1.N, cfg1.idle 1 (grid1.coords t) = false := by decide +kernel
theorem live_b : ∀ t : Fin cfg1.N, cfg1.idle 2 (grid1.coords t) = false := by decide +kernel
/-- Before the last point nothing is stored into the result block, and it is not written back. -/
theorem idle_out : ∀ t : Fin cfg1.N, ¬isLast (grid1.coords t) → cfg1.idle 3 (grid1.coords t) = true := by decide +kernel
theorem keep_out : ∀ t : Fin cfg1.N, ¬isLast (grid1.coords t) → (cfg1.win 3).flush t = false := by decide +kernel
/-- At the last point it is stored into. -/
theorem live_out : ∀ t : Fin cfg1.N, isLast (grid1.coords t) → cfg1.idle 3 (grid1.coords t) = false := by decide +kernel

/-! ## The memrefs the body is called with -/

abbrev mx (t : Fin cfg1.N) : Memref sig .tc .vmem S4096x512 .f32 := win1_0.stage (cfg1.slots t 0)
abbrev hx (t : Fin cfg1.N) : (mx t).IsWhole := hstage1_0 ((cfg1.slots t 0).cast nbuf1_0)
abbrev mw (t : Fin cfg1.N) : Memref sig .tc .vmem S256x512 .f32 := win1_1.stage (cfg1.slots t 1)
abbrev hw (t : Fin cfg1.N) : (mw t).IsWhole := hstage1_1 ((cfg1.slots t 1).cast nbuf1_1)
abbrev mb (t : Fin cfg1.N) : Memref sig .tc .vmem S256 .f32 := win1_2.stage (cfg1.slots t 2)
abbrev hb (t : Fin cfg1.N) : (mb t).IsWhole := hstage1_2 ((cfg1.slots t 2).cast nbuf1_2)
abbrev mo (t : Fin cfg1.N) : Memref sig .tc .vmem S4096x256 .f32 := win1_3.stage (cfg1.slots t 3)
abbrev ho (t : Fin cfg1.N) : (mo t).IsWhole := hstage1_3 ((cfg1.slots t 3).cast nbuf1_3)
/-- The accumulator: a whole scoped buffer of the call's own. -/
abbrev accM : Memref sig .tc .vmem S4096x256 .f32 := Memref.whole cc1_scratch0
abbrev accV : View sig .tc .vmem S4096x256 .f32 := accM.view
/-- The result window's one staging buffer, as a view through which its contents are stated. -/
abbrev outV : View sig .tc .vmem S4096x256 .f32 := (Memref.whole cc1_stg3_0 : Memref sig .tc .vmem S4096x256 .f32).view

/-- What the call's other scoped buffers are to this region: never opened. -/
abbrev others (c : Dev nD) : sProp 𝕄 :=
  Pipeline.scopedRestBut (Ix := Unit) (Name := ℕ) (U := UR sig nD τ) (Lvl := ℕ) (Val := Elt F) spec1 c [cc1_scratch0]

/-- The class invariant, opened at the accumulator: the accumulator at some contents, the other scoped buffers, the
    generator register at some state. -/
theorem PhiA_split (c : Dev nD) :
    (Pipeline.ΦA spec1 c : sProp 𝕄)
      = iprop(iprop((∃ d, owns (c : Thread nD τ) accM fullShare d) ∗ others (F := F) c) ∗ (∃ r, prngReg c r)) := by
  unfold Pipeline.ΦA; rw [scopedRest1_split]; simp only [accM, owns_whole]; try rfl

end Cert.Kernel.Embed1

end
-- ==== Proof.Embed1RunFirstBits.lean ====
/-
  The body at the FIRST grid point: the accumulator is cleared, then the product of the point's two blocks is added to
  it. The bias row and the result block are not touched. What the accumulator's buffer ends with is recorded as the list
  of pieces the stores wrote (last first); the run itself finds that list.
-/
import proofs.«145307_j27281632264596_1_alg».proof.Proof.Embed1BaseBits

set_option maxRecDepth 16384

noncomputable section

namespace Cert.Kernel.Embed1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input blocks at `x0`, `x1`; the bias row and the result block at contents handed back
    untouched; the accumulator at anything — the body runs to the continuation holding all of them, the accumulator
    with its pieces written. -/
noncomputable def runFirst (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) :
    { LS : List (View.Piece (Elt F) S4096x256 .f32) //
      ∀ (x2 : Vec F S256 .f32) (x3 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LS)) -∗ K ⟨⟩))
          ⊢ wp frame (wpE (defs₀ (F := F)) Variants.none c none) E (cc1__embed_kernel i arg1 harg1 arg2 harg2 arg3 harg3 arg4 harg4 arg5 harg5) K } := by
  refine ⟨?_, fun x2 x3 E K => ?run⟩
  case run =>
    simp only [cc1__embed_kernel_eq_skeleton]; unfold cc1__embed_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1
    obtain rfl := harg3.eq_unread hf2; obtain rfl := harg4.eq_unread hf3
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Embed1

end
-- ==== Proof.Embed1RunMidBits.lean ====
/-
  The body at a grid point that is neither first nor last: the product of the point's two blocks is added to the
  accumulator, which holds what the point before left (`xs`). The bias row and the result block are not touched.
-/
import proofs.«145307_j27281632264596_1_alg».proof.Proof.Embed1RunFirstBits

set_option maxRecDepth 16384

noncomputable section

namespace Cert.Kernel.Embed1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) :
    { LS : List (View.Piece (Elt F) S4096x256 .f32) //
      ∀ (x2 : Vec F S256 .f32) (x3 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LS)) -∗ K ⟨⟩))
          ⊢ wp frame (wpE (defs₀ (F := F)) Variants.none c none) E (cc1__embed_kernel i arg1 harg1 arg2 harg2 arg3 harg3 arg4 harg4 arg5 harg5) K } := by
  refine ⟨?_, fun x2 x3 E K => ?run⟩
  case run =>
    simp only [cc1__embed_kernel_eq_skeleton]; unfold cc1__embed_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1
    obtain rfl := harg3.eq_unread hf2; obtain rfl := harg4.eq_unread hf3
    obtain rfl := harg5.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Embed1

end
-- ==== Proof.Embed1RunLastBits.lean ====
/-
  The body at the LAST grid point: the product of the point's two blocks is added to the accumulator (holding what the
  point before left, `xs`), and then accumulator + bias row, the row repeated down the 4096 rows, is stored to the result
  block, whose earlier contents do not matter.
-/
import proofs.«145307_j27281632264596_1_alg».proof.Proof.Embed1RunMidBits

set_option maxRecDepth 16384

noncomputable section

namespace Cert.Kernel.Embed1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) :
    Σ' (LO : List (View.Piece (Elt F) S4096x256 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__embed_kernel i arg1 harg1 arg2 harg2 arg3 harg3 arg4 harg4 arg5 harg5) K } := by
  refine ⟨?_, ?_, fun E K => ?run⟩
  case run =>
    simp only [cc1__embed_kernel_eq_skeleton]; unfold cc1__embed_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1
    obtain rfl := harg3.eq_unread hf2
    obtain rfl := harg5.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

end Cert.Kernel.Embed1

end
-- ==== Proof.Embed1BodyBits.lean ====
/-
  What the accumulator and the result block hold after each of the 80 grid points, and the body's obligation to the
  pipeline at every point.
  After point 0 the accumulator holds 0 + (block 0 of the batch)·(block 0 of the weight)ᵀ; after point t > 0 it holds
  what point t − 1 left plus the product of the t-th blocks; at point 79 the result block receives that sum plus the bias
  row repeated down the rows. Between points the accumulator's contents travel in the region's invariant; the result
  window is idle (handed back as found, not written back) until the last point.
-/
import proofs.«145307_j27281632264596_1_alg».proof.Proof.Embed1RunLastBits

set_option maxRecDepth 16384

noncomputable section

namespace Cert.Kernel.Embed1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's stores cover the buffer they write -/

theorem coverFirst (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) (y : S4096x256.Idx) :
    ∃ pc ∈ (runFirst c i arg1 harg1 arg2 harg2 arg3 harg3 arg4 harg4 arg5 harg5 hf hl x0 x1).1, y ∈ pc.1.set :=
  View.cover_of_tiledL (runFirst c i arg1 harg1 arg2 harg2 arg3 harg3 arg4 harg4 arg5 harg5 hf hl x0 x1).1 S4096x256.size (by sl_kernel_rfl) y

/-- The accumulator after the first point. -/
def accFirst (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) : Vec F S4096x256 .f32 :=
  accV.read (Elt F) (accV.writes (Elt F) accV.junk (runFirst c i arg1 harg1 arg2 harg2 arg3 harg3 arg4 harg4 arg5 harg5 hf hl x0 x1).1)

theorem coverMid (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) (y : S4096x256.Idx) :
    ∃ pc ∈ (runMid c i arg1 harg1 arg2 harg2 arg3 harg3 arg4 harg4 arg5 harg5 hf hl x0 x1 xs).1, y ∈ pc.1.set :=
  View.cover_of_tiledL (runMid c i arg1 harg1 arg2 harg2 arg3 harg3 arg4 harg4 arg5 harg5 hf hl x0 x1 xs).1 S4096x256.size (by sl_kernel_rfl) y

/-- The accumulator after a middle point, over what the point before left (`xs`). -/
def accMid (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) : Vec F S4096x256 .f32 :=
  accV.read (Elt F) (accV.writes (Elt F) accV.junk (runMid c i arg1 harg1 arg2 harg2 arg3 harg3 arg4 harg4 arg5 harg5 hf hl x0 x1 xs).1)

theorem coverLastAcc (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) (y : S4096x256.Idx) :
    ∃ pc ∈ (runLast c i arg1 harg1 arg2 harg2 arg3 harg3 arg4 harg4 arg5 harg5 hf hl x0 x1 x2 xs).2.1, y ∈ pc.1.set :=
  View.cover_of_tiledL (runLast c i arg1 harg1 arg2 harg2 arg3 harg3 arg4 harg4 arg5 harg5 hf hl x0 x1 x2 xs).2.1 S4096x256.size (by sl_kernel_rfl) y

/-- The accumulator after the last point. -/
def accLast (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) : Vec F S4096x256 .f32 :=
  accV.read (Elt F) (accV.writes (Elt F) accV.junk (runLast c i arg1 harg1 arg2 harg2 arg3 harg3 arg4 harg4 arg5 harg5 hf hl x0 x1 x2 xs).2.1)

theorem coverLastOut (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) (y : S4096x256.Idx) :
    ∃ pc ∈ (runLast c i arg1 harg1 arg2 harg2 arg3 harg3 arg4 harg4 arg5 harg5 hf hl x0 x1 x2 xs).1, y ∈ pc.1.set :=
  View.cover_of_tiledL (runLast c i arg1 harg1 arg2 harg2 arg3 harg3 arg4 harg4 arg5 harg5 hf hl x0 x1 x2 xs).1 S4096x256.size (by sl_kernel_rfl) y

/-- The result block after the last point. -/
def outLast (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) : Vec F S4096x256 .f32 :=
  outV.read (Elt F) (outV.writes (Elt F) outV.junk (runLast c i arg1 harg1 arg2 harg2 arg3 harg3 arg4 harg4 arg5 harg5 hf hl x0 x1 x2 xs).1)

/-- Where the result window is idle its `after` is consulted by nothing: any contents serve. -/
def unusedOut : Vec F S4096x256 .f32 := outV.read (Elt F) outV.junk

section Points

variable (V : (c : Dev nD) → (b : Ref sig .tc) → Buf (Elt F) ((c : Thread nD τ).loc b))

/-! ## The accumulation, point by point -/

/-- After the body at position `n`: (the result block, the accumulator). -/
def stateAt (c : Dev nD) : (n : ℕ) → n < cfg1.N → Vec F S4096x256 .f32 × Vec F S4096x256 .f32
  | 0, hn => (unusedOut, accFirst c (grid1.coords ⟨0, hn⟩) (mx ⟨0, hn⟩) (hx ⟨0, hn⟩) (mw ⟨0, hn⟩) (hw ⟨0, hn⟩) (mb ⟨0, hn⟩) (hb ⟨0, hn⟩) (mo ⟨0, hn⟩) (ho ⟨0, hn⟩) accM (Memref.isWhole_whole _)
      ((isFirst_iff ⟨0, hn⟩).mpr rfl) (fun h => absurd ((isLast_iff ⟨0, hn⟩).mp h) (show ¬(0 : ℕ) = 79 by decide)) (iblk V c 0 ⟨0, hn⟩) (iblk V c 1 ⟨0, hn⟩))
  | n + 1, hn =>
    if h : n + 1 = 79 then
      (outLast c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) ((isLast_iff ⟨n + 1, hn⟩).mpr h)
          (iblk V c 0 ⟨n + 1, hn⟩) (iblk V c 1 ⟨n + 1, hn⟩) (iblk V c 2 ⟨n + 1, hn⟩) (stateAt c n (Nat.lt_of_succ_lt hn)).2,
        accLast c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) ((isLast_iff ⟨n + 1, hn⟩).mpr h)
          (iblk V c 0 ⟨n + 1, hn⟩) (iblk V c 1 ⟨n + 1, hn⟩) (iblk V c 2 ⟨n + 1, hn⟩) (stateAt c n (Nat.lt_of_succ_lt hn)).2)
    else
      (unusedOut, accMid c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _)
          (fun hh => absurd ((isFirst_iff ⟨n + 1, hn⟩).mp hh) (Nat.succ_ne_zero n)) (fun hh => h ((isLast_iff ⟨n + 1, hn⟩).mp hh))
          (iblk V c 0 ⟨n + 1, hn⟩) (iblk V c 1 ⟨n + 1, hn⟩) (stateAt c n (Nat.lt_of_succ_lt hn)).2)

theorem stateAt_first (c : Dev nD) (t : Fin cfg1.N) (h0 : t.val = 0) :
    stateAt V c t.val t.isLt = (unusedOut, accFirst c (grid1.coords t) (mx t) (hx t) (mw t) (hw t) (mb t) (hb t) (mo t) (ho t) accM (Memref.isWhole_whole _)
      ((isFirst_iff t).mpr h0) (fun h => absurd ((isLast_iff t).mp h) (by omega)) (iblk V c 0 t) (iblk V c 1 t)) := by
  obtain ⟨n, hn⟩ := t
  cases n with
  | zero => exact rfl
  | succ n => exact absurd h0 (Nat.succ_ne_zero n)

theorem stateAt_mid (c : Dev nD) (t : Fin cfg1.N) (h0 : t.val ≠ 0) (h1 : t.val ≠ 79) :
    stateAt V c t.val t.isLt = (unusedOut, accMid c (grid1.coords t) (mx t) (hx t) (mw t) (hw t) (mb t) (hb t) (mo t) (ho t) accM (Memref.isWhole_whole _)
      (fun hh => h0 ((isFirst_iff t).mp hh)) (fun hh => h1 ((isLast_iff t).mp hh)) (iblk V c 0 t) (iblk V c 1 t)
      (stateAt V c (t.val - 1) (Nat.lt_of_le_of_lt (Nat.sub_le _ _) t.isLt)).2) := by
  obtain ⟨n, hn⟩ := t
  cases n with
  | zero => exact absurd rfl h0
  | succ n => exact (dif_neg h1).trans rfl

theorem stateAt_last (c : Dev nD) (t : Fin cfg1.N) (h0 : t.val ≠ 0) (h1 : t.val = 79) :
    stateAt V c t.val t.isLt = (outLast c (grid1.coords t) (mx t) (hx t) (mw t) (hw t) (mb t) (hb t) (mo t) (ho t) accM (Memref.isWhole_whole _)
        (fun hh => h0 ((isFirst_iff t).mp hh)) ((isLast_iff t).mpr h1) (iblk V c 0 t) (iblk V c 1 t) (iblk V c 2 t)
        (stateAt V c (t.val - 1) (Nat.lt_of_le_of_lt (Nat.sub_le _ _) t.isLt)).2,
      accLast c (grid1.coords t) (mx t) (hx t) (mw t) (hw t) (mb t) (hb t) (mo t) (ho t) accM (Memref.isWhole_whole _)
        (fun hh => h0 ((isFirst_iff t).mp hh)) ((isLast_iff t).mpr h1) (iblk V c 0 t) (iblk V c 1 t) (iblk V c 2 t)
        (stateAt V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant: the accumulator travels in it -/

/-- Before position `n`: at the start the class invariant (the accumulator at anything); afterwards the accumulator at
    what the point before left, the call's other scoped buffers, the generator register at some state. -/
def Phi (c : Dev nD) : (n : ℕ) → n ≤ cfg1.N → sProp 𝕄
  | 0, _ => Pipeline.ΦA spec1 c
  | n + 1, hn => iprop(iprop(owns (c : Thread nD τ) accM fullShare ((stateAt V c n hn).2) ∗ others (F := F) c) ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop(iprop(owns (c : Thread nD τ) accM fullShare ((stateAt V c n hn).2) ∗ others (F := F) c) ∗ (∃ r, prngReg c r)) := rfl

theorem Phi_pos (c : Dev nD) (n : ℕ) (h : n ≤ cfg1.N) (hz : n ≠ 0) :
    Phi V c n h = iprop(iprop(owns (c : Thread nD τ) accM fullShare ((stateAt V c (n - 1) (by omega)).2) ∗ others (F := F) c) ∗ (∃ r, prngReg c r)) := by
  cases n with
  | zero => exact absurd rfl hz
  | succ n => rfl

/-! ## The pipeline's proof data -/

/-- The arrays as the call finds them; after the body at point `t` each input's buffer still at its block and the result
    block at `stateAt`'s first component; the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (stateAt V c t.val t.isLt).1
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = Phi V c t.val (Nat.le_of_lt t.isLt) := by
  dsimp only [dat]; simp only [Fin.coe_castSucc]

theorem after_x (c : Dev nD) (t : Fin cfg1.N) : (dat V c).after 0 t = iblk V c 0 t := by dsimp only [dat]
theorem after_w (c : Dev nD) (t : Fin cfg1.N) : (dat V c).after 1 t = iblk V c 1 t := by dsimp only [dat]
theorem after_b (c : Dev nD) (t : Fin cfg1.N) : (dat V c).after 2 t = iblk V c 2 t := by dsimp only [dat]
theorem after_out (c : Dev nD) (t : Fin cfg1.N) : (dat V c).after 3 t = (stateAt V c t.val t.isLt).1 := by dsimp only [dat]

theorem before_x (c : Dev nD) (t : Fin cfg1.N) (d) : (dat V c).before 0 t d = iblk V c 0 t :=
  holds_x V (dat V c) (A_eq V c 0) (after_x V c) t d
theorem before_w (c : Dev nD) (t : Fin cfg1.N) (d) : (dat V c).before 1 t d = iblk V c 1 t :=
  holds_w V (dat V c) (A_eq V c 1) (after_w V c) t d
theorem before_b (c : Dev nD) (t : Fin cfg1.N) (d) : (dat V c).before 2 t d = iblk V c 2 t :=
  holds_b V (dat V c) (A_eq V c 2) (after_b V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mb t) fullShare ((dat V c).before 2 t d))
    ∗ (∃ d, owns (c : Thread nD τ) (mo t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves_x (c : Dev nD) (t : Fin cfg1.N) :
    (dat V c).leavesExact 0 t = owns (c : Thread nD τ) (mx t) fullShare (iblk V c 0 t) := by
  unfold Dat.leavesExact; rw [live_x t, after_x]
theorem leaves_w (c : Dev nD) (t : Fin cfg1.N) :
    (dat V c).leavesExact 1 t = owns (c : Thread nD τ) (mw t) fullShare (iblk V c 1 t) := by
  unfold Dat.leavesExact; rw [live_w t, after_w]
theorem leaves_b (c : Dev nD) (t : Fin cfg1.N) :
    (dat V c).leavesExact 2 t = owns (c : Thread nD τ) (mb t) fullShare (iblk V c 2 t) := by
  unfold Dat.leavesExact; rw [live_b t, after_b]

set_option maxHeartbeats 4000000 in
/-- The body at any point. The inputs' buffers hold their blocks; the point's number says which case it is in; the
    invariant hands the body the accumulator (at anything at the first point, at what the point before left afterwards)
    and takes it back at this point's contents; the result block is handed back as found before the last point and
    written at it; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_b]
  rw [show (dat V c).owesAt () t.succ = (dat V c).owesAt () t.castSucc from rfl]
  rw [show (dat V c).Φ t.succ = Phi V c (t.val + 1) t.isLt from rfl, Phi_succ]
  rw [leaves_x, leaves_w, leaves_b]
  have hN : t.val < 80 := lt_of_lt_of_eq t.isLt (show cfg1.N = 80 from N_1)
  by_cases h0 : t.val = 0
  · -- the first point
    have hnl : ¬isLast (grid1.coords t) := fun h => absurd ((isLast_iff t).mp h) (by omega)
    rw [Dat.leavesExact_idle (dat V c) 3 t (idle_out t hnl) (keep_out t hnl)]
    rw [stateAt_first V c t h0]
    unfold accFirst; (try dsimp only)
    rw [Phi_castSucc V c t, Phi_zero V c _ _ h0, PhiA_split]
    iintro ⟨⟨⟨HS, Hoth⟩, Hg⟩, Ho, ⟨%d0, H0⟩, ⟨%d1, H1⟩, ⟨%d2, H2⟩, ⟨%d3, H3⟩⟩
    iapply ((runFirst c (grid1.coords t) _ _ _ _ _ _ _ _ _ _ ((isFirst_iff t).mpr h0) hnl (iblk V c 0 t) (iblk V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitl [HS Hoth]
      · isplitl [HS]
        · unfold owns; iexists _; isplitr
          swap; · iexact HS
          ipureintro; exact View.read_writes_of_cover _ _ _ _ _ (coverFirst c _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · by_cases h1 : t.val = 79
    · -- the last point
      have hl : isLast (grid1.coords t) := (isLast_iff t).mpr h1
      rw [show (dat V c).leavesExact 3 t = owns (c : Thread nD τ) (mo t) fullShare ((dat V c).after 3 t) from by
        unfold Dat.leavesExact; rw [live_out t hl], after_out]
      rw [stateAt_last V c t h0 h1]
      unfold accLast outLast; (try dsimp only)
      rw [Phi_castSucc V c t, Phi_pos V c _ _ h0]
      iintro ⟨⟨⟨HS, Hoth⟩, Hg⟩, Ho, ⟨%d0, H0⟩, ⟨%d1, H1⟩, ⟨%d2, H2⟩, ⟨%d3, H3⟩⟩
      iapply ((runLast c (grid1.coords t) _ _ _ _ _ _ _ _ _ _ (fun hh => h0 ((isFirst_iff t).mp hh)) hl (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastAcc c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · -- a middle point
      have hnl : ¬isLast (grid1.coords t) := fun h => h1 ((isLast_iff t).mp h)
      rw [Dat.leavesExact_idle (dat V c) 3 t (idle_out t hnl) (keep_out t hnl)]
      rw [stateAt_mid V c t h0 h1]
      unfold accMid; (try dsimp only)
      rw [Phi_castSucc V c t, Phi_pos V c _ _ h0]
      iintro ⟨⟨⟨HS, Hoth⟩, Hg⟩, Ho, ⟨%d0, H0⟩, ⟨%d1, H1⟩, ⟨%d2, H2⟩, ⟨%d3, H3⟩⟩
      iapply ((runMid c (grid1.coords t) _ _ _ _ _ _ _ _ _ _ (fun hh => h0 ((isFirst_iff t).mp hh)) hnl (iblk V c 0 t) (iblk V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem phi_in (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After the last point the invariant gives the class invariant back: the accumulator's contents are forgotten. -/
theorem phi_out (c : Dev nD) : (dat V c).Φ (Fin.last cfg1.N) ⊢ Pipeline.ΦA spec1 c := by
  have hN : cfg1.N = 80 := N_1
  rw [show (dat V c).Φ (Fin.last cfg1.N) = Phi V c (Fin.last cfg1.N).val (Nat.le_of_lt_succ (Fin.last cfg1.N).isLt) from rfl,
    Phi_pos V c _ _ (by rw [Fin.val_last]; omega), PhiA_split]
  iintro ⟨⟨HS, Hoth⟩, Hg⟩
  isplitl [HS Hoth]
  · isplitl [HS]
    · iexists _; iexact HS
    iexact Hoth
  iexact Hg

end Points

end Cert.Kernel.Embed1

end
-- ==== Proof.MlpRegionBits.lean ====
import proofs.«145307_j27281632264596_1_alg».proof.Proof.Gen.Kernel.Launch
import proofs.«145307_j27281632264596_1_alg».proof.Proof.Gen.Kernel.Skeleton
import proofs.«145307_j27281632264596_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third region: the dense head on one batch tile

The third region runs over 8 grid points, one per tile of 512 batch rows.  At a point the body reads
thirteen input blocks (the two embedded halves of the tile, the side-to-move column, and the ten weight and
bias arrays, which are whole and the same at every point) and writes two output blocks, each with a single
store that covers the whole block.  So what the body leaves in an output block is a closed function of the
thirteen input blocks, and every input block is left as it was found.

This module states that function for each output (`out2_13`, `out2_14`), proves the body's triple against
it, packages the per-point contents as the pipeline's proof data (`dat2`), and discharges the library's
body obligation at every point.  Everything is stated at a parameter `V`, the buffers' contents when the
region is entered.
-/

set_option maxRecDepth 16384

noncomputable section

namespace Cert.Kernel.MlpRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it was fetched
    there: where it was not fetched the block index has not moved since the last fetch, and the body leaves the
    block in place.  Stated for any proof data whose array is `V`'s and whose `after` is the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole block -/

abbrev rw_S512x256 : Rect S512x256 := Rect.unit (s := S512x256) ![0, 0] S512x256.size inb_S512x256_S512x256_0_0
abbrev rw_S512x1 : Rect S512x1 := Rect.unit (s := S512x1) ![0, 0] S512x1.size inb_S512x1_S512x1_0_0
abbrev rw_S32x512 : Rect S32x512 := Rect.unit (s := S32x512) ![0, 0] S32x512.size inb_S32x512_S32x512_0_0
abbrev rw_S32 : Rect S32 := Rect.unit (s := S32) ![0] S32.size inb_S32_S32_0
abbrev rw_S32x32 : Rect S32x32 := Rect.unit (s := S32x32) ![0, 0] S32x32.size inb_S32x32_S32x32_0_0
abbrev rw_S1x32 : Rect S1x32 := Rect.unit (s := S1x32) ![0, 0] S1x32.size inb_S1x32_S1x32_0_0
abbrev rw_S1 : Rect S1 := Rect.unit (s := S1) ![0] S1.size inb_S1_S1_0
abbrev rw_S256x512 : Rect S256x512 := Rect.unit (s := S256x512) ![0, 0] S256x512.size inb_S256x512_S256x512_0_0
abbrev rw_S256 : Rect S256 := Rect.unit (s := S256) ![0] S256.size inb_S256_S256_0
abbrev rw_S4096x256 : Rect S4096x256 := Rect.unit (s := S4096x256) ![0, 0] S4096x256.size inb_S4096x256_S4096x256_0_0
abbrev rw_S4096 : Rect S4096 := Rect.unit (s := S4096) ![0] S4096.size inb_S4096_S4096_0
abbrev rw_S512x4096 : Rect S512x4096 := Rect.unit (s := S512x4096) ![0, 0] S512x4096.size inb_S512x4096_S512x4096_0_0

/-! ## What the body leaves in each output block -/

/-- The first output block (512 x 1) after the body: its one store, whose payload is the last layer applied to
    the hidden activations of the tile. -/
def out2_13 (x0 : Vec F S512x256 .f32) (x1 : Vec F S512x256 .f32) (x2 : Vec F S512x1 .f32) (x3 : Vec F S32x512 .f32) (x4 : Vec F S32 .f32) (x5 : Vec F S32x32 .f32) (x6 : Vec F S32 .f32) (x7 : Vec F S1x32 .f32) (x8 : Vec F S1 .f32) (x9 : Vec F S256x512 .f32) (x10 : Vec F S256 .f32) (x11 : Vec F S4096x256 .f32) (x12 : Vec F S4096 .f32) : Vec F S512x1 .f32 :=
  View.canon [⟨rw_S512x1, k2_pay1 (k2_pay4 (View.ld x0 rw_S512x256) (View.ld x1 rw_S512x256) (View.ld x2 rw_S512x1) (View.ld x3 rw_S32x512) (View.ld x4 rw_S32) (View.ld x5 rw_S32x32) (View.ld x6 rw_S32)) (View.ld x7 rw_S1x32) (View.ld x8 rw_S1)⟩]

/-- The second output block (512 x 4096) after the body: its one store, whose payload is the auxiliary head
    applied to the mixed embedding of the tile. -/
def out2_14 (x0 : Vec F S512x256 .f32) (x1 : Vec F S512x256 .f32) (x2 : Vec F S512x1 .f32) (x3 : Vec F S32x512 .f32) (x4 : Vec F S32 .f32) (x5 : Vec F S32x32 .f32) (x6 : Vec F S32 .f32) (x7 : Vec F S1x32 .f32) (x8 : Vec F S1 .f32) (x9 : Vec F S256x512 .f32) (x10 : Vec F S256 .f32) (x11 : Vec F S4096x256 .f32) (x12 : Vec F S4096 .f32) : Vec F S512x4096 .f32 :=
  View.canon [⟨rw_S512x4096, k2_pay2 (k2_pay3 (View.ld x0 rw_S512x256) (View.ld x1 rw_S512x256) (View.ld x2 rw_S512x1)) (View.ld x9 rw_S256x512) (View.ld x10 rw_S256) (View.ld x11 rw_S4096x256) (View.ld x12 rw_S4096)⟩]

/-- A single whole-block store covers the block. -/
theorem cover2_13 (p0 : Vec F S512x1 .f32) (y : S512x1.Idx) :
    ∃ pc ∈ ([⟨rw_S512x1, p0⟩] : List (View.Piece (Elt F) S512x1 .f32)), y ∈ pc.1.set :=
  View.cover_of_tiled [⟨rw_S512x1, p0⟩] S512x1.size (by rfl) y

theorem cover2_14 (p0 : Vec F S512x4096 .f32) (y : S512x4096.Idx) :
    ∃ pc ∈ ([⟨rw_S512x4096, p0⟩] : List (View.Piece (Elt F) S512x4096 .f32)), y ∈ pc.1.set :=
  View.cover_of_tiled [⟨rw_S512x4096, p0⟩] S512x4096.size (by rfl) y

/-! ## The body's triple -/

set_option maxHeartbeats 1000000 in
/-- The body on whole staging memrefs, the inputs' at read contents `x_w` and the outputs' at anything, runs to
    the continuation holding the inputs as they were and each output at `out2_13` / `out2_14` of the inputs. -/
theorem sound_kernel2 (c : Dev nD) (E : Set ℕ) (i : grid2.Coords) (arg1 : Memref sig .tc .vmem S512x256 .f32) (harg1 : arg1.IsWhole) (arg2 : Memref sig .tc .vmem S512x256 .f32) (harg2 : arg2.IsWhole) (arg3 : Memref sig .tc .vmem S512x1 .f32) (harg3 : arg3.IsWhole) (arg4 : Memref sig .tc .vmem S32x512 .f32) (harg4 : arg4.IsWhole) (arg5 : Memref sig .tc .vmem S32 .f32) (harg5 : arg5.IsWhole) (arg6 : Memref sig .tc .vmem S32x32 .f32) (harg6 : arg6.IsWhole) (arg7 : Memref sig .tc .vmem S32 .f32) (harg7 : arg7.IsWhole) (arg8 : Memref sig .tc .vmem S1x32 .f32) (harg8 : arg8.IsWhole) (arg9 : Memref sig .tc .vmem S1 .f32) (harg9 : arg9.IsWhole) (arg10 : Memref sig .tc .vmem S256x512 .f32) (harg10 : arg10.IsWhole) (arg11 : Memref sig .tc .vmem S256 .f32) (harg11 : arg11.IsWhole) (arg12 : Memref sig .tc .vmem S4096x256 .f32) (harg12 : arg12.IsWhole) (arg13 : Memref sig .tc .vmem S4096 .f32) (harg13 : arg13.IsWhole) (arg14 : Memref sig .tc .vmem S512x1 .f32) (harg14 : arg14.IsWhole) (arg15 : Memref sig .tc .vmem S512x4096 .f32) (harg15 : arg15.IsWhole)
    (x0 : Vec F S512x256 .f32) (x1 : Vec F S512x256 .f32) (x2 : Vec F S512x1 .f32) (x3 : Vec F S32x512 .f32) (x4 : Vec F S32 .f32) (x5 : Vec F S32x32 .f32) (x6 : Vec F S32 .f32) (x7 : Vec F S1x32 .f32) (x8 : Vec F S1 .f32) (x9 : Vec F S256x512 .f32) (x10 : Vec F S256 .f32) (x11 : Vec F S4096x256 .f32) (x12 : Vec F S4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (out2_13 x0 x1 x2 x3 x4 x5 x6 x7 x8 x9 x10 x11 x12) ∗ owns (c : Thread nD τ) arg15 fullShare (out2_14 x0 x1 x2 x3 x4 x5 x6 x7 x8 x9 x10 x11 x12)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover2_13 _)
  iexists _; isplitr
  swap; · iexact H14
  ipureintro
  exact View.read_writes_eq_canon _ _ _ (cover2_14 _)

/-! ## The proof data of the region -/

/-- The proof data on core `c`: the arrays as the region finds them (`V`); after the body at point `t` each
    input's buffer at its block and each output's at `out2_13` / `out2_14` of the input blocks at `t`; the
    invariant is the untouched rest; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) := by dsimp only [dat2]
theorem after2_14 (c : Dev nD) (t : Fin cfg2.N) : (dat2 V c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t))

set_option maxHeartbeats 1000000 in
/-- The body at any point: the inputs' memrefs hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel2 c Set.univ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.MlpRegion

end
-- ==== Proof.WholeBits.lean ====
/-
  The whole program: three kernel calls one after the other with nothing between them. The contents of the unscoped
  buffers are followed from the launch through each call — a call changes only its result arrays, to what its pipeline's
  write-backs leave there — and the three calls' records are chained into one run: every weakly fair execution terminates
  and ends with every unscoped buffer at the contents after the third call.
-/
import proofs.«145307_j27281632264596_1_alg».proof.Proof.Embed0BodyBits
import proofs.«145307_j27281632264596_1_alg».proof.Proof.Embed1BodyBits
import proofs.«145307_j27281632264596_1_alg».proof.Proof.MlpRegionBits
import proofs.«145307_j27281632264596_1_alg».proof.Proof.Gen.Kernel.Regions
import Idealize.ShloMosaic.Lib.Pipeline.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents at each boundary -/

/-- At launch. -/
abbrev W0 : Dev nD → Valuation τ sig (Elt F) := fun c b => m ((c : Dev nD), b)
abbrev E0 : (c : Dev nD) → (b : Ref sig .tc) → Buf (Elt F) ((c : Thread nD τ).loc b) := fun c b => W0 m c b

/-- After region 0: its arrays at what the pipeline's write-backs leave, every other buffer as entered. -/
def W1 (c : Dev nD) : Valuation τ sig (Elt F) :=
  Pipeline.withArrays spec0 c (W0 m c) fun w => (Embed0.dat (E0 m) c).arrAt w cfg0.N
theorem W1_arr (c : Dev nD) (w : Fin cfg0.W) :
    W1 m c (Proc.devRef .tc (Pipeline.arrRef spec0 w)) = (Embed0.dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev E1 : (c : Dev nD) → (b : Ref sig .tc) → Buf (Elt F) ((c : Thread nD τ).loc b) := fun c b => W1 m c b
theorem hF0 (c : Dev nD) (w : Fin cfg0.W) : (Embed0.dat (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After region 1: its arrays at what the pipeline's write-backs leave, every other buffer as entered. -/
def W2 (c : Dev nD) : Valuation τ sig (Elt F) :=
  Pipeline.withArrays spec1 c (W1 m c) fun w => (Embed1.dat (E1 m) c).arrAt w cfg1.N
theorem W2_arr (c : Dev nD) (w : Fin cfg1.W) :
    W2 m c (Proc.devRef .tc (Pipeline.arrRef spec1 w)) = (Embed1.dat (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev E2 : (c : Dev nD) → (b : Ref sig .tc) → Buf (Elt F) ((c : Thread nD τ).loc b) := fun c b => W2 m c b
theorem hF1 (c : Dev nD) (w : Fin cfg1.W) : (Embed1.dat (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After region 2: its arrays at what the pipeline's write-backs leave, every other buffer as entered. -/
def W3 (c : Dev nD) : Valuation τ sig (Elt F) :=
  Pipeline.withArrays spec2 c (W2 m c) fun w => (MlpRegion.dat2 (E2 m) c).arrAt w cfg2.N
theorem W3_arr (c : Dev nD) (w : Fin cfg2.W) :
    W3 m c (Proc.devRef .tc (Pipeline.arrRef spec2 w)) = (MlpRegion.dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references. -/
abbrev E3 : (c : Dev nD) → (b : Ref sig .tc) → Buf (Elt F) ((c : Thread nD τ).loc b) := fun c b => W3 m c b
theorem hF2 (c : Dev nD) (w : Fin cfg2.W) : (MlpRegion.dat2 (E2 m) c).arrAt w cfg2.N = E3 m c (Pipeline.arrRef spec2 w) :=
  (W3_arr m c w).symm
theorem hrest2 (c : Dev nD) : ∀ b, b ∉ Finset.univ.image (Pipeline.arrRef spec2) → E3 m c b = E2 m c b :=
  fun b hb => W3_of_ne m c b fun w e => hb (Finset.mem_image.mpr ⟨w, Finset.mem_univ _, e⟩)

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => Embed0.dat (E0 m) c
  | ⟨1, _⟩ => fun c => Embed1.dat (E1 m) c
  | ⟨2, _⟩ => fun c => MlpRegion.dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every call: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at the boundary's contents, left with the
    region's arrays at what its write-backs leave and every other buffer as entered. Its arrays are split out of the
    unscoped buffers and put back; the generator register goes into the region's invariant and comes out; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Embed0.body_obligation (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Embed0.phi_out (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the
    region's arrays at what its write-backs leave and every other buffer as entered. Its arrays are split out of the
    unscoped buffers and put back; the generator register goes into the region's invariant and comes out; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Embed1.body_obligation (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Embed1.phi_out (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary's contents, left with the
    region's arrays at what its write-backs leave and every other buffer as entered. Its arrays are split out of the
    unscoped buffers and put back; the generator register goes into the region's invariant and comes out; nothing is
    owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (MlpRegion.body_obligation2 (E2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

abbrev segs : List (Pipeline.Seg (pcfgs (F := F)) adm (pdats m) () defs₀ 𝒱₀ L lv) :=
  [ .region (reg0 m), .region (reg1 m), .region (reg2 m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every final state has each unscoped buffer at the contents after the third call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c => by
      show iprop(StableHlo.held (c : Thread nD τ) (Pipeline.ucRefs τ sig) (W3 m c) ∗ (∃ r, prngReg c r) ∗ ∃ W, owes (c : Thread nD τ) (0 : CellTallies nD τ sig Unit) W)
        ⊢ (iprop((StableHlo.held (c : Thread nD τ) (Pipeline.ucRefs τ sig) (W3 m c) ∗ ∃ r, prngReg c r) ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Whole

end
-- ==== Proof.WholeArgsBits.lean ====
/-
  Read off the last boundary: every argument array is as launched — at each call it is either no window of that call,
  or an input window, whose array the pipeline leaves as it found it — and each array a call produces holds what that
  call's write-backs leave until a later call's input window reads it.
-/
import proofs.«145307_j27281632264596_1_alg».proof.Proof.WholeBits

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array after its call is the array before it. -/
theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((Embed0.dat (E0 m) c).arrAt_in w hw _).trans (Embed0.A_eq (E0 m) c w))
theorem W2_in (c : Dev nD) (w : Fin cfg1.W) (hw : (cfg1.win w).isOut = false) :
    W2 m c (Proc.devRef .tc (Pipeline.arrRef spec1 w)) = W1 m c (Proc.devRef .tc (Pipeline.arrRef spec1 w)) :=
  (W2_arr m c w).trans (((Embed1.dat (E1 m) c).arrAt_in w hw _).trans (Embed1.A_eq (E1 m) c w))
theorem W3_in (c : Dev nD) (w : Fin cfg2.W) (hw : (cfg2.win w).isOut = false) :
    W3 m c (Proc.devRef .tc (Pipeline.arrRef spec2 w)) = W2 m c (Proc.devRef .tc (Pipeline.arrRef spec2 w)) :=
  (W3_arr m c w).trans (((MlpRegion.dat2 (E2 m) c).arrAt_in w hw _).trans (MlpRegion.A_eq2 (E2 m) c w))

theorem W3_main_arg0 (c : Dev nD) : W3 m c (Proc.devRef .tc main_arg0) = m ((c : Thread nD τ).loc main_arg0) :=
  (W3_in m c 2 rfl).trans <| (W2_of_ne m c main_arg0 (by decide)).trans <| (W1_of_ne m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (W1_in m c 0 rfl).trans rfl
theorem W3_main_arg2 (c : Dev nD) : W3 m c (Proc.devRef .tc main_arg2) = m ((c : Thread nD τ).loc main_arg2) :=
  (W3_of_ne m c main_arg2 (by decide)).trans <| (W2_in m c 0 rfl).trans <| (W1_of_ne m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (W1_in m c 1 rfl).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (W1_in m c 2 rfl).trans rfl
theorem W3_main_arg5 (c : Dev nD) : W3 m c (Proc.devRef .tc main_arg5) = m ((c : Thread nD τ).loc main_arg5) :=
  (W3_of_ne m c main_arg5 (by decide)).trans <| (W2_in m c 1 rfl).trans <| (W1_of_ne m c main_arg5 (by decide)).trans rfl
theorem W3_main_arg6 (c : Dev nD) : W3 m c (Proc.devRef .tc main_arg6) = m ((c : Thread nD τ).loc main_arg6) :=
  (W3_of_ne m c main_arg6 (by decide)).trans <| (W2_in m c 2 rfl).trans <| (W1_of_ne m c main_arg6 (by decide)).trans rfl
theorem W3_main_arg7 (c : Dev nD) : W3 m c (Proc.devRef .tc main_arg7) = m ((c : Thread nD τ).loc main_arg7) :=
  (W3_in m c 3 rfl).trans <| (W2_of_ne m c main_arg7 (by decide)).trans <| (W1_of_ne m c main_arg7 (by decide)).trans rfl
theorem W3_main_arg8 (c : Dev nD) : W3 m c (Proc.devRef .tc main_arg8) = m ((c : Thread nD τ).loc main_arg8) :=
  (W3_in m c 4 rfl).trans <| (W2_of_ne m c main_arg8 (by decide)).trans <| (W1_of_ne m c main_arg8 (by decide)).trans rfl
theorem W3_main_arg9 (c : Dev nD) : W3 m c (Proc.devRef .tc main_arg9) = m ((c : Thread nD τ).loc main_arg9) :=
  (W3_in m c 5 rfl).trans <| (W2_of_ne m c main_arg9 (by decide)).trans <| (W1_of_ne m c main_arg9 (by decide)).trans rfl
theorem W3_main_arg10 (c : Dev nD) : W3 m c (Proc.devRef .tc main_arg10) = m ((c : Thread nD τ).loc main_arg10) :=
  (W3_in m c 6 rfl).trans <| (W2_of_ne m c main_arg10 (by decide)).trans <| (W1_of_ne m c main_arg10 (by decide)).trans rfl
theorem W3_main_arg11 (c : Dev nD) : W3 m c (Proc.devRef .tc main_arg11) = m ((c : Thread nD τ).loc main_arg11) :=
  (W3_in m c 7 rfl).trans <| (W2_of_ne m c main_arg11 (by decide)).trans <| (W1_of_ne m c main_arg11 (by decide)).trans rfl
theorem W3_main_arg12 (c : Dev nD) : W3 m c (Proc.devRef .tc main_arg12) = m ((c : Thread nD τ).loc main_arg12) :=
  (W3_in m c 8 rfl).trans <| (W2_of_ne m c main_arg12 (by decide)).trans <| (W1_of_ne m c main_arg12 (by decide)).trans rfl
theorem W3_main_arg13 (c : Dev nD) : W3 m c (Proc.devRef .tc main_arg13) = m ((c : Thread nD τ).loc main_arg13) :=
  (W3_in m c 9 rfl).trans <| (W2_of_ne m c main_arg13 (by decide)).trans <| (W1_of_ne m c main_arg13 (by decide)).trans rfl
theorem W3_main_arg14 (c : Dev nD) : W3 m c (Proc.devRef .tc main_arg14) = m ((c : Thread nD τ).loc main_arg14) :=
  (W3_in m c 10 rfl).trans <| (W2_of_ne m c main_arg14 (by decide)).trans <| (W1_of_ne m c main_arg14 (by decide)).trans rfl
theorem W3_main_arg15 (c : Dev nD) : W3 m c (Proc.devRef .tc main_arg15) = m ((c : Thread nD τ).loc main_arg15) :=
  (W3_in m c 11 rfl).trans <| (W2_of_ne m c main_arg15 (by decide)).trans <| (W1_of_ne m c main_arg15 (by decide)).trans rfl
theorem W3_main_arg16 (c : Dev nD) : W3 m c (Proc.devRef .tc main_arg16) = m ((c : Thread nD τ).loc main_arg16) :=
  (W3_in m c 12 rfl).trans <| (W2_of_ne m c main_arg16 (by decide)).trans <| (W1_of_ne m c main_arg16 (by decide)).trans rfl

/-- The first product, as the third call finds it: what the first call's write-backs left. -/
theorem E2_main_v0 (c : Dev nD) : E2 m c main_v0 = (Embed0.dat (E0 m) c).arrAt 3 cfg0.N :=
  (W2_of_ne m c main_v0 (by decide)).trans (W1_arr m c 3)
/-- The second product likewise. -/
theorem E2_main_v1 (c : Dev nD) : E2 m c main_v1 = (Embed1.dat (E1 m) c).arrAt 3 cfg1.N :=
  W2_arr m c 3
/-- An argument as the third call finds it. -/
theorem E2_of_arg (c : Dev nD) (b : Ref sig .tc) (h0 : ∀ w, Pipeline.arrRef spec0 w ≠ b) (h1 : ∀ w, Pipeline.arrRef spec1 w ≠ b) :
    E2 m c b = m ((c : Thread nD τ).loc b) :=
  (W2_of_ne m c b h1).trans ((W1_of_ne m c b h0).trans rfl)
/-- An argument as the second call finds it. -/
theorem E1_of_arg (c : Dev nD) (b : Ref sig .tc) (h0 : ∀ w, Pipeline.arrRef spec0 w ≠ b) :
    E1 m c b = m ((c : Thread nD τ).loc b) :=
  (W1_of_ne m c b h0).trans rfl
/-- The two results at the end. -/
theorem W3_main_v2_0 (c : Dev nD) : W3 m c (Proc.devRef .tc main_v2_0) = (MlpRegion.dat2 (E2 m) c).arrAt 13 cfg2.N := W3_arr m c 13
theorem W3_main_v2_1 (c : Dev nD) : W3 m c (Proc.devRef .tc main_v2_1) = (MlpRegion.dat2 (E2 m) c).arrAt 14 cfg2.N := W3_arr m c 14

variable (ρ : Dev nD → PrngReg)

/-- The program's run, its post read at the arguments and the two results. -/
theorem run_named : θ_run defs (onTc (τ := τ) (main (F := F))) ⟨m, fun _ => 0, ρ⟩ (fun r => ∀ c : Dev nD,
      r.2.mem ((c.tc : Thread nD τ).loc main_v2_0) = (MlpRegion.dat2 (E2 m) c).arrAt 13 cfg2.N
      ∧ r.2.mem ((c.tc : Thread nD τ).loc main_v2_1) = (MlpRegion.dat2 (E2 m) c).arrAt 14 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v2_0 (by decide))).trans (W3_main_v2_0 m c),
     (h c _ (mem_uc main_v2_1 (by decide))).trans (W3_main_v2_1 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c),
     (h c _ (mem_uc main_arg10 (by decide))).trans (W3_main_arg10 m c),
     (h c _ (mem_uc main_arg11 (by decide))).trans (W3_main_arg11 m c),
     (h c _ (mem_uc main_arg12 (by decide))).trans (W3_main_arg12 m c),
     (h c _ (mem_uc main_arg13 (by decide))).trans (W3_main_arg13 m c),
     (h c _ (mem_uc main_arg14 (by decide))).trans (W3_main_arg14 m c),
     (h c _ (mem_uc main_arg15 (by decide))).trans (W3_main_arg15 m c),
     (h c _ (mem_uc main_arg16 (by decide))).trans (W3_main_arg16 m c)⟩)
    (run_all m ρ)

/-- The frame: the same run, its post read at the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2.2) (run_named m ρ)

end Cert.Kernel.Whole

end
-- ==== Proof.Frames.lean ====
/-
  Three of the five claims. Each kernel program's frame is its whole run (three calls chained) with the post read at the
  argument arrays; the reference has no kernel, and its frame is the run a generated module states for it, with the results dropped; the
  idealization rewrote no operation, so there is nothing to preserve.
-/
import proofs.«145307_j27281632264596_1_alg».proof.Defs
import proofs.«145307_j27281632264596_1_alg».proof.Proof.WholeArgs
import proofs.«145307_j27281632264596_1_alg».proof.Proof.WholeArgsBits
import proofs.«145307_j27281632264596_1_alg».proof.Proof.Gen.ReferenceIdeal.Run
import proofs.«145307_j27281632264596_1_alg».proof.Proof.Gen.Kernel
import proofs.«145307_j27281632264596_1_alg».proof.Proof.Gen.KernelIdeal
import proofs.«145307_j27281632264596_1_alg».proof.Proof.Gen.ReferenceIdeal
import proofs.«145307_j27281632264596_1_alg».proof.Proof.Gen.Pre_finite_inputs

noncomputable section

namespace Cert.Proof.Frames

open Idealize.ShloMosaic Idealize.SL.Sem

theorem frame_k : Cert.frame_Kernel := fun m ρ _ => Cert.Kernel.Whole.frame m ρ

theorem frame_ki : Cert.frame_KernelIdeal := fun m ρ _ => Cert.KernelIdeal.Whole.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

end Cert.Proof.Frames

end
-- ==== Proof.Embed0Value.lean ====
/-
  Each case's stores, read back: the accumulator after the first point is 0 + x·wᵀ (the cleared accumulator plus the
  first product, as the body's arithmetic spells it), after any later point it is what it held plus the point's product,
  and the result block at the last point is the accumulator plus the bias row repeated down the rows.
-/
import proofs.«145307_j27281632264596_1_alg».proof.Proof.Embed0Body
import Idealize.ShloMosaic.Lib.Pipeline.Value

set_option maxRecDepth 16384

noncomputable section

namespace Cert.KernelIdeal.Embed0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

theorem accMid_eq (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) :
    accMid c i arg1 harg1 arg2 harg2 arg3 harg3 arg4 harg4 arg5 harg5 hf hl x0 x1 xs = k0_pay2 x0 x1 xs := by
  unfold accMid
  rw [View.read_writes_eq_canon _ _ _ (coverMid c i arg1 harg1 arg2 harg2 arg3 harg3 arg4 harg4 arg5 harg5 hf hl x0 x1 xs)]
  unfold runMid
  dsimp only
  sl_unfold_words
  rw [View.canon_unit_zero hz2]
  simp only [View.readAt_eq_ld, harg1.read_unread, harg2.read_unread, harg3.read_unread, harg5.read_unread,
    View.ld_unit_zero (S := S4096x512) hz2, View.ld_unit_zero (S := S256x512) hz2, View.ld_unit_zero (S := S4096x256) hz2,
    View.ld_unit_zero (S := S256) hz1]

theorem accFirst_eq (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) :
    accFirst c i arg1 harg1 arg2 harg2 arg3 harg3 arg4 harg4 arg5 harg5 hf hl x0 x1 = k0_pay2 x0 x1 (k0_pay1 (F := F)) := by
  unfold accFirst
  rw [View.read_writes_eq_canon _ _ _ (coverFirst c i arg1 harg1 arg2 harg2 arg3 harg3 arg4 harg4 arg5 harg5 hf hl x0 x1)]
  unfold runFirst
  dsimp only
  sl_unfold_words
  rw [View.canon_cons_unit_zero hz2]
  simp only [View.readAt_eq_ld, harg1.read_unread, harg2.read_unread, harg3.read_unread, harg5.read_unread,
    View.ld_unit_zero (S := S4096x512) hz2, View.ld_unit_zero (S := S256x512) hz2, View.ld_unit_zero (S := S4096x256) hz2,
    View.ld_unit_zero (S := S256) hz1]
  rw [View.readCov_unit_zero (S := S4096x256) arg5.view hz2]

theorem accLast_eq (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) :
    accLast c i arg1 harg1 arg2 harg2 arg3 harg3 arg4 harg4 arg5 harg5 hf hl x0 x1 x2 xs = k0_pay2 x0 x1 xs := by
  unfold accLast
  rw [View.read_writes_eq_canon _ _ _ (coverLastAcc c i arg1 harg1 arg2 harg2 arg3 harg3 arg4 harg4 arg5 harg5 hf hl x0 x1 x2 xs)]
  unfold runLast
  dsimp only
  sl_unfold_words
  rw [View.canon_unit_zero hz2]
  simp only [View.readAt_eq_ld, harg1.read_unread, harg2.read_unread, harg3.read_unread, harg5.read_unread,
    View.ld_unit_zero (S := S4096x512) hz2, View.ld_unit_zero (S := S256x512) hz2, View.ld_unit_zero (S := S4096x256) hz2,
    View.ld_unit_zero (S := S256) hz1]

theorem outLast_eq (c : Dev nD) (i : grid0.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) :
    outLast c i arg1 harg1 arg2 harg2 arg3 harg3 arg4 harg4 arg5 harg5 hf hl x0 x1 x2 xs = k0_pay3 (k0_pay2 x0 x1 xs) x2 := by
  unfold outLast
  rw [View.read_writes_eq_canon _ _ _ (coverLastOut c i arg1 harg1 arg2 harg2 arg3 harg3 arg4 harg4 arg5 harg5 hf hl x0 x1 x2 xs)]
  unfold runLast
  dsimp only
  sl_unfold_words
  rw [View.canon_unit_zero hz2]
  simp only [View.readAt_eq_ld, harg1.read_unread, harg2.read_unread, harg3.read_unread, harg5.read_unread,
    View.ld_unit_zero (S := S4096x512) hz2, View.ld_unit_zero (S := S256x512) hz2, View.ld_unit_zero (S := S4096x256) hz2,
    View.ld_unit_zero (S := S256) hz1]
  rw [View.readCov_unit_zero (S := S4096x256) arg5.view hz2]

end Cert.KernelIdeal.Embed0

end
-- ==== Proof.Embed0Final.lean ====
/-
  The array the call produces. The accumulator after point n is the body's arithmetic applied n + 1 times: the first
  product added to the cleared accumulator, then each later product added to what was there. The single write-back, at
  point 79, writes accumulator + bias row; its block is the whole 4096 × 256 array, so that is what the array holds
  after the call.
-/
import proofs.«145307_j27281632264596_1_alg».proof.Proof.Embed0Value

set_option maxRecDepth 16384

noncomputable section

namespace Cert.KernelIdeal.Embed0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Final

variable (V : (c : Dev nD) → (b : Ref sig .tc) → Buf (Elt F) ((c : Thread nD τ).loc b))

theorem lastLt : 79 < cfg0.N := by rw [show cfg0.N = 80 from N_0]; decide
/-- The last grid point. -/
def tLast : Fin cfg0.N := ⟨79, lastLt⟩

/-- The accumulator after point `n`, by the body's arithmetic. -/
def accAt (c : Dev nD) : (n : ℕ) → n < cfg0.N → Vec F S4096x256 .f32
  | 0, hn => k0_pay2 (iblk V c 0 ⟨0, hn⟩) (iblk V c 1 ⟨0, hn⟩) (k0_pay1 (F := F))
  | n + 1, hn => k0_pay2 (iblk V c 0 ⟨n + 1, hn⟩) (iblk V c 1 ⟨n + 1, hn⟩) (accAt c n (Nat.lt_of_succ_lt hn))

theorem stateAt_acc (c : Dev nD) : ∀ (n : ℕ) (hn : n < cfg0.N), (stateAt V c n hn).2 = accAt V c n hn
  | 0, hn => by
    have h := stateAt_first V c ⟨0, hn⟩ rfl
    dsimp only at h
    rw [h]; dsimp only; rw [accFirst_eq]; rfl
  | n + 1, hn => by
    by_cases h1 : n + 1 = 79
    · have h := stateAt_last V c ⟨n + 1, hn⟩ (Nat.succ_ne_zero n) h1
      dsimp only at h
      rw [h]; dsimp only; rw [accLast_eq]
      show k0_pay2 _ _ (stateAt V c n _).2 = _
      rw [stateAt_acc c n]; rfl
    · have h := stateAt_mid V c ⟨n + 1, hn⟩ (Nat.succ_ne_zero n) h1
      dsimp only at h
      rw [h]; dsimp only; rw [accMid_eq]
      show k0_pay2 _ _ (stateAt V c n _).2 = _
      rw [stateAt_acc c n]; rfl

/-- What the call leaves in its result array: the last accumulator plus the bias row. -/
def result (c : Dev nD) : S4096x256.Idx → Elt F .f32 := k0_pay3 (accAt V c 79 lastLt) (iblk V c 2 tLast)

theorem out_last (c : Dev nD) : (stateAt V c tLast.val tLast.isLt).1 = result V c := by
  rw [stateAt_last V c tLast (by decide) rfl]
  dsimp only
  rw [outLast_eq]
  rw [stateAt_acc V c (tLast.val - 1) _]
  rfl

/-- The one write-back, at point 79, writes `result`: the block at index (0, 0) read through zero offsets is the array. -/
theorem flushed_last (c : Dev nD) (t : Fin cfg0.N) (hf : (cfg0.win 3).flush t = true) :
    (dat V c).flushed 3 t = ((cfg0.win 3).blk t).view.read (Elt F) (result V c) := by
  have hN : cfg0.N = 80 := N_0
  have h1 : t.val = 79 := by have := (flush0_3 t).mp hf; have := t.isLt; omega
  obtain rfl : t = tLast := Fin.ext h1
  show (cfg0.win 3).cut (grid0.coords tLast) ((dat V c).after 3 tLast) = _
  rw [after_out, out_last]
  have hz' : (fun a => win0_3.index tLast a * main_v0.ty.shape.size a) = fun _ => 0 := funext fun a => by fin_cases a <;> decide +kernel
  exact (Memref.read_access_unit_zero (Elt F) main_v0 hz' (fun a => by rw [congrFun hz' a]; simp) (result V c)).symm

/-- So the result array ends holding `result`: point 79's block covers it. -/
theorem final (c : Dev nD) : (dat V c).arrAt 3 cfg0.N = result V c :=
  (dat V c).arrAt_eq_of_cover 3 (result V c) (flushed_last V c) fun i =>
    ⟨tLast, (flush0_3 tLast).mpr (by decide), by
      show i ∈ ((View.whole main_v0).slice (win0_3.rect tLast)).set
      rw [View.set_slice_whole, Rect.mem_set_unit]
      intro a
      have h0 : (i 0 : Nat) < 4096 := (i 0).isLt
      have h1 : (i 1 : Nat) < 256 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 4096 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 256 from by decide +kernel]; omega⟩

end Final

end Cert.KernelIdeal.Embed0

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibMatmulRows.lean ====
/-
  A matrix product whose right operand is given by rows.

  When the right operand of a `tpu.matmul` into the zero accumulator is the transpose of an `N × K` array `r`, the entry
  at row `p`, column `q` is, at the ideal values, the inner product of row `p` of the left operand with row `q` of `r`:
  the sum over `k` of `l (p, k) · r (q, k)`.
-/
import proofs.«145307_j27281632264596_1_alg».proof.Proof.LibPlainDot
import Idealize.ShloMosaic.Lib.ValueLayout

noncomputable section

open scoped BigOperators

namespace Cert.Lib.MatmulRows

open Idealize.ShloMosaic Idealize.ShloMosaic.ValueIdx

variable {M K N : Nat}

/-- The product with a transposed right operand, at entry `(p, q)`: the inner product of two rows. -/
theorem matmul_transposed_apply {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![N, K]⟩ φ₂)
    (ht : (⟨2, ![N, K]⟩ : Shape).Transposes [1, 0] ⟨2, ![K, N]⟩) (p : Fin M) (q : Fin N) :
    FloatOps.matmul D prec l (transpose ⟨2, ![K, N]⟩ [1, 0] r ht) (constant ⟨2, ![M, N]⟩ .f32 0x00000000#32) (ix2 p q)
      = ∑ k : Fin K, l (ix2 p k) * r (ix2 q k) := by
  subst hD
  rw [Cert.Lib.PlainDot.matmul_zero_apply]
  exact Finset.sum_congr rfl fun k _ => by rw [transpose_ix2_apply]

end Cert.Lib.MatmulRows

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.EmbedPayload.lean ====
/-
  The feature-map kernel's three stored values read at an entry, over the extended reals.

  The first step stores the zero array; every step stores the running array plus the product of the step's 4096 × 512
  block of features with the transpose of the step's 256 × 512 block of weights (both narrowed to a shorter float format
  first, the identity on extended reals); the last step stores the running array plus the bias repeated down the rows.
  The same three values are stored by both sides' kernels.
-/
import proofs.«145307_j27281632264596_1_alg».proof.Proof.Gen.KernelIdeal.Skeleton
import proofs.«145307_j27281632264596_1_alg».proof.Proof.LibMatmulRows
import proofs.«145307_j27281632264596_1_alg».proof.Proof.LibRowForms
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EmbedPayload

open Cert.KernelIdeal Cert.KernelIdeal.Gen Idealize.ShloMosaic Idealize.ShloMosaic.ValueIdx

/-- The first step's stored value is zero everywhere. -/
theorem k0_pay1_apply (i : S4096x256.Idx) : k0_pay1 (F := Ideal) i = 0 := by
  unfold k0_pay1
  rw [shapeCast_self, broadcast_apply]
  exact Ideal.ofBits_zero_f32

/-- A step's stored value at `(p, n)`: the running entry plus the inner product of row `p` of the feature block with
    row `n` of the weight block. -/
theorem k0_pay2_apply (x : Vec Ideal S4096x512 .f32) (w : Vec Ideal S256x512 .f32) (a : Vec Ideal S4096x256 .f32)
    (p : Fin 4096) (n : Fin 256) :
    k0_pay2 (F := Ideal) x w a (ix2 p n) = a (ix2 p n) + ∑ j : Fin 512, x (ix2 p j) * w (ix2 n j) := by
  unfold k0_pay2
  rw [shapeCast_self, addf_apply]
  exact congrArg (a (ix2 p n) + ·)
    (Cert.Lib.MatmulRows.matmul_transposed_apply dot_S4096x512_S512x256_S4096x256_1_0_0_1_n_n rfl none _ _ _ p n)

/-- The last step's stored value at `(p, n)`: the running entry plus the bias at `n`. -/
theorem k0_pay3_apply (a : Vec Ideal S4096x256 .f32) (b : Vec Ideal S256 .f32) (p : Fin 4096) (n : Fin 256) :
    k0_pay3 (F := Ideal) a b (ix2 p n) = a (ix2 p n) + b (ix1 n) := by
  unfold k0_pay3
  rw [addf_apply, Cert.Lib.RowForms.rowBroadcast_apply, Cert.Lib.RowForms.vecRow_apply]

/-- The first step's stored value is zero everywhere. -/
theorem k1_pay1_apply (i : S4096x256.Idx) : k1_pay1 (F := Ideal) i = 0 := by
  unfold k1_pay1
  rw [shapeCast_self, broadcast_apply]
  exact Ideal.ofBits_zero_f32

/-- A step's stored value at `(p, n)`: the running entry plus the inner product of row `p` of the feature block with
    row `n` of the weight block. -/
theorem k1_pay2_apply (x : Vec Ideal S4096x512 .f32) (w : Vec Ideal S256x512 .f32) (a : Vec Ideal S4096x256 .f32)
    (p : Fin 4096) (n : Fin 256) :
    k1_pay2 (F := Ideal) x w a (ix2 p n) = a (ix2 p n) + ∑ j : Fin 512, x (ix2 p j) * w (ix2 n j) := by
  unfold k1_pay2
  rw [shapeCast_self, addf_apply]
  exact congrArg (a (ix2 p n) + ·)
    (Cert.Lib.MatmulRows.matmul_transposed_apply dot_S4096x512_S512x256_S4096x256_1_0_0_1_n_n rfl none _ _ _ p n)

/-- The last step's stored value at `(p, n)`: the running entry plus the bias at `n`. -/
theorem k1_pay3_apply (a : Vec Ideal S4096x256 .f32) (b : Vec Ideal S256 .f32) (p : Fin 4096) (n : Fin 256) :
    k1_pay3 (F := Ideal) a b (ix2 p n) = a (ix2 p n) + b (ix1 n) := by
  unfold k1_pay3
  rw [addf_apply, Cert.Lib.RowForms.rowBroadcast_apply, Cert.Lib.RowForms.vecRow_apply]

end Cert.KernelIdeal.EmbedPayload

end
-- ==== Proof.Spec.lean ====
/-
  The two results of the network as functions of its argument arrays, entry by entry, over the extended reals.

  A position's two feature rows go through one affine map each (a row of 40960 features against 256 weight rows, plus a
  bias); the two 256-vectors are laid side by side in both orders and mixed by the side-to-move flag; the positive part of
  the mix feeds two small stacks of dense layers whose weights are stored by output rows. Every piece is stated for any
  number of rows, since each output row depends on the same row of the inputs only (the `_congr` lemmas).
  Last, the one law of finite sums the tiled evaluation needs: a sum over 40960 terms is the sum of its 80 consecutive
  blocks of 512, and a running total of the blocks is their sum. Addition of extended reals is a commutative monoid, so
  no finiteness is asked for.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals, `m` rows by `n` columns. -/
abbrev Mat (m n : Nat) : Type := (⟨2, ![m, n]⟩ : Shape).Idx → EReal
/-- A rank-1 array of extended reals. -/
abbrev Row (n : Nat) : Type := (⟨1, ![n]⟩ : Shape).Idx → EReal

/-! ## The pieces -/

/-- A dense layer whose weight is stored by output rows: entry `(p, n)` is the inner product of row `p` of `a` with row
    `n` of `W`, then the bias `b n` added. -/
def dense {M K N : Nat} (a : Mat M K) (W : Mat N K) (b : Row N) : Mat M N :=
  fun i => (∑ k : Fin K, a (ix2 (i 0) k) * W (ix2 (i 1) k)) + b (ix1 (i 1))

theorem dense_apply {M K N : Nat} (a : Mat M K) (W : Mat N K) (b : Row N) (p : Fin M) (n : Fin N) :
    dense a W b (ix2 p n) = (∑ k : Fin K, a (ix2 p k) * W (ix2 n k)) + b (ix1 n) := rfl

/-- A dense layer followed by the positive part (the larger of the entry and the float zero). -/
def denseRelu {M K N : Nat} (a : Mat M K) (W : Mat N K) (b : Row N) : Mat M N :=
  fun i => max (dense a W b i) (Ideal.ofBits .f32 0x00000000#32)

theorem denseRelu_apply {M K N : Nat} (a : Mat M K) (W : Mat N K) (b : Row N) (p : Fin M) (n : Fin N) :
    denseRelu a W b (ix2 p n)
      = max ((∑ k : Fin K, a (ix2 p k) * W (ix2 n k)) + b (ix1 n)) (Ideal.ofBits .f32 0x00000000#32) := rfl

/-- The feature map of one side: 4096 rows of 40960 features against 256 weight rows, plus the bias. -/
def emb (x : Mat 4096 40960) (W : Mat 256 40960) (b : Row 256) : Mat 4096 256 := dense x W b

theorem emb_apply (x : Mat 4096 40960) (W : Mat 256 40960) (b : Row 256) (p : Fin 4096) (n : Fin 256) :
    emb x W b (ix2 p n) = (∑ k : Fin 40960, x (ix2 p k) * W (ix2 n k)) + b (ix1 n) := rfl

/-- Two arrays of 256 columns side by side: columns below 256 are `u`'s, the others `v`'s lowered by 256. -/
def sideBySide {M : Nat} (u v : Mat M 256) : Mat M 512 :=
  fun i => if h : (i 1).val < 256 then u (ix2 (i 0) ⟨(i 1).val, h⟩)
    else v (ix2 (i 0) ⟨(i 1).val - 256, by have := idx2_lt1 i; omega⟩)

theorem sideBySide_left {M : Nat} (u v : Mat M 256) (p : Fin M) (j : Fin 512) (h : j.val < 256) :
    sideBySide u v (ix2 p j) = u (ix2 p ⟨j.val, h⟩) := dif_pos h

theorem sideBySide_right {M : Nat} (u v : Mat M 256) (p : Fin M) (j : Fin 512) (h : ¬ j.val < 256) :
    sideBySide u v (ix2 p j) = v (ix2 p ⟨j.val - 256, by have := j.isLt; omega⟩) := dif_neg h

/-- The mixed accumulator: with `f` the row's flag, `f * (w ‖ b) + (1 - f) * (b ‖ w)`, then the positive part. -/
def base {M : Nat} (pov : Mat M 1) (w b : Mat M 256) : Mat M 512 :=
  fun i => max (pov (ix2 (i 0) 0) * sideBySide w b i
      + (Ideal.ofBits .f32 0x3F800000#32 - pov (ix2 (i 0) 0)) * sideBySide b w i) (Ideal.ofBits .f32 0x00000000#32)

theorem base_apply {M : Nat} (pov : Mat M 1) (w b : Mat M 256) (p : Fin M) (j : Fin 512) :
    base pov w b (ix2 p j)
      = max (pov (ix2 p 0) * sideBySide w b (ix2 p j)
          + (Ideal.ofBits .f32 0x3F800000#32 - pov (ix2 p 0)) * sideBySide b w (ix2 p j))
        (Ideal.ofBits .f32 0x00000000#32) := rfl

/-! ## The two results -/

/-- The value head: three dense layers on the mixed accumulator, the first two with the positive part. -/
def specX (pov : Mat 4096 1) (white black : Mat 4096 40960) (W_w : Mat 256 40960) (b_w : Row 256)
    (W_b : Mat 256 40960) (b_b : Row 256) (W0 : Mat 32 512) (b0 : Row 32) (W1 : Mat 32 32) (b1 : Row 32)
    (W2 : Mat 1 32) (b2 : Row 1) : Mat 4096 1 :=
  dense (denseRelu (denseRelu (base pov (emb white W_w b_w) (emb black W_b b_b)) W0 b0) W1 b1) W2 b2

/-- The move head: two dense layers on the mixed accumulator, both with the positive part. -/
def specA (pov : Mat 4096 1) (white black : Mat 4096 40960) (W_w : Mat 256 40960) (b_w : Row 256)
    (W_b : Mat 256 40960) (b_b : Row 256) (Wm0 : Mat 256 512) (bm0 : Row 256) (Wm1 : Mat 4096 256)
    (bm1 : Row 4096) : Mat 4096 4096 :=
  denseRelu (denseRelu (base pov (emb white W_w b_w) (emb black W_b b_b)) Wm0 bm0) Wm1 bm1

/-! ## Each output row depends on the same input row only -/

theorem dense_congr {M M' K N : Nat} (a : Mat M K) (a' : Mat M' K) (W : Mat N K) (b : Row N) (p : Fin M) (p' : Fin M')
    (h : ∀ k, a' (ix2 p' k) = a (ix2 p k)) (n : Fin N) : dense a' W b (ix2 p' n) = dense a W b (ix2 p n) := by
  rw [dense_apply, dense_apply]
  exact congrArg (· + b (ix1 n)) (Finset.sum_congr rfl fun k _ => by rw [h k])

theorem denseRelu_congr {M M' K N : Nat} (a : Mat M K) (a' : Mat M' K) (W : Mat N K) (b : Row N) (p : Fin M)
    (p' : Fin M') (h : ∀ k, a' (ix2 p' k) = a (ix2 p k)) (n : Fin N) :
    denseRelu a' W b (ix2 p' n) = denseRelu a W b (ix2 p n) :=
  congrArg (max · (Ideal.ofBits .f32 0x00000000#32)) (dense_congr a a' W b p p' h n)

theorem sideBySide_congr {M M' : Nat} (u v : Mat M 256) (u' v' : Mat M' 256) (p : Fin M) (p' : Fin M')
    (hu : ∀ n, u' (ix2 p' n) = u (ix2 p n)) (hv : ∀ n, v' (ix2 p' n) = v (ix2 p n)) (j : Fin 512) :
    sideBySide u' v' (ix2 p' j) = sideBySide u v (ix2 p j) := by
  by_cases h : j.val < 256
  · rw [sideBySide_left _ _ _ _ h, sideBySide_left _ _ _ _ h, hu]
  · rw [sideBySide_right _ _ _ _ h, sideBySide_right _ _ _ _ h, hv]

theorem base_congr {M M' : Nat} (pov : Mat M 1) (w b : Mat M 256) (pov' : Mat M' 1) (w' b' : Mat M' 256) (p : Fin M)
    (p' : Fin M') (hp : pov' (ix2 p' 0) = pov (ix2 p 0)) (hw : ∀ n, w' (ix2 p' n) = w (ix2 p n))
    (hb : ∀ n, b' (ix2 p' n) = b (ix2 p n)) (j : Fin 512) :
    base pov' w' b' (ix2 p' j) = base pov w b (ix2 p j) := by
  rw [base_apply, base_apply, hp, sideBySide_congr w b w' b' p p' hw hb, sideBySide_congr b w b' w' p p' hb hw]

/-! ## A long sum by blocks -/

theorem block_lt {m n t j : Nat} (ht : t < m) (hj : j < n) : n * t + j < m * n :=
  calc n * t + j < n * t + n := Nat.add_lt_add_left hj _
    _ = n * (t + 1) := (Nat.mul_succ n t).symm
    _ ≤ n * m := Nat.mul_le_mul_left n ht
    _ = m * n := Nat.mul_comm n m

/-- A sum over `m * n` terms is the sum over its `m` consecutive blocks of `n`. -/
theorem sum_blocks {A : Type*} [AddCommMonoid A] (m n : Nat) (f : Fin (m * n) → A) :
    ∑ k, f k = ∑ t : Fin m, ∑ j : Fin n, f ⟨n * t.val + j.val, block_lt t.isLt j.isLt⟩ := by
  rw [← Equiv.sum_comp finProdFinEquiv f, Fintype.sum_prod_type]
  refine Finset.sum_congr rfl fun t _ => Finset.sum_congr rfl fun j _ => congrArg f (Fin.ext ?_)
  show j.val + n * t.val = n * t.val + j.val
  exact Nat.add_comm _ _

/-- 40960 terms are 80 blocks of 512. -/
theorem sum_tiles (f : Fin 40960 → EReal) :
    ∑ k, f k = ∑ t : Fin 80, ∑ j : Fin 512, f ⟨512 * t.val + j.val, block_lt (m := 80) t.isLt j.isLt⟩ :=
  sum_blocks 80 512 f

/-- A running total that starts at `0 + s 0` and adds the next term at every step is the sum of the terms so far. -/
theorem running_total {A : Type*} [AddCommMonoid A] (s acc : Nat → A) (T : Nat) (h0 : acc 0 = 0 + s 0)
    (hs : ∀ t, t + 1 < T → acc (t + 1) = acc t + s (t + 1)) :
    ∀ t, t < T → acc t = ∑ t' ∈ Finset.range (t + 1), s t'
  | 0, _ => by rw [h0, zero_add, Finset.sum_range_one]
  | t + 1, ht => by
    rw [hs t ht, running_total s acc T h0 hs t (Nat.lt_of_succ_lt ht), Finset.sum_range_succ _ (t + 1)]

/-- After the last of `T + 1` steps the running total is the sum of all the terms. -/
theorem running_total_last {A : Type*} [AddCommMonoid A] (s acc : Nat → A) (T : Nat) (h0 : acc 0 = 0 + s 0)
    (hs : ∀ t, t + 1 < T + 1 → acc (t + 1) = acc t + s (t + 1)) :
    acc T = ∑ t : Fin (T + 1), s t.val := by
  rw [running_total s acc (T + 1) h0 hs T (Nat.lt_succ_self T), Finset.sum_range]

end Cert.Spec

end
-- ==== Proof.Embed0Ideal.lean ====
/-
  The first feature-map call's result at the extended reals: the specification's feature map of the batch, the weight
  and the bias as the call finds them.

  Each input block of a grid point is the array read at the block's columns (point t's 512 columns start at 512 t; the
  bias has one block). The accumulator after point t is then, entry by entry, the running total of the 80 blocks'
  partial inner products, started from the cleared accumulator; after the last point it is the whole inner product over
  the 40960 columns (a long sum by blocks), and the stored result adds the bias.
-/
import proofs.«145307_j27281632264596_1_alg».proof.Proof.Embed0Final
import proofs.«145307_j27281632264596_1_alg».proof.Proof.EmbedPayload
import proofs.«145307_j27281632264596_1_alg».proof.Proof.Spec

set_option maxRecDepth 16384

noncomputable section

open scoped BigOperators

namespace Cert.KernelIdeal.Embed0

open Cert.KernelIdeal Cert.KernelIdeal.Gen
open Idealize.ShloMosaic Idealize.ShloMosaic.TcCoe Idealize.ShloMosaic.ValueIdx

section Ideal

variable (V : (c : Dev nD) → (b : Ref sig .tc) → Buf (Elt Ideal) ((c : Thread nD τ).loc b))

/-- The printed index maps, decided once over the 80 points: the two inputs' blocks stay on the first block row and move
    one block column per point; the bias has one block. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val ∧ win0_2.index t (0 : Fin 1) = 0 :=
  (by decide +kernel : ∀ t : Fin grid0.N, _)

/-- A grid point's number is below 80. -/
theorem point_lt (t : Fin cfg0.N) : t.val < 80 := lt_of_lt_of_eq t.isLt (show cfg0.N = 80 from N_0)

/-- The feature block of point `t` at `(p, j)` is the batch at `(p, 512 t + j)`. -/
theorem iblk0_apply (c : Dev nD) (t : Fin cfg0.N) (p : Fin 4096) (j : Fin 512) :
    iblk V c 0 t (ix2 p j)
      = V c main_arg1 (ix2 p ⟨512 * t.val + j.val, Cert.Spec.block_lt (m := 80) (point_lt t) j.isLt⟩) := by
  obtain ⟨e0, e1, -, -, -⟩ := idx_facts t
  show V c main_arg1 (((cfg0.win 0).blk t).view.emb (ix2 p j)) = V c main_arg1 _
  refine congrArg (V c main_arg1) (funext fun a => Fin.ext ?_)
  match a with
  | ⟨0, _⟩ => show win0_0.index t (0 : Fin 2) * 4096 + 1 * p.val = p.val; omega
  | ⟨1, _⟩ => show win0_0.index t (1 : Fin 2) * 512 + 1 * j.val = 512 * t.val + j.val; omega

/-- The weight block of point `t` at `(n, j)` is the weight at `(n, 512 t + j)`. -/
theorem iblk1_apply (c : Dev nD) (t : Fin cfg0.N) (n : Fin 256) (j : Fin 512) :
    iblk V c 1 t (ix2 n j)
      = V c main_arg3 (ix2 n ⟨512 * t.val + j.val, Cert.Spec.block_lt (m := 80) (point_lt t) j.isLt⟩) := by
  obtain ⟨-, -, e2, e3, -⟩ := idx_facts t
  show V c main_arg3 (((cfg0.win 1).blk t).view.emb (ix2 n j)) = V c main_arg3 _
  refine congrArg (V c main_arg3) (funext fun a => Fin.ext ?_)
  match a with
  | ⟨0, _⟩ => show win0_1.index t (0 : Fin 2) * 256 + 1 * n.val = n.val; omega
  | ⟨1, _⟩ => show win0_1.index t (1 : Fin 2) * 512 + 1 * j.val = 512 * t.val + j.val; omega

/-- The bias block of every point is the bias. -/
theorem iblk2_eq (c : Dev nD) (t : Fin cfg0.N) : iblk V c 2 t = V c main_arg4 := by
  obtain ⟨-, -, -, -, e4⟩ := idx_facts t
  funext y
  show V c main_arg4 (((cfg0.win 2).blk t).view.emb y) = V c main_arg4 y
  refine congrArg (V c main_arg4) (funext fun a => Fin.ext ?_)
  match a with
  | ⟨0, _⟩ => show win0_2.index t (0 : Fin 1) * 256 + 1 * (y 0).val = (y 0).val; omega

/-! ## The accumulator, point by point -/

/-- The batch, the weight and the bias as the call finds them. -/
abbrev X (c : Dev nD) : Cert.Spec.Mat 4096 40960 := V c main_arg1
abbrev Wt (c : Dev nD) : Cert.Spec.Mat 256 40960 := V c main_arg3
abbrev Bi (c : Dev nD) : Cert.Spec.Row 256 := V c main_arg4

/-- Block `t`'s share of the inner product of row `p` of the batch with row `n` of the weight. -/
def term (c : Dev nD) (p : Fin 4096) (n : Fin 256) (t : ℕ) : EReal :=
  if h : t < 80 then ∑ j : Fin 512, X V c (ix2 p ⟨512 * t + j.val, Cert.Spec.block_lt (m := 80) h j.isLt⟩)
    * Wt V c (ix2 n ⟨512 * t + j.val, Cert.Spec.block_lt (m := 80) h j.isLt⟩) else 0

/-- The accumulator's entry `(p, n)` after point `t`. -/
def accN (c : Dev nD) (p : Fin 4096) (n : Fin 256) (t : ℕ) : EReal :=
  if h : t < cfg0.N then accAt V c t h (ix2 p n) else 0

theorem accN_zero (c : Dev nD) (p : Fin 4096) (n : Fin 256) : accN V c p n 0 = 0 + term V c p n 0 := by
  have h0 : 0 < cfg0.N := Nat.lt_trans (by decide) lastLt
  unfold accN term
  rw [dif_pos h0, dif_pos (by decide : 0 < 80)]
  show k0_pay2 (F := Ideal) (iblk V c 0 ⟨0, h0⟩) (iblk V c 1 ⟨0, h0⟩) (k0_pay1 (F := Ideal)) (ix2 p n) = _
  rw [EmbedPayload.k0_pay2_apply, EmbedPayload.k0_pay1_apply]
  simp only [iblk0_apply, iblk1_apply]

theorem accN_succ (c : Dev nD) (p : Fin 4096) (n : Fin 256) (t : ℕ) (ht : t + 1 < 79 + 1) :
    accN V c p n (t + 1) = accN V c p n t + term V c p n (t + 1) := by
  have h1 : t + 1 < cfg0.N := lt_of_lt_of_eq ht (show 79 + 1 = cfg0.N from N_0.symm)
  unfold accN term
  rw [dif_pos h1, dif_pos (Nat.lt_of_succ_lt h1), dif_pos (show t + 1 < 80 from ht)]
  show k0_pay2 (F := Ideal) (iblk V c 0 ⟨t + 1, h1⟩) (iblk V c 1 ⟨t + 1, h1⟩) (accAt V c t (Nat.lt_of_succ_lt h1)) (ix2 p n) = _
  rw [EmbedPayload.k0_pay2_apply]
  simp only [iblk0_apply, iblk1_apply]

/-- After the last point the accumulator's entry is the whole inner product. -/
theorem acc_last (c : Dev nD) (p : Fin 4096) (n : Fin 256) :
    accAt V c 79 lastLt (ix2 p n) = ∑ k : Fin 40960, X V c (ix2 p k) * Wt V c (ix2 n k) := by
  have h := Cert.Spec.running_total_last (term V c p n) (accN V c p n) 79 (accN_zero V c p n) (accN_succ V c p n)
  unfold accN at h
  rw [dif_pos lastLt] at h
  rw [h, Cert.Spec.sum_tiles]
  exact Finset.sum_congr rfl fun t _ => by unfold term; rw [dif_pos t.isLt]

/-- The call's result is the specification's feature map of the batch, the weight and the bias as the call finds them. -/
theorem result_eq (c : Dev nD) :
    result (F := Ideal) V c = Cert.Spec.emb (V c main_arg1) (V c main_arg3) (V c main_arg4) := by
  funext i
  obtain ⟨p, n, rfl⟩ : ∃ (p : Fin 4096) (n : Fin 256), i = ix2 p n := ⟨i 0, i 1, eq_ix2 i⟩
  unfold result
  rw [EmbedPayload.k0_pay3_apply, iblk2_eq, acc_last, Cert.Spec.emb_apply]

end Ideal

end Cert.KernelIdeal.Embed0

end
-- ==== Proof.Embed1Value.lean ====
/-
  Each case's stores, read back: the accumulator after the first point is 0 + x·wᵀ (the cleared accumulator plus the
  first product, as the body's arithmetic spells it), after any later point it is what it held plus the point's product,
  and the result block at the last point is the accumulator plus the bias row repeated down the rows.
-/
import proofs.«145307_j27281632264596_1_alg».proof.Proof.Embed1Body
import Idealize.ShloMosaic.Lib.Pipeline.Value

set_option maxRecDepth 16384

noncomputable section

namespace Cert.KernelIdeal.Embed1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

theorem accMid_eq (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : ¬isLast i) (x0 : Vec F S4096x512 .f32) (x1 : Vec F S256x512 .f32) (xs : Vec F S4096x256 .f32) :
    accMid c i arg1 harg1 arg2 harg2 arg3 harg3 arg4 harg4 arg5 harg5 hf hl x0 x1 xs = k1_pay2 x0 x1 xs := by
  unfold accMid
  rw [View.read_writes_eq_canon _ _ _ (coverMid c i arg1 harg1 arg2 harg2 arg3 harg3 arg4 harg4 arg5 harg5 hf hl x0 x1 xs)]
  unfold runMid
  dsimp only
  sl_unfold_words
  rw [View.canon_unit_zero hz2]
  simp only [View.readAt_eq_ld, harg1.read_unread, harg2.read_unread, harg3.read_unread, harg5.read_unread,
    View.ld_unit_zero (S := S4096x512) hz2, View.ld_unit_zero (S := S256x512) hz2, View.ld_unit_zero (S := S4096x256) hz2,
    View.ld_unit_zero (S := S256) hz1]

theorem accFirst_eq (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : isFirst i) (hl : ¬isLast i) (x0 : Vec F S4096x512 .f32) (x1 : Vec F S256x512 .f32) :
    accFirst c i arg1 harg1 arg2 harg2 arg3 harg3 arg4 harg4 arg5 harg5 hf hl x0 x1 = k1_pay2 x0 x1 (k1_pay1 (F := F)) := by
  unfold accFirst
  rw [View.read_writes_eq_canon _ _ _ (coverFirst c i arg1 harg1 arg2 harg2 arg3 harg3 arg4 harg4 arg5 harg5 hf hl x0 x1)]
  unfold runFirst
  dsimp only
  sl_unfold_words
  rw [View.canon_cons_unit_zero hz2]
  simp only [View.readAt_eq_ld, harg1.read_unread, harg2.read_unread, harg3.read_unread, harg5.read_unread,
    View.ld_unit_zero (S := S4096x512) hz2, View.ld_unit_zero (S := S256x512) hz2, View.ld_unit_zero (S := S4096x256) hz2,
    View.ld_unit_zero (S := S256) hz1]
  rw [View.readCov_unit_zero (S := S4096x256) arg5.view hz2]

theorem accLast_eq (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) :
    accLast c i arg1 harg1 arg2 harg2 arg3 harg3 arg4 harg4 arg5 harg5 hf hl x0 x1 x2 xs = k1_pay2 x0 x1 xs := by
  unfold accLast
  rw [View.read_writes_eq_canon _ _ _ (coverLastAcc c i arg1 harg1 arg2 harg2 arg3 harg3 arg4 harg4 arg5 harg5 hf hl x0 x1 x2 xs)]
  unfold runLast
  dsimp only
  sl_unfold_words
  rw [View.canon_unit_zero hz2]
  simp only [View.readAt_eq_ld, harg1.read_unread, harg2.read_unread, harg3.read_unread, harg5.read_unread,
    View.ld_unit_zero (S := S4096x512) hz2, View.ld_unit_zero (S := S256x512) hz2, View.ld_unit_zero (S := S4096x256) hz2,
    View.ld_unit_zero (S := S256) hz1]

theorem outLast_eq (c : Dev nD) (i : grid1.Coords) (arg1 : Memref sig .tc .vmem S4096x512 .f32) (harg1 : arg1.IsWhole) (arg2 : Memref sig .tc .vmem S256x512 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096x256 .f32) (harg5 : arg5.IsWhole)
    (hf : ¬isFirst i) (hl : isLast i) (x0 : Vec F S4096x512 .f32) (x1 : Vec F S256x512 .f32) (x2 : Vec F S256 .f32) (xs : Vec F S4096x256 .f32) :
    outLast c i arg1 harg1 arg2 harg2 arg3 harg3 arg4 harg4 arg5 harg5 hf hl x0 x1 x2 xs = k1_pay3 (k1_pay2 x0 x1 xs) x2 := by
  unfold outLast
  rw [View.read_writes_eq_canon _ _ _ (coverLastOut c i arg1 harg1 arg2 harg2 arg3 harg3 arg4 harg4 arg5 harg5 hf hl x0 x1 x2 xs)]
  unfold runLast
  dsimp only
  sl_unfold_words
  rw [View.canon_unit_zero hz2]
  simp only [View.readAt_eq_ld, harg1.read_unread, harg2.read_unread, harg3.read_unread, harg5.read_unread,
    View.ld_unit_zero (S := S4096x512) hz2, View.ld_unit_zero (S := S256x512) hz2, View.ld_unit_zero (S := S4096x256) hz2,
    View.ld_unit_zero (S := S256) hz1]
  rw [View.readCov_unit_zero (S := S4096x256) arg5.view hz2]

end Cert.KernelIdeal.Embed1

end
-- ==== Proof.Embed1Final.lean ====
/-
  The array the call produces. The accumulator after point n is the body's arithmetic applied n + 1 times: the first
  product added to the cleared accumulator, then each later product added to what was there. The single write-back, at
  point 79, writes accumulator + bias row; its block is the whole 4096 × 256 array, so that is what the array holds
  after the call.
-/
import proofs.«145307_j27281632264596_1_alg».proof.Proof.Embed1Value

set_option maxRecDepth 16384

noncomputable section

namespace Cert.KernelIdeal.Embed1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Final

variable (V : (c : Dev nD) → (b : Ref sig .tc) → Buf (Elt F) ((c : Thread nD τ).loc b))

theorem lastLt : 79 < cfg1.N := by rw [show cfg1.N = 80 from N_1]; decide
/-- The last grid point. -/
def tLast : Fin cfg1.N := ⟨79, lastLt⟩

/-- The accumulator after point `n`, by the body's arithmetic. -/
def accAt (c : Dev nD) : (n : ℕ) → n < cfg1.N → Vec F S4096x256 .f32
  | 0, hn => k1_pay2 (iblk V c 0 ⟨0, hn⟩) (iblk V c 1 ⟨0, hn⟩) (k1_pay1 (F := F))
  | n + 1, hn => k1_pay2 (iblk V c 0 ⟨n + 1, hn⟩) (iblk V c 1 ⟨n + 1, hn⟩) (accAt c n (Nat.lt_of_succ_lt hn))

theorem stateAt_acc (c : Dev nD) : ∀ (n : ℕ) (hn : n < cfg1.N), (stateAt V c n hn).2 = accAt V c n hn
  | 0, hn => by
    have h := stateAt_first V c ⟨0, hn⟩ rfl
    dsimp only at h
    rw [h]; dsimp only; rw [accFirst_eq]; rfl
  | n + 1, hn => by
    by_cases h1 : n + 1 = 79
    · have h := stateAt_last V c ⟨n + 1, hn⟩ (Nat.succ_ne_zero n) h1
      dsimp only at h
      rw [h]; dsimp only; rw [accLast_eq]
      show k1_pay2 _ _ (stateAt V c n _).2 = _
      rw [stateAt_acc c n]; rfl
    · have h := stateAt_mid V c ⟨n + 1, hn⟩ (Nat.succ_ne_zero n) h1
      dsimp only at h
      rw [h]; dsimp only; rw [accMid_eq]
      show k1_pay2 _ _ (stateAt V c n _).2 = _
      rw [stateAt_acc c n]; rfl

/-- What the call leaves in its result array: the last accumulator plus the bias row. -/
def result (c : Dev nD) : S4096x256.Idx → Elt F .f32 := k1_pay3 (accAt V c 79 lastLt) (iblk V c 2 tLast)

theorem out_last (c : Dev nD) : (stateAt V c tLast.val tLast.isLt).1 = result V c := by
  rw [stateAt_last V c tLast (by decide) rfl]
  dsimp only
  rw [outLast_eq]
  rw [stateAt_acc V c (tLast.val - 1) _]
  rfl

/-- The one write-back, at point 79, writes `result`: the block at index (0, 0) read through zero offsets is the array. -/
theorem flushed_last (c : Dev nD) (t : Fin cfg1.N) (hf : (cfg1.win 3).flush t = true) :
    (dat V c).flushed 3 t = ((cfg1.win 3).blk t).view.read (Elt F) (result V c) := by
  have hN : cfg1.N = 80 := N_1
  have h1 : t.val = 79 := by have := (flush1_3 t).mp hf; have := t.isLt; omega
  obtain rfl : t = tLast := Fin.ext h1
  show (cfg1.win 3).cut (grid1.coords tLast) ((dat V c).after 3 tLast) = _
  rw [after_out, out_last]
  have hz' : (fun a => win1_3.index tLast a * main_v1.ty.shape.size a) = fun _ => 0 := funext fun a => by fin_cases a <;> decide +kernel
  exact (Memref.read_access_unit_zero (Elt F) main_v1 hz' (fun a => by rw [congrFun hz' a]; simp) (result V c)).symm

/-- So the result array ends holding `result`: point 79's block covers it. -/
theorem final (c : Dev nD) : (dat V c).arrAt 3 cfg1.N = result V c :=
  (dat V c).arrAt_eq_of_cover 3 (result V c) (flushed_last V c) fun i =>
    ⟨tLast, (flush1_3 tLast).mpr (by decide), by
      show i ∈ ((View.whole main_v1).slice (win1_3.rect tLast)).set
      rw [View.set_slice_whole, Rect.mem_set_unit]
      intro a
      have h0 : (i 0 : Nat) < 4096 := (i 0).isLt
      have h1 : (i 1 : Nat) < 256 := (i 1).isLt
      match a with
      | ⟨0, _⟩ =>
        show win1_3.index tLast 0 * win1_3.size 0 ≤ (i 0 : Nat) ∧ (i 0 : Nat) < win1_3.index tLast 0 * win1_3.size 0 + win1_3.xsize (grid1.coords tLast) 0
        rw [show win1_3.index tLast 0 * win1_3.size 0 = 0 from by decide +kernel, show win1_3.xsize (grid1.coords tLast) 0 = 4096 from by decide +kernel]; omega
      | ⟨1, _⟩ =>
        show win1_3.index tLast 1 * win1_3.size 1 ≤ (i 1 : Nat) ∧ (i 1 : Nat) < win1_3.index tLast 1 * win1_3.size 1 + win1_3.xsize (grid1.coords tLast) 1
        rw [show win1_3.index tLast 1 * win1_3.size 1 = 0 from by decide +kernel, show win1_3.xsize (grid1.coords tLast) 1 = 256 from by decide +kernel]; omega⟩

end Final

end Cert.KernelIdeal.Embed1

end
-- ==== Proof.Embed1Ideal.lean ====
/-
  The second feature-map call's result at the extended reals: the specification's feature map of the batch, the weight
  and the bias as the call finds them.

  Each input block of a grid point is the array read at the block's columns (point t's 512 columns start at 512 t; the
  bias has one block). The accumulator after point t is then, entry by entry, the running total of the 80 blocks'
  partial inner products, started from the cleared accumulator; after the last point it is the whole inner product over
  the 40960 columns (a long sum by blocks), and the stored result adds the bias.
-/
import proofs.«145307_j27281632264596_1_alg».proof.Proof.Embed1Final
import proofs.«145307_j27281632264596_1_alg».proof.Proof.EmbedPayload
import proofs.«145307_j27281632264596_1_alg».proof.Proof.Spec

set_option maxRecDepth 16384

noncomputable section

open scoped BigOperators

namespace Cert.KernelIdeal.Embed1

open Cert.KernelIdeal Cert.KernelIdeal.Gen
open Idealize.ShloMosaic Idealize.ShloMosaic.TcCoe Idealize.ShloMosaic.ValueIdx

section Ideal

variable (V : (c : Dev nD) → (b : Ref sig .tc) → Buf (Elt Ideal) ((c : Thread nD τ).loc b))

/-- The printed index maps, decided once over the 80 points: the two inputs' blocks stay on the first block row and move
    one block column per point; the bias has one block. -/
theorem idx_facts : ∀ t : Fin cfg1.N, win1_0.index t (0 : Fin 2) = 0 ∧ win1_0.index t (1 : Fin 2) = t.val
    ∧ win1_1.index t (0 : Fin 2) = 0 ∧ win1_1.index t (1 : Fin 2) = t.val ∧ win1_2.index t (0 : Fin 1) = 0 :=
  (by decide +kernel : ∀ t : Fin grid1.N, _)

/-- A grid point's number is below 80. -/
theorem point_lt (t : Fin cfg1.N) : t.val < 80 := lt_of_lt_of_eq t.isLt (show cfg1.N = 80 from N_1)

/-- The feature block of point `t` at `(p, j)` is the batch at `(p, 512 t + j)`. -/
theorem iblk0_apply (c : Dev nD) (t : Fin cfg1.N) (p : Fin 4096) (j : Fin 512) :
    iblk V c 0 t (ix2 p j)
      = V c main_arg2 (ix2 p ⟨512 * t.val + j.val, Cert.Spec.block_lt (m := 80) (point_lt t) j.isLt⟩) := by
  obtain ⟨e0, e1, -, -, -⟩ := idx_facts t
  show V c main_arg2 (((cfg1.win 0).blk t).view.emb (ix2 p j)) = V c main_arg2 _
  refine congrArg (V c main_arg2) (funext fun a => Fin.ext ?_)
  match a with
  | ⟨0, _⟩ => show win1_0.index t (0 : Fin 2) * 4096 + 1 * p.val = p.val; omega
  | ⟨1, _⟩ => show win1_0.index t (1 : Fin 2) * 512 + 1 * j.val = 512 * t.val + j.val; omega

/-- The weight block of point `t` at `(n, j)` is the weight at `(n, 512 t + j)`. -/
theorem iblk1_apply (c : Dev nD) (t : Fin cfg1.N) (n : Fin 256) (j : Fin 512) :
    iblk V c 1 t (ix2 n j)
      = V c main_arg5 (ix2 n ⟨512 * t.val + j.val, Cert.Spec.block_lt (m := 80) (point_lt t) j.isLt⟩) := by
  obtain ⟨-, -, e2, e3, -⟩ := idx_facts t
  show V c main_arg5 (((cfg1.win 1).blk t).view.emb (ix2 n j)) = V c main_arg5 _
  refine congrArg (V c main_arg5) (funext fun a => Fin.ext ?_)
  match a with
  | ⟨0, _⟩ => show win1_1.index t (0 : Fin 2) * 256 + 1 * n.val = n.val; omega
  | ⟨1, _⟩ => show win1_1.index t (1 : Fin 2) * 512 + 1 * j.val = 512 * t.val + j.val; omega

/-- The bias block of every point is the bias. -/
theorem iblk2_eq (c : Dev nD) (t : Fin cfg1.N) : iblk V c 2 t = V c main_arg6 := by
  obtain ⟨-, -, -, -, e4⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 1) * 256 + 1 * (y 0).val = (y 0).val; omega

/-! ## The accumulator, point by point -/

/-- The batch, the weight and the bias as the call finds them. -/
abbrev X (c : Dev nD) : Cert.Spec.Mat 4096 40960 := V c main_arg2
abbrev Wt (c : Dev nD) : Cert.Spec.Mat 256 40960 := V c main_arg5
abbrev Bi (c : Dev nD) : Cert.Spec.Row 256 := V c main_arg6

/-- Block `t`'s share of the inner product of row `p` of the batch with row `n` of the weight. -/
def term (c : Dev nD) (p : Fin 4096) (n : Fin 256) (t : ℕ) : EReal :=
  if h : t < 80 then ∑ j : Fin 512, X V c (ix2 p ⟨512 * t + j.val, Cert.Spec.block_lt (m := 80) h j.isLt⟩)
    * Wt V c (ix2 n ⟨512 * t + j.val, Cert.Spec.block_lt (m := 80) h j.isLt⟩) else 0

/-- The accumulator's entry `(p, n)` after point `t`. -/
def accN (c : Dev nD) (p : Fin 4096) (n : Fin 256) (t : ℕ) : EReal :=
  if h : t < cfg1.N then accAt V c t h (ix2 p n) else 0

theorem accN_zero (c : Dev nD) (p : Fin 4096) (n : Fin 256) : accN V c p n 0 = 0 + term V c p n 0 := by
  have h0 : 0 < cfg1.N := Nat.lt_trans (by decide) lastLt
  unfold accN term
  rw [dif_pos h0, dif_pos (by decide : 0 < 80)]
  show k1_pay2 (F := Ideal) (iblk V c 0 ⟨0, h0⟩) (iblk V c 1 ⟨0, h0⟩) (k1_pay1 (F := Ideal)) (ix2 p n) = _
  rw [EmbedPayload.k1_pay2_apply, EmbedPayload.k1_pay1_apply]
  simp only [iblk0_apply, iblk1_apply]

theorem accN_succ (c : Dev nD) (p : Fin 4096) (n : Fin 256) (t : ℕ) (ht : t + 1 < 79 + 1) :
    accN V c p n (t + 1) = accN V c p n t + term V c p n (t + 1) := by
  have h1 : t + 1 < cfg1.N := lt_of_lt_of_eq ht (show 79 + 1 = cfg1.N from N_1.symm)
  unfold accN term
  rw [dif_pos h1, dif_pos (Nat.lt_of_succ_lt h1), dif_pos (show t + 1 < 80 from ht)]
  show k1_pay2 (F := Ideal) (iblk V c 0 ⟨t + 1, h1⟩) (iblk V c 1 ⟨t + 1, h1⟩) (accAt V c t (Nat.lt_of_succ_lt h1)) (ix2 p n) = _
  rw [EmbedPayload.k1_pay2_apply]
  simp only [iblk0_apply, iblk1_apply]

/-- After the last point the accumulator's entry is the whole inner product. -/
theorem acc_last (c : Dev nD) (p : Fin 4096) (n : Fin 256) :
    accAt V c 79 lastLt (ix2 p n) = ∑ k : Fin 40960, X V c (ix2 p k) * Wt V c (ix2 n k) := by
  have h := Cert.Spec.running_total_last (term V c p n) (accN V c p n) 79 (accN_zero V c p n) (accN_succ V c p n)
  unfold accN at h
  rw [dif_pos lastLt] at h
  rw [h, Cert.Spec.sum_tiles]
  exact Finset.sum_congr rfl fun t _ => by unfold term; rw [dif_pos t.isLt]

/-- The call's result is the specification's feature map of the batch, the weight and the bias as the call finds them. -/
theorem result_eq (c : Dev nD) :
    result (F := Ideal) V c = Cert.Spec.emb (V c main_arg2) (V c main_arg5) (V c main_arg6) := by
  funext i
  obtain ⟨p, n, rfl⟩ : ∃ (p : Fin 4096) (n : Fin 256), i = ix2 p n := ⟨i 0, i 1, eq_ix2 i⟩
  unfold result
  rw [EmbedPayload.k1_pay3_apply, iblk2_eq, acc_last, Cert.Spec.emb_apply]

end Ideal

end Cert.KernelIdeal.Embed1

end
-- ==== Proof.BridgeA.lean ====
/-
  At the ideal instance: what the third call is entered with, and what its body writes.
  The first two calls leave in their result arrays the two embedding products, white·W_wᵀ + b_w and black·W_bᵀ + b_b
  (sums over all 40960 features: the 80 column blocks' partial sums regrouped, commutativity and associativity only);
  every argument array reaches the third call as launched. The third call's two stores, read back, are the body's
  arithmetic on the point's 13 input blocks.
-/
import proofs.«145307_j27281632264596_1_alg».proof.Proof.WholeArgs
import proofs.«145307_j27281632264596_1_alg».proof.Proof.Embed0Ideal
import proofs.«145307_j27281632264596_1_alg».proof.Proof.Embed1Ideal
import proofs.«145307_j27281632264596_1_alg».proof.Proof.MlpRegion
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- An array as launched, on core `c`. -/
abbrev arg (c : Dev nD) (b : Ref sig .tc) : Buf (Elt Ideal) ((c : Thread nD τ).loc b) := m ((c : Thread nD τ).loc b)

/-- The first product as the third call finds it. -/
theorem v0_eq (c : Dev nD) :
    Whole.E2 m c main_v0 = Cert.Spec.emb (arg m c main_arg1) (arg m c main_arg3) (arg m c main_arg4) :=
  (Whole.E2_main_v0 m c).trans ((Embed0.final (Whole.E0 m) c).trans (Embed0.result_eq (Whole.E0 m) c))

/-- The second product likewise; its inputs reach the second call as launched. -/
theorem v1_eq (c : Dev nD) :
    Whole.E2 m c main_v1 = Cert.Spec.emb (arg m c main_arg2) (arg m c main_arg5) (arg m c main_arg6) := by
  rw [Whole.E2_main_v1 m c, Embed1.final (Whole.E1 m) c, Embed1.result_eq (Whole.E1 m) c,
    Whole.E1_of_arg m c main_arg2 (by decide), Whole.E1_of_arg m c main_arg5 (by decide), Whole.E1_of_arg m c main_arg6 (by decide)]

theorem hz2 : (![0, 0] : Fin 2 → Nat) = fun _ => 0 := funext fun a => by fin_cases a <;> rfl
theorem hz1 : (![0] : Fin 1 → Nat) = fun _ => 0 := funext fun a => by fin_cases a; rfl

/-- The value head's block, read back: the body's arithmetic on the point's input blocks. -/
theorem out13_payload (x0 : Vec Ideal S512x256 .f32) (x1 : Vec Ideal S512x256 .f32) (x2 : Vec Ideal S512x1 .f32) (x3 : Vec Ideal S32x512 .f32) (x4 : Vec Ideal S32 .f32) (x5 : Vec Ideal S32x32 .f32) (x6 : Vec Ideal S32 .f32) (x7 : Vec Ideal S1x32 .f32) (x8 : Vec Ideal S1 .f32) (x9 : Vec Ideal S256x512 .f32) (x10 : Vec Ideal S256 .f32) (x11 : Vec Ideal S4096x256 .f32) (x12 : Vec Ideal S4096 .f32) :
    MlpRegion.out2_13 (F := Ideal) x0 x1 x2 x3 x4 x5 x6 x7 x8 x9 x10 x11 x12 = k2_pay1 (k2_pay4 x0 x1 x2 x3 x4 x5 x6) x7 x8 := by
  unfold MlpRegion.out2_13
  rw [View.canon_unit_zero hz2]
  simp only [View.ld_unit_zero (S := S512x256) hz2, View.ld_unit_zero (S := S512x1) hz2, View.ld_unit_zero (S := S32x512) hz2,
    View.ld_unit_zero (S := S32) hz1, View.ld_unit_zero (S := S32x32) hz2, View.ld_unit_zero (S := S1x32) hz2, View.ld_unit_zero (S := S1) hz1]

/-- The move head's block likewise. -/
theorem out14_payload (x0 : Vec Ideal S512x256 .f32) (x1 : Vec Ideal S512x256 .f32) (x2 : Vec Ideal S512x1 .f32) (x3 : Vec Ideal S32x512 .f32) (x4 : Vec Ideal S32 .f32) (x5 : Vec Ideal S32x32 .f32) (x6 : Vec Ideal S32 .f32) (x7 : Vec Ideal S1x32 .f32) (x8 : Vec Ideal S1 .f32) (x9 : Vec Ideal S256x512 .f32) (x10 : Vec Ideal S256 .f32) (x11 : Vec Ideal S4096x256 .f32) (x12 : Vec Ideal S4096 .f32) :
    MlpRegion.out2_14 (F := Ideal) x0 x1 x2 x3 x4 x5 x6 x7 x8 x9 x10 x11 x12 = k2_pay2 (k2_pay3 x0 x1 x2) x9 x10 x11 x12 := by
  unfold MlpRegion.out2_14
  rw [View.canon_unit_zero hz2]
  simp only [View.ld_unit_zero (S := S512x256) hz2, View.ld_unit_zero (S := S512x1) hz2, View.ld_unit_zero (S := S256x512) hz2,
    View.ld_unit_zero (S := S256) hz1, View.ld_unit_zero (S := S4096x256) hz2, View.ld_unit_zero (S := S4096) hz1]

end Cert.KernelIdeal.Bridge

end
-- ==== Proof.MlpWhole.lean ====
import proofs.«145307_j27281632264596_1_alg».proof.Proof.MlpRegion
import Idealize.ShloMosaic.Lib.Pipeline.Value
import Idealize.ShloMosaic.Lib.ValueIdx
import Idealize.ShloMosaic.Lib.Tactic

/-!
# The third region: from the blocks to the whole arrays

Each output array of the third region is written back one tile of 512 rows per grid point, and the eight
tiles cover the 4096 rows.  Row `r` of an output therefore ends at what the body left at local row
`r % 512` of tile `r / 512`, which is a function of the thirteen input blocks of that tile.  This module
states that function for each output array (`G13`, `G14`) and proves that the arrays end holding it.

It also reads the input blocks back as the arrays they were cut from: the three row-tiled inputs at global
row `512 * t + (local row)`, and the ten whole-array inputs as the arrays themselves.
-/

set_option maxRecDepth 16384

noncomputable section

namespace Cert.KernelIdeal.MlpWhole

open Cert.KernelIdeal Cert.KernelIdeal.Gen Cert.KernelIdeal.MlpRegion
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

section Region
variable (V : (c : Dev nD) → (b : Ref sig .tc) → Buf (Elt F) ((c : Thread nD τ).loc b))

/-! ## Rows and tiles -/

/-- The tile (grid point) that holds array row `r`. -/
def tileOf (r : Nat) (h : r < 4096) : Fin cfg2.N := ⟨r / 512, by show r / 512 < grid2.N; rw [N_2]; omega⟩

/-- The row inside its tile. -/
def rowIn (r : Nat) : Fin 512 := ⟨r % 512, Nat.mod_lt _ (by decide)⟩

/-- The printed index maps of the row-tiled windows, decided over the grid: the block index is the grid point on
    the row axis and zero on the column axis. -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_13.index t (0 : Fin 2) = t.val ∧ win2_13.index t (1 : Fin 2) = 0
    ∧ win2_14.index t (0 : Fin 2) = t.val ∧ win2_14.index t (1 : Fin 2) = 0 :=
  (by decide +kernel : ∀ t : Fin grid2.N, _)

/-! ## The output arrays as functions of the input blocks -/

/-- What the body leaves in the first output's block at point `t`. -/
def blk13 (c : Dev nD) (t : Fin cfg2.N) : Vec F S512x1 .f32 :=
  out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)

/-- What the body leaves in the second output's block at point `t`. -/
def blk14 (c : Dev nD) (t : Fin cfg2.N) : Vec F S512x4096 .f32 :=
  out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)

/-- The first output array: row `r` is local row `r % 512` of what tile `r / 512` leaves. -/
def G13 (c : Dev nD) : S4096x1.Idx → Elt F .f32 := fun i =>
  blk13 V c (tileOf (i 0).val (idx2_lt0 i)) (ix2 (rowIn (i 0).val) ⟨(i 1).val, idx2_lt1 i⟩)

/-- The second output array: row `r` is local row `r % 512` of what tile `r / 512` leaves. -/
def G14 (c : Dev nD) : S4096x4096.Idx → Elt F .f32 := fun i =>
  blk14 V c (tileOf (i 0).val (idx2_lt0 i)) (ix2 (rowIn (i 0).val) ⟨(i 1).val, idx2_lt1 i⟩)

/-- At the global index of local index `j` of tile `t`, the array function reads the tile's block at `j`. -/
theorem G13_at (c : Dev nD) (t : Fin cfg2.N) (j : S512x1.Idx) (i : S4096x1.Idx)
    (h0 : (i 0).val = t.val * 512 + (j 0).val) (h1 : (i 1).val = (j 1).val) : G13 V c i = blk13 V c t j := by
  have hj0 : (j 0).val < 512 := idx2_lt0 j
  have ht : tileOf (i 0).val (idx2_lt0 i) = t := Fin.ext (by show (i 0).val / 512 = t.val; omega)
  have hj : (ix2 (rowIn (i 0).val) ⟨(i 1).val, idx2_lt1 i⟩ : S512x1.Idx) = j := by
    funext a
    match a with
    | ⟨0, _⟩ => exact Fin.ext (by show (i 0).val % 512 = (j 0).val; omega)
    | ⟨1, _⟩ => exact Fin.ext h1
  unfold G13
  rw [ht, hj]

theorem G14_at (c : Dev nD) (t : Fin cfg2.N) (j : S512x4096.Idx) (i : S4096x4096.Idx)
    (h0 : (i 0).val = t.val * 512 + (j 0).val) (h1 : (i 1).val = (j 1).val) : G14 V c i = blk14 V c t j := by
  have hj0 : (j 0).val < 512 := idx2_lt0 j
  have ht : tileOf (i 0).val (idx2_lt0 i) = t := Fin.ext (by show (i 0).val / 512 = t.val; omega)
  have hj : (ix2 (rowIn (i 0).val) ⟨(i 1).val, idx2_lt1 i⟩ : S512x4096.Idx) = j := by
    funext a
    match a with
    | ⟨0, _⟩ => exact Fin.ext (by show (i 0).val % 512 = (j 0).val; omega)
    | ⟨1, _⟩ => exact Fin.ext h1
  unfold G14
  rw [ht, hj]

/-! ## What each point writes back is its block of the array function -/

/-- What the body leaves in each output, named by its block. -/
theorem after13_blk (c : Dev nD) (t : Fin cfg2.N) : (dat2 V c).after 13 t = blk13 V c t := after2_13 V c t
theorem after14_blk (c : Dev nD) (t : Fin cfg2.N) : (dat2 V c).after 14 t = blk14 V c t := after2_14 V c t

/-- For ANY block contents `B` and array function `Gf` that agree index by index (global row = 512 × tile + local
    row, same column), the block as the write-back moves it is `Gf` read through the point's rectangle. -/
theorem cut_eq_read13 (t : Fin cfg2.N) (B : Vec F S512x1 .f32) (Gf : S4096x1.Idx → Elt F .f32)
    (h : ∀ (j : S512x1.Idx) (i : S4096x1.Idx), (i 0).val = t.val * 512 + (j 0).val → (i 1).val = (j 1).val → Gf i = B j) :
    (cfg2.win 13).cut (grid2.coords t) B = ((cfg2.win 13).blk t).view.read (Elt F) Gf := by
  obtain ⟨-, -, -, -, -, -, e0, e1, -, -⟩ := idx_rows t
  funext j
  show B ((cfg2.win 13).xinj (grid2.coords t) j) = Gf (((cfg2.win 13).blk t).view.emb j)
  refine (h _ _ ?_ ?_).symm
  · show win2_13.index t (0 : Fin 2) * 512 + 1 * (j 0).val = t.val * 512 + (j 0).val
    rw [e0]; omega
  · show win2_13.index t (1 : Fin 2) * 1 + 1 * (j 1).val = (j 1).val
    rw [e1]; omega

/-- What point `t` writes back is block `t` of the array function. -/
theorem flushed13_eq (c : Dev nD) (t : Fin cfg2.N) :
    (dat2 V c).flushed 13 t = ((cfg2.win 13).blk t).view.read (Elt F) (G13 V c) := by
  show (cfg2.win 13).cut (grid2.coords t) ((dat2 V c).after 13 t) = _
  rw [after13_blk]
  exact cut_eq_read13 t (blk13 V c t) (G13 V c) (G13_at V c t)

/-- For ANY block contents `B` and array function `Gf` that agree index by index (global row = 512 × tile + local
    row, same column), the block as the write-back moves it is `Gf` read through the point's rectangle. -/
theorem cut_eq_read14 (t : Fin cfg2.N) (B : Vec F S512x4096 .f32) (Gf : S4096x4096.Idx → Elt F .f32)
    (h : ∀ (j : S512x4096.Idx) (i : S4096x4096.Idx), (i 0).val = t.val * 512 + (j 0).val → (i 1).val = (j 1).val → Gf i = B j) :
    (cfg2.win 14).cut (grid2.coords t) B = ((cfg2.win 14).blk t).view.read (Elt F) Gf := by
  obtain ⟨-, -, -, -, -, -, -, -, e0, e1⟩ := idx_rows t
  funext j
  show B ((cfg2.win 14).xinj (grid2.coords t) j) = Gf (((cfg2.win 14).blk t).view.emb j)
  refine (h _ _ ?_ ?_).symm
  · show win2_14.index t (0 : Fin 2) * 512 + 1 * (j 0).val = t.val * 512 + (j 0).val
    rw [e0]; omega
  · show win2_14.index t (1 : Fin 2) * 4096 + 1 * (j 1).val = (j 1).val
    rw [e1]; omega

/-- What point `t` writes back is block `t` of the array function. -/
theorem flushed14_eq (c : Dev nD) (t : Fin cfg2.N) :
    (dat2 V c).flushed 14 t = ((cfg2.win 14).blk t).view.read (Elt F) (G14 V c) := by
  show (cfg2.win 14).cut (grid2.coords t) ((dat2 V c).after 14 t) = _
  rw [after14_blk]
  exact cut_eq_read14 t (blk14 V c t) (G14 V c) (G14_at V c t)

/-! ## The tiles cover the rows -/

theorem cover13 (i : S4096x1.Idx) :
    ∃ t : Fin cfg2.N, (cfg2.win 13).flush t = true ∧ i ∈ ((cfg2.win 13).blk t).view.set := by
  have hi0 : (i 0).val < 4096 := idx2_lt0 i
  have hi1 : (i 1).val < 1 := idx2_lt1 i
  refine ⟨tileOf (i 0).val hi0, flush2_13 _, ?_⟩
  obtain ⟨-, -, -, -, -, -, e0, e1, -, -⟩ := idx_rows (tileOf (i 0).val hi0)
  have ht : (tileOf (i 0).val hi0).val = (i 0).val / 512 := rfl
  show i ∈ ((View.whole main_v2_0).slice (win2_13.rect (tileOf (i 0).val hi0))).set
  rw [View.set_slice_whole, Rect.mem_set_unit]
  intro a
  match a with
  | ⟨0, _⟩ =>
    show win2_13.index (tileOf (i 0).val hi0) (0 : Fin 2) * 512 ≤ (i 0).val ∧ (i 0).val < win2_13.index (tileOf (i 0).val hi0) (0 : Fin 2) * 512 + 512
    rw [e0, ht]; omega
  | ⟨1, _⟩ =>
    show win2_13.index (tileOf (i 0).val hi0) (1 : Fin 2) * 1 ≤ (i 1).val ∧ (i 1).val < win2_13.index (tileOf (i 0).val hi0) (1 : Fin 2) * 1 + 1
    rw [e1]; omega

theorem cover14 (i : S4096x4096.Idx) :
    ∃ t : Fin cfg2.N, (cfg2.win 14).flush t = true ∧ i ∈ ((cfg2.win 14).blk t).view.set := by
  have hi0 : (i 0).val < 4096 := idx2_lt0 i
  have hi1 : (i 1).val < 4096 := idx2_lt1 i
  refine ⟨tileOf (i 0).val hi0, flush2_14 _, ?_⟩
  obtain ⟨-, -, -, -, -, -, -, -, e0, e1⟩ := idx_rows (tileOf (i 0).val hi0)
  have ht : (tileOf (i 0).val hi0).val = (i 0).val / 512 := rfl
  show i ∈ ((View.whole main_v2_1).slice (win2_14.rect (tileOf (i 0).val hi0))).set
  rw [View.set_slice_whole, Rect.mem_set_unit]
  intro a
  match a with
  | ⟨0, _⟩ =>
    show win2_14.index (tileOf (i 0).val hi0) (0 : Fin 2) * 512 ≤ (i 0).val ∧ (i 0).val < win2_14.index (tileOf (i 0).val hi0) (0 : Fin 2) * 512 + 512
    rw [e0, ht]; omega
  | ⟨1, _⟩ =>
    show win2_14.index (tileOf (i 0).val hi0) (1 : Fin 2) * 4096 ≤ (i 1).val ∧ (i 1).val < win2_14.index (tileOf (i 0).val hi0) (1 : Fin 2) * 4096 + 4096
    rw [e1]; omega

/-! ## The output arrays after the region -/

/-- The first output array ends holding `G13`. -/
theorem final13 (c : Dev nD) : (dat2 V c).arrAt 13 cfg2.N = G13 V c :=
  (dat2 V c).arrAt_eq_of_cover 13 (G13 V c) (fun t _ => flushed13_eq V c t) cover13

/-- The second output array ends holding `G14`. -/
theorem final14 (c : Dev nD) : (dat2 V c).arrAt 14 cfg2.N = G14 V c :=
  (dat2 V c).arrAt_eq_of_cover 14 (G14 V c) (fun t _ => flushed14_eq V c t) cover14

/-! ## The input blocks read back as their arrays -/

/-- Input window 0's block at point `t` is rows `512 t … 512 t + 511` of its array. -/
theorem iblk2_0_apply (c : Dev nD) (t : Fin cfg2.N) (y : S512x256.Idx) (k : S4096x256.Idx)
    (hk0 : (k 0).val = 512 * t.val + (y 0).val) (hk1 : (k 1).val = (y 1).val) :
    (iblk2 V c 0 t : Vec F S512x256 .f32) y = (V c (Pipeline.arrRef spec2 0) : S4096x256.Idx → Elt F .f32) k := by
  obtain ⟨e0, e1, -, -, -, -, -, -, -, -⟩ := idx_rows t
  unfold iblk2
  rw [View.read_apply]
  refine congrArg (V c (Pipeline.arrRef spec2 0)) ?_
  funext a
  apply Fin.ext
  match a with
  | ⟨0, _⟩ => show win2_0.index t (0 : Fin 2) * 512 + 1 * (y 0).val = (k 0).val; rw [e0, hk0]; omega
  | ⟨1, _⟩ => show win2_0.index t (1 : Fin 2) * 256 + 1 * (y 1).val = (k 1).val; rw [e1, hk1]; omega

/-- Input window 1's block at point `t` is rows `512 t … 512 t + 511` of its array. -/
theorem iblk2_1_apply (c : Dev nD) (t : Fin cfg2.N) (y : S512x256.Idx) (k : S4096x256.Idx)
    (hk0 : (k 0).val = 512 * t.val + (y 0).val) (hk1 : (k 1).val = (y 1).val) :
    (iblk2 V c 1 t : Vec F S512x256 .f32) y = (V c (Pipeline.arrRef spec2 1) : S4096x256.Idx → Elt F .f32) k := by
  obtain ⟨-, -, e0, e1, -, -, -, -, -, -⟩ := idx_rows t
  unfold iblk2
  rw [View.read_apply]
  refine congrArg (V c (Pipeline.arrRef spec2 1)) ?_
  funext a
  apply Fin.ext
  match a with
  | ⟨0, _⟩ => show win2_1.index t (0 : Fin 2) * 512 + 1 * (y 0).val = (k 0).val; rw [e0, hk0]; omega
  | ⟨1, _⟩ => show win2_1.index t (1 : Fin 2) * 256 + 1 * (y 1).val = (k 1).val; rw [e1, hk1]; omega

/-- Input window 2's block at point `t` is rows `512 t … 512 t + 511` of its array. -/
theorem iblk2_2_apply (c : Dev nD) (t : Fin cfg2.N) (y : S512x1.Idx) (k : S4096x1.Idx)
    (hk0 : (k 0).val = 512 * t.val + (y 0).val) (hk1 : (k 1).val = (y 1).val) :
    (iblk2 V c 2 t : Vec F S512x1 .f32) y = (V c (Pipeline.arrRef spec2 2) : S4096x1.Idx → Elt F .f32) k := by
  obtain ⟨-, -, -, -, e0, e1, -, -, -, -⟩ := idx_rows t
  unfold iblk2
  rw [View.read_apply]
  refine congrArg (V c (Pipeline.arrRef spec2 2)) ?_
  funext a
  apply Fin.ext
  match a with
  | ⟨0, _⟩ => show win2_2.index t (0 : Fin 2) * 512 + 1 * (y 0).val = (k 0).val; rw [e0, hk0]; omega
  | ⟨1, _⟩ => show win2_2.index t (1 : Fin 2) * 1 + 1 * (y 1).val = (k 1).val; rw [e1, hk1]; omega

/-- The printed index maps of the whole-array windows, decided over the grid: the block index is zero on every axis. -/
theorem idx_whole : ∀ t : Fin cfg2.N,
    win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 2) = 0
    ∧ win2_7.index t (1 : Fin 2) = 0
    ∧ win2_8.index t (0 : Fin 1) = 0
    ∧ win2_9.index t (0 : Fin 2) = 0
    ∧ win2_9.index t (1 : Fin 2) = 0
    ∧ win2_10.index t (0 : Fin 1) = 0
    ∧ win2_11.index t (0 : Fin 2) = 0
    ∧ win2_11.index t (1 : Fin 2) = 0
    ∧ win2_12.index t (0 : Fin 1) = 0 :=
  (by decide +kernel : ∀ t : Fin grid2.N, _)

/-- Input window 3's block is its whole array, at every point. -/
theorem iblk2_3_eq (c : Dev nD) (t : Fin cfg2.N) :
    (iblk2 V c 3 t : Vec F S32x512 .f32) = (V c (Pipeline.arrRef spec2 3) : S32x512.Idx → Elt F .f32) := by
  obtain ⟨e0, e1, -, -, -, -, -, -, -, -, -, -, -, -, -⟩ := idx_whole t
  funext y
  unfold iblk2
  rw [View.read_apply]
  refine congrArg (V c (Pipeline.arrRef spec2 3)) ?_
  funext a
  apply Fin.ext
  match a with
  | ⟨0, _⟩ => show win2_3.index t (0 : Fin 2) * 32 + 1 * (y 0).val = (y 0).val; rw [e0]; omega
  | ⟨1, _⟩ => show win2_3.index t (1 : Fin 2) * 512 + 1 * (y 1).val = (y 1).val; rw [e1]; omega

/-- Input window 4's block is its whole array, at every point. -/
theorem iblk2_4_eq (c : Dev nD) (t : Fin cfg2.N) :
    (iblk2 V c 4 t : Vec F S32 .f32) = (V c (Pipeline.arrRef spec2 4) : S32.Idx → Elt F .f32) := by
  obtain ⟨-, -, e0, -, -, -, -, -, -, -, -, -, -, -, -⟩ := idx_whole t
  funext y
  unfold iblk2
  rw [View.read_apply]
  refine congrArg (V c (Pipeline.arrRef spec2 4)) ?_
  funext a
  apply Fin.ext
  match a with
  | ⟨0, _⟩ => show win2_4.index t (0 : Fin 1) * 32 + 1 * (y 0).val = (y 0).val; rw [e0]; omega

/-- Input window 5's block is its whole array, at every point. -/
theorem iblk2_5_eq (c : Dev nD) (t : Fin cfg2.N) :
    (iblk2 V c 5 t : Vec F S32x32 .f32) = (V c (Pipeline.arrRef spec2 5) : S32x32.Idx → Elt F .f32) := by
  obtain ⟨-, -, -, e0, e1, -, -, -, -, -, -, -, -, -, -⟩ := idx_whole t
  funext y
  unfold iblk2
  rw [View.read_apply]
  refine congrArg (V c (Pipeline.arrRef spec2 5)) ?_
  funext a
  apply Fin.ext
  match a with
  | ⟨0, _⟩ => show win2_5.index t (0 : Fin 2) * 32 + 1 * (y 0).val = (y 0).val; rw [e0]; omega
  | ⟨1, _⟩ => show win2_5.index t (1 : Fin 2) * 32 + 1 * (y 1).val = (y 1).val; rw [e1]; omega

/-- Input window 6's block is its whole array, at every point. -/
theorem iblk2_6_eq (c : Dev nD) (t : Fin cfg2.N) :
    (iblk2 V c 6 t : Vec F S32 .f32) = (V c (Pipeline.arrRef spec2 6) : S32.Idx → Elt F .f32) := by
  obtain ⟨-, -, -, -, -, e0, -, -, -, -, -, -, -, -, -⟩ := idx_whole t
  funext y
  unfold iblk2
  rw [View.read_apply]
  refine congrArg (V c (Pipeline.arrRef spec2 6)) ?_
  funext a
  apply Fin.ext
  match a with
  | ⟨0, _⟩ => show win2_6.index t (0 : Fin 1) * 32 + 1 * (y 0).val = (y 0).val; rw [e0]; omega

/-- Input window 7's block is its whole array, at every point. -/
theorem iblk2_7_eq (c : Dev nD) (t : Fin cfg2.N) :
    (iblk2 V c 7 t : Vec F S1x32 .f32) = (V c (Pipeline.arrRef spec2 7) : S1x32.Idx → Elt F .f32) := by
  obtain ⟨-, -, -, -, -, -, e0, e1, -, -, -, -, -, -, -⟩ := idx_whole t
  funext y
  unfold iblk2
  rw [View.read_apply]
  refine congrArg (V c (Pipeline.arrRef spec2 7)) ?_
  funext a
  apply Fin.ext
  match a with
  | ⟨0, _⟩ => show win2_7.index t (0 : Fin 2) * 1 + 1 * (y 0).val = (y 0).val; rw [e0]; omega
  | ⟨1, _⟩ => show win2_7.index t (1 : Fin 2) * 32 + 1 * (y 1).val = (y 1).val; rw [e1]; omega

/-- Input window 8's block is its whole array, at every point. -/
theorem iblk2_8_eq (c : Dev nD) (t : Fin cfg2.N) :
    (iblk2 V c 8 t : Vec F S1 .f32) = (V c (Pipeline.arrRef spec2 8) : S1.Idx → Elt F .f32) := by
  obtain ⟨-, -, -, -, -, -, -, -, e0, -, -, -, -, -, -⟩ := idx_whole t
  funext y
  unfold iblk2
  rw [View.read_apply]
  refine congrArg (V c (Pipeline.arrRef spec2 8)) ?_
  funext a
  apply Fin.ext
  match a with
  | ⟨0, _⟩ => show win2_8.index t (0 : Fin 1) * 1 + 1 * (y 0).val = (y 0).val; rw [e0]; omega

/-- Input window 9's block is its whole array, at every point. -/
theorem iblk2_9_eq (c : Dev nD) (t : Fin cfg2.N) :
    (iblk2 V c 9 t : Vec F S256x512 .f32) = (V c (Pipeline.arrRef spec2 9) : S256x512.Idx → Elt F .f32) := by
  obtain ⟨-, -, -, -, -, -, -, -, -, e0, e1, -, -, -, -⟩ := idx_whole t
  funext y
  unfold iblk2
  rw [View.read_apply]
  refine congrArg (V c (Pipeline.arrRef spec2 9)) ?_
  funext a
  apply Fin.ext
  match a with
  | ⟨0, _⟩ => show win2_9.index t (0 : Fin 2) * 256 + 1 * (y 0).val = (y 0).val; rw [e0]; omega
  | ⟨1, _⟩ => show win2_9.index t (1 : Fin 2) * 512 + 1 * (y 1).val = (y 1).val; rw [e1]; omega

/-- Input window 10's block is its whole array, at every point. -/
theorem iblk2_10_eq (c : Dev nD) (t : Fin cfg2.N) :
    (iblk2 V c 10 t : Vec F S256 .f32) = (V c (Pipeline.arrRef spec2 10) : S256.Idx → Elt F .f32) := by
  obtain ⟨-, -, -, -, -, -, -, -, -, -, -, e0, -, -, -⟩ := idx_whole t
  funext y
  unfold iblk2
  rw [View.read_apply]
  refine congrArg (V c (Pipeline.arrRef spec2 10)) ?_
  funext a
  apply Fin.ext
  match a with
  | ⟨0, _⟩ => show win2_10.index t (0 : Fin 1) * 256 + 1 * (y 0).val = (y 0).val; rw [e0]; omega

/-- Input window 11's block is its whole array, at every point. -/
theorem iblk2_11_eq (c : Dev nD) (t : Fin cfg2.N) :
    (iblk2 V c 11 t : Vec F S4096x256 .f32) = (V c (Pipeline.arrRef spec2 11) : S4096x256.Idx → Elt F .f32) := by
  obtain ⟨-, -, -, -, -, -, -, -, -, -, -, -, e0, e1, -⟩ := idx_whole t
  funext y
  unfold iblk2
  rw [View.read_apply]
  refine congrArg (V c (Pipeline.arrRef spec2 11)) ?_
  funext a
  apply Fin.ext
  match a with
  | ⟨0, _⟩ => show win2_11.index t (0 : Fin 2) * 4096 + 1 * (y 0).val = (y 0).val; rw [e0]; omega
  | ⟨1, _⟩ => show win2_11.index t (1 : Fin 2) * 256 + 1 * (y 1).val = (y 1).val; rw [e1]; omega

/-- Input window 12's block is its whole array, at every point. -/
theorem iblk2_12_eq (c : Dev nD) (t : Fin cfg2.N) :
    (iblk2 V c 12 t : Vec F S4096 .f32) = (V c (Pipeline.arrRef spec2 12) : S4096.Idx → Elt F .f32) := by
  obtain ⟨-, -, -, -, -, -, -, -, -, -, -, -, -, -, e0⟩ := idx_whole t
  funext y
  unfold iblk2
  rw [View.read_apply]
  refine congrArg (V c (Pipeline.arrRef spec2 12)) ?_
  funext a
  apply Fin.ext
  match a with
  | ⟨0, _⟩ => show win2_12.index t (0 : Fin 1) * 4096 + 1 * (y 0).val = (y 0).val; rw [e0]; omega

end Region

end Cert.KernelIdeal.MlpWhole

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.MlpPayload.lean ====
/-
  The head kernel's stored values, for one tile of 512 rows, are the specification's pieces on that tile.

  With the tile's two blocks of feature maps `w`, `b` and its column of flags `pov`: the mixed accumulator the kernel
  forms (the two blocks joined along the columns in both orders, weighted by the flag spread along the lanes and by one
  minus it, the positive part, narrowed to a shorter float format — the identity on extended reals) is `Spec.base`; each
  dense layer in the vector unit's spelling (a product into zero with the narrowed, transposed weight, plus the bias
  vector made a row and repeated down the rows, with or without a maximum against a splat zero and a narrowing) is
  `Spec.dense` / `Spec.denseRelu` of its input; so the two stored arrays are the specification's two heads of the tile.
-/
import proofs.«145307_j27281632264596_1_alg».proof.Proof.Gen.KernelIdeal.Skeleton
import proofs.«145307_j27281632264596_1_alg».proof.Proof.Spec
import proofs.«145307_j27281632264596_1_alg».proof.Proof.LibMatmulRows
import proofs.«145307_j27281632264596_1_alg».proof.Proof.LibRowForms
import proofs.«145307_j27281632264596_1_alg».proof.Proof.LibConcatRead
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.MlpPayload

open Cert.KernelIdeal Cert.KernelIdeal.Gen Idealize.ShloMosaic Idealize.ShloMosaic.ValueIdx

/-! ## General readings -/

/-- An `M × 1` column repeated along `N` lanes reads, at `(p, q)`, the column at `(p, 0)`. -/
theorem colBroadcast_apply {α : Type} {M N : Nat} (v : (⟨2, ![M, 1]⟩ : Shape).Idx → α)
    (h : (⟨2, ![M, 1]⟩ : Shape).Broadcasts ⟨2, ![M, N]⟩) (p : Fin M) (q : Fin N) :
    broadcastTo ⟨2, ![M, N]⟩ v h (ix2 p q) = v (ix2 p (0 : Fin 1)) :=
  broadcastTo_apply v h (ix2 p q) (ix2 p (0 : Fin 1)) (fun a => match a with
    | ⟨0, _⟩ => by
        show p.val = if M = 1 then 0 else p.val
        split
        · have := p.isLt; omega
        · rfl
    | ⟨1, _⟩ => by show 0 = if (1 : Nat) = 1 then 0 else q.val; rw [if_pos rfl])

/-- Two arrays of 256 columns joined along the columns are the specification's side-by-side array. -/
theorem concat_sideBySide {M : Nat} (u v : Cert.Spec.Mat M 256)
    (h : Shape.Concatenates [⟨2, ![M, 256]⟩, ⟨2, ![M, 256]⟩] ⟨2, ![M, 512]⟩ 1) :
    concatenate ⟨2, ![M, 512]⟩ 1 [⟨⟨2, ![M, 256]⟩, u⟩, ⟨⟨2, ![M, 256]⟩, v⟩] h = Cert.Spec.sideBySide u v := by
  funext i
  obtain ⟨p, j, rfl⟩ : ∃ (p : Fin M) (j : Fin 512), i = ix2 p j := ⟨i 0, i 1, eq_ix2 i⟩
  by_cases hj : j.val < 256
  · rw [Cert.Spec.sideBySide_left _ _ _ _ hj]
    exact Cert.Lib.ConcatRead.cols_left u v h p j ⟨j.val, hj⟩ rfl
  · rw [Cert.Spec.sideBySide_right _ _ _ _ hj]
    exact Cert.Lib.ConcatRead.cols_right u v h p j ⟨j.val - 256, by have := j.isLt; omega⟩
      (Nat.sub_add_cancel (Nat.le_of_not_lt hj))

/-- A dense layer in the vector unit's spelling — a product into zero with the narrowed, transposed weight, plus the
    bias vector made a row and repeated down the rows — is the specification's dense layer. -/
theorem unitDense_eq {M K N : Nat} {φ : FTy} (D : DotDims ⟨2, ![M, K]⟩ ⟨2, ![K, N]⟩ ⟨2, ![M, N]⟩)
    (hD : D = DotDims.plain M K N) (x : FVec Ideal ⟨2, ![M, K]⟩ φ) (w : FVec Ideal ⟨2, ![N, K]⟩ .f32)
    (b : FVec Ideal ⟨1, ![N]⟩ .f32) (hb : FTy.bf16.bits < FTy.f32.bits)
    (ht : (⟨2, ![N, K]⟩ : Shape).Transposes [1, 0] ⟨2, ![K, N]⟩)
    (hc : (⟨1, ![N]⟩ : Shape).ShapeCasts ⟨2, ![1, N]⟩) (hbr : (⟨2, ![1, N]⟩ : Shape).Broadcasts ⟨2, ![M, N]⟩) :
    addf (matmul D none x (transpose ⟨2, ![K, N]⟩ [1, 0] (truncf .bf16 w hb) ht)
        (constant ⟨2, ![M, N]⟩ .f32 0x00000000#32))
      (broadcastTo ⟨2, ![M, N]⟩ (shapeCast ⟨2, ![1, N]⟩ b hc) hbr) = Cert.Spec.dense x w b := by
  funext i
  obtain ⟨p, q, rfl⟩ : ∃ (p : Fin M) (q : Fin N), i = ix2 p q := ⟨i 0, i 1, eq_ix2 i⟩
  rw [addf_apply, Cert.Lib.RowForms.rowBroadcast_apply, Cert.Lib.RowForms.vecRow_apply, Cert.Spec.dense_apply]
  exact congrArg (· + b (ix1 q)) (Cert.Lib.MatmulRows.matmul_transposed_apply D hD none x _ ht p q)

/-- The same followed by the maximum against a splat zero: the specification's dense layer with the positive part. -/
theorem unitDenseRelu_eq {M K N : Nat} {φ : FTy} (D : DotDims ⟨2, ![M, K]⟩ ⟨2, ![K, N]⟩ ⟨2, ![M, N]⟩)
    (hD : D = DotDims.plain M K N) (x : FVec Ideal ⟨2, ![M, K]⟩ φ) (w : FVec Ideal ⟨2, ![N, K]⟩ .f32)
    (b : FVec Ideal ⟨1, ![N]⟩ .f32) (hb : FTy.bf16.bits < FTy.f32.bits)
    (ht : (⟨2, ![N, K]⟩ : Shape).Transposes [1, 0] ⟨2, ![K, N]⟩)
    (hc : (⟨1, ![N]⟩ : Shape).ShapeCasts ⟨2, ![1, N]⟩) (hbr : (⟨2, ![1, N]⟩ : Shape).Broadcasts ⟨2, ![M, N]⟩) :
    maximumf (addf (matmul D none x (transpose ⟨2, ![K, N]⟩ [1, 0] (truncf .bf16 w hb) ht)
          (constant ⟨2, ![M, N]⟩ .f32 0x00000000#32))
        (broadcastTo ⟨2, ![M, N]⟩ (shapeCast ⟨2, ![1, N]⟩ b hc) hbr))
      (broadcast ⟨2, ![M, N]⟩ (Scalar.ofBits (F := Ideal) .f32 0x00000000#32)) = Cert.Spec.denseRelu x w b := by
  rw [unitDense_eq D hD x w b hb ht hc hbr]
  rfl

/-- Narrowing to a shorter float format is the identity on extended reals. -/
theorem truncf_eq {s : Shape} {φ ψ : FTy} (a : FVec Ideal s φ) (h : ψ.bits < φ.bits) :
    (truncf ψ a h : FVec Ideal s ψ) = a := rfl

/-! ## The kernel's stored values -/

/-- The mixed accumulator of a tile. -/
theorem k2_pay3_eq (w b : Vec Ideal S512x256 .f32) (pov : Vec Ideal S512x1 .f32) :
    k2_pay3 (F := Ideal) w b pov = Cert.Spec.base pov w b := by
  funext i
  obtain ⟨p, j, rfl⟩ : ∃ (p : Fin 512) (j : Fin 512), i = ix2 p j := ⟨i 0, i 1, eq_ix2 i⟩
  unfold k2_pay3
  rw [shapeCast_self, shapeCast_self, concat_sideBySide, concat_sideBySide, truncf_apply, maximumf_apply, addf_apply,
    mulf_apply, mulf_apply, colBroadcast_apply, colBroadcast_apply, subf_apply, broadcast_apply, broadcast_apply,
    Cert.Spec.base_apply]
  rfl

/-- The value head's hidden layers of a tile. -/
theorem k2_pay4_eq (w b : Vec Ideal S512x256 .f32) (pov : Vec Ideal S512x1 .f32) (W0 : Vec Ideal S32x512 .f32)
    (b0 : Vec Ideal S32 .f32) (W1 : Vec Ideal S32x32 .f32) (b1 : Vec Ideal S32 .f32) :
    k2_pay4 (F := Ideal) w b pov W0 b0 W1 b1
      = Cert.Spec.denseRelu (Cert.Spec.denseRelu (Cert.Spec.base pov w b) W0 b0) W1 b1 := by
  unfold k2_pay4
  dsimp only
  rw [k2_pay3_eq,
    unitDenseRelu_eq (M := 512) (K := 32) (N := 32) dot_S512x32_S32x32_S512x32_1_0_0_1_n_n rfl,
    unitDenseRelu_eq (M := 512) (K := 512) (N := 32) dot_S512x512_S512x32_S512x32_1_0_0_1_n_n rfl]
  rfl

/-- The value head's last layer on a tile's hidden rows. -/
theorem k2_pay1_eq (h : FVec Ideal S512x32 .bf16) (W2 : Vec Ideal S1x32 .f32) (b2 : Vec Ideal S1 .f32) :
    k2_pay1 (F := Ideal) h W2 b2 = Cert.Spec.dense h W2 b2 := by
  unfold k2_pay1
  dsimp only
  rw [unitDense_eq (M := 512) (K := 32) (N := 1) dot_S512x32_S32x1_S512x1_1_0_0_1_n_n rfl]

/-- The move head on a tile's mixed accumulator. -/
theorem k2_pay2_eq (a : FVec Ideal S512x512 .bf16) (Wm0 : Vec Ideal S256x512 .f32) (bm0 : Vec Ideal S256 .f32)
    (Wm1 : Vec Ideal S4096x256 .f32) (bm1 : Vec Ideal S4096 .f32) :
    k2_pay2 (F := Ideal) a Wm0 bm0 Wm1 bm1 = Cert.Spec.denseRelu (Cert.Spec.denseRelu a Wm0 bm0) Wm1 bm1 := by
  unfold k2_pay2
  dsimp only
  rw [unitDenseRelu_eq (M := 512) (K := 256) (N := 4096) dot_S512x256_S256x4096_S512x4096_1_0_0_1_n_n rfl,
    unitDenseRelu_eq (M := 512) (K := 512) (N := 256) dot_S512x512_S512x256_S512x256_1_0_0_1_n_n rfl]
  rfl

/-! ## The two stored arrays of a tile -/

/-- The first stored array of a tile is the specification's value head of the tile. -/
theorem out1_eq (w b : Vec Ideal S512x256 .f32) (pov : Vec Ideal S512x1 .f32) (W0 : Vec Ideal S32x512 .f32)
    (b0 : Vec Ideal S32 .f32) (W1 : Vec Ideal S32x32 .f32) (b1 : Vec Ideal S32 .f32) (W2 : Vec Ideal S1x32 .f32)
    (b2 : Vec Ideal S1 .f32) :
    k2_pay1 (F := Ideal) (k2_pay4 (F := Ideal) w b pov W0 b0 W1 b1) W2 b2
      = Cert.Spec.dense (Cert.Spec.denseRelu (Cert.Spec.denseRelu (Cert.Spec.base pov w b) W0 b0) W1 b1) W2 b2 := by
  rw [k2_pay1_eq, k2_pay4_eq]

/-- The second stored array of a tile is the specification's move head of the tile. -/
theorem out2_eq (w b : Vec Ideal S512x256 .f32) (pov : Vec Ideal S512x1 .f32) (Wm0 : Vec Ideal S256x512 .f32)
    (bm0 : Vec Ideal S256 .f32) (Wm1 : Vec Ideal S4096x256 .f32) (bm1 : Vec Ideal S4096 .f32) :
    k2_pay2 (F := Ideal) (k2_pay3 (F := Ideal) w b pov) Wm0 bm0 Wm1 bm1
      = Cert.Spec.denseRelu (Cert.Spec.denseRelu (Cert.Spec.base pov w b) Wm0 bm0) Wm1 bm1 := by
  rw [k2_pay2_eq, k2_pay3_eq]

theorem out1_apply (w b : Vec Ideal S512x256 .f32) (pov : Vec Ideal S512x1 .f32) (W0 : Vec Ideal S32x512 .f32)
    (b0 : Vec Ideal S32 .f32) (W1 : Vec Ideal S32x32 .f32) (b1 : Vec Ideal S32 .f32) (W2 : Vec Ideal S1x32 .f32)
    (b2 : Vec Ideal S1 .f32) (p : Fin 512) (n : Fin 1) :
    k2_pay1 (F := Ideal) (k2_pay4 (F := Ideal) w b pov W0 b0 W1 b1) W2 b2 (ix2 p n)
      = Cert.Spec.dense (Cert.Spec.denseRelu (Cert.Spec.denseRelu (Cert.Spec.base pov w b) W0 b0) W1 b1) W2 b2
          (ix2 p n) :=
  congrFun (out1_eq w b pov W0 b0 W1 b1 W2 b2) (ix2 p n)

theorem out2_apply (w b : Vec Ideal S512x256 .f32) (pov : Vec Ideal S512x1 .f32) (Wm0 : Vec Ideal S256x512 .f32)
    (bm0 : Vec Ideal S256 .f32) (Wm1 : Vec Ideal S4096x256 .f32) (bm1 : Vec Ideal S4096 .f32) (p : Fin 512)
    (n : Fin 4096) :
    k2_pay2 (F := Ideal) (k2_pay3 (F := Ideal) w b pov) Wm0 bm0 Wm1 bm1 (ix2 p n)
      = Cert.Spec.denseRelu (Cert.Spec.denseRelu (Cert.Spec.base pov w b) Wm0 bm0) Wm1 bm1 (ix2 p n) :=
  congrFun (out2_eq w b pov Wm0 bm0 Wm1 bm1) (ix2 p n)

end Cert.KernelIdeal.MlpPayload

end
-- ==== Proof.SpecTile.lean ====
/-
  A tile of rows of the two results.

  Each piece of the specification computes an output row from the same input row only, so the two heads evaluated on any
  block of rows — its flags and its two blocks of feature maps given as arrays of their own — agree, row by row, with the
  heads of the whole batch wherever the block's rows are the batch's rows.
-/
import proofs.«145307_j27281632264596_1_alg».proof.Proof.Spec

noncomputable section

open scoped BigOperators

namespace Cert.Spec

open Idealize.ShloMosaic Idealize.ShloMosaic.ValueIdx

/-- The value head on a block of rows is the whole batch's, at every row the block shares with the batch. -/
theorem specX_tile {M : Nat} (pov : Mat 4096 1) (white black : Mat 4096 40960) (W_w : Mat 256 40960) (b_w : Row 256)
    (W_b : Mat 256 40960) (b_b : Row 256) (W0 : Mat 32 512) (b0 : Row 32) (W1 : Mat 32 32) (b1 : Row 32)
    (W2 : Mat 1 32) (b2 : Row 1) (povT : Mat M 1) (wT bT : Mat M 256) (P : Fin 4096) (p : Fin M)
    (hp : povT (ix2 p 0) = pov (ix2 P 0)) (hw : ∀ n, wT (ix2 p n) = emb white W_w b_w (ix2 P n))
    (hb : ∀ n, bT (ix2 p n) = emb black W_b b_b (ix2 P n)) (n : Fin 1) :
    dense (denseRelu (denseRelu (base povT wT bT) W0 b0) W1 b1) W2 b2 (ix2 p n)
      = specX pov white black W_w b_w W_b b_b W0 b0 W1 b1 W2 b2 (ix2 P n) :=
  dense_congr _ _ W2 b2 P p (fun k => denseRelu_congr _ _ W1 b1 P p (fun k' => denseRelu_congr _ _ W0 b0 P p
    (fun j => base_congr pov _ _ povT wT bT P p hp hw hb j) k') k) n

/-- The move head on a block of rows is the whole batch's, at every row the block shares with the batch. -/
theorem specA_tile {M : Nat} (pov : Mat 4096 1) (white black : Mat 4096 40960) (W_w : Mat 256 40960) (b_w : Row 256)
    (W_b : Mat 256 40960) (b_b : Row 256) (Wm0 : Mat 256 512) (bm0 : Row 256) (Wm1 : Mat 4096 256) (bm1 : Row 4096)
    (povT : Mat M 1) (wT bT : Mat M 256) (P : Fin 4096) (p : Fin M)
    (hp : povT (ix2 p 0) = pov (ix2 P 0)) (hw : ∀ n, wT (ix2 p n) = emb white W_w b_w (ix2 P n))
    (hb : ∀ n, bT (ix2 p n) = emb black W_b b_b (ix2 P n)) (n : Fin 4096) :
    denseRelu (denseRelu (base povT wT bT) Wm0 bm0) Wm1 bm1 (ix2 p n)
      = specA pov white black W_w b_w W_b b_b Wm0 bm0 Wm1 bm1 (ix2 P n) :=
  denseRelu_congr _ _ Wm1 bm1 P p (fun k => denseRelu_congr _ _ Wm0 bm0 P p
    (fun j => base_congr pov _ _ povT wT bT P p hp hw hb j) k) n

end Cert.Spec

end
-- ==== Proof.BridgeB.lean ====
/-
  The two results as functions of the arguments. Entry (P, n) of a result lies in the tile of 512 rows numbered P / 512,
  at row P % 512 of that tile's block. The block is the body's arithmetic on the tile's rows of the two embedding
  products and of the side-to-move flag, with the weights and biases as launched; each layer computes an output row
  from the same input row only, so the tile's row is the whole batch's row P.
-/
import proofs.«145307_j27281632264596_1_alg».proof.Proof.BridgeA
import proofs.«145307_j27281632264596_1_alg».proof.Proof.MlpWhole
import proofs.«145307_j27281632264596_1_alg».proof.Proof.MlpPayload
import proofs.«145307_j27281632264596_1_alg».proof.Proof.SpecTile

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The weights and biases reach every tile as launched -/

theorem blk3 (c : Dev nD) (t : Fin cfg2.N) :
    (MlpRegion.iblk2 (Whole.E2 m) c 3 t : Vec Ideal S32x512 .f32) = (arg m c main_arg7 : S32x512.Idx → Elt Ideal .f32) :=
  (MlpWhole.iblk2_3_eq (Whole.E2 m) c t).trans (Whole.E2_of_arg m c main_arg7 (by decide) (by decide))
theorem blk4 (c : Dev nD) (t : Fin cfg2.N) :
    (MlpRegion.iblk2 (Whole.E2 m) c 4 t : Vec Ideal S32 .f32) = (arg m c main_arg8 : S32.Idx → Elt Ideal .f32) :=
  (MlpWhole.iblk2_4_eq (Whole.E2 m) c t).trans (Whole.E2_of_arg m c main_arg8 (by decide) (by decide))
theorem blk5 (c : Dev nD) (t : Fin cfg2.N) :
    (MlpRegion.iblk2 (Whole.E2 m) c 5 t : Vec Ideal S32x32 .f32) = (arg m c main_arg9 : S32x32.Idx → Elt Ideal .f32) :=
  (MlpWhole.iblk2_5_eq (Whole.E2 m) c t).trans (Whole.E2_of_arg m c main_arg9 (by decide) (by decide))
theorem blk6 (c : Dev nD) (t : Fin cfg2.N) :
    (MlpRegion.iblk2 (Whole.E2 m) c 6 t : Vec Ideal S32 .f32) = (arg m c main_arg10 : S32.Idx → Elt Ideal .f32) :=
  (MlpWhole.iblk2_6_eq (Whole.E2 m) c t).trans (Whole.E2_of_arg m c main_arg10 (by decide) (by decide))
theorem blk7 (c : Dev nD) (t : Fin cfg2.N) :
    (MlpRegion.iblk2 (Whole.E2 m) c 7 t : Vec Ideal S1x32 .f32) = (arg m c main_arg11 : S1x32.Idx → Elt Ideal .f32) :=
  (MlpWhole.iblk2_7_eq (Whole.E2 m) c t).trans (Whole.E2_of_arg m c main_arg11 (by decide) (by decide))
theorem blk8 (c : Dev nD) (t : Fin cfg2.N) :
    (MlpRegion.iblk2 (Whole.E2 m) c 8 t : Vec Ideal S1 .f32) = (arg m c main_arg12 : S1.Idx → Elt Ideal .f32) :=
  (MlpWhole.iblk2_8_eq (Whole.E2 m) c t).trans (Whole.E2_of_arg m c main_arg12 (by decide) (by decide))
theorem blk9 (c : Dev nD) (t : Fin cfg2.N) :
    (MlpRegion.iblk2 (Whole.E2 m) c 9 t : Vec Ideal S256x512 .f32) = (arg m c main_arg13 : S256x512.Idx → Elt Ideal .f32) :=
  (MlpWhole.iblk2_9_eq (Whole.E2 m) c t).trans (Whole.E2_of_arg m c main_arg13 (by decide) (by decide))
theorem blk10 (c : Dev nD) (t : Fin cfg2.N) :
    (MlpRegion.iblk2 (Whole.E2 m) c 10 t : Vec Ideal S256 .f32) = (arg m c main_arg14 : S256.Idx → Elt Ideal .f32) :=
  (MlpWhole.iblk2_10_eq (Whole.E2 m) c t).trans (Whole.E2_of_arg m c main_arg14 (by decide) (by decide))
theorem blk11 (c : Dev nD) (t : Fin cfg2.N) :
    (MlpRegion.iblk2 (Whole.E2 m) c 11 t : Vec Ideal S4096x256 .f32) = (arg m c main_arg15 : S4096x256.Idx → Elt Ideal .f32) :=
  (MlpWhole.iblk2_11_eq (Whole.E2 m) c t).trans (Whole.E2_of_arg m c main_arg15 (by decide) (by decide))
theorem blk12 (c : Dev nD) (t : Fin cfg2.N) :
    (MlpRegion.iblk2 (Whole.E2 m) c 12 t : Vec Ideal S4096 .f32) = (arg m c main_arg16 : S4096.Idx → Elt Ideal .f32) :=
  (MlpWhole.iblk2_12_eq (Whole.E2 m) c t).trans (Whole.E2_of_arg m c main_arg16 (by decide) (by decide))

/-! ## The tile's rows of the flag and of the two products -/

theorem row_split (P : Fin 4096) : P.val = 512 * (P.val / 512) + P.val % 512 := by omega

theorem flag_row (c : Dev nD) (P : Fin 4096) :
    (MlpRegion.iblk2 (Whole.E2 m) c 2 (MlpWhole.tileOf P.val P.isLt) : Vec Ideal S512x1 .f32) (ix2 (MlpWhole.rowIn P.val) 0)
      = (arg m c main_arg0 : S4096x1.Idx → Elt Ideal .f32) (ix2 P 0) :=
  (MlpWhole.iblk2_2_apply (Whole.E2 m) c _ (ix2 (MlpWhole.rowIn P.val) 0) (ix2 P 0) (row_split P) rfl).trans
    (congrFun (Whole.E2_of_arg m c main_arg0 (by decide) (by decide)) (ix2 P 0))

theorem white_row (c : Dev nD) (P : Fin 4096) (n : Fin 256) :
    (MlpRegion.iblk2 (Whole.E2 m) c 0 (MlpWhole.tileOf P.val P.isLt) : Vec Ideal S512x256 .f32) (ix2 (MlpWhole.rowIn P.val) n)
      = Cert.Spec.emb (arg m c main_arg1) (arg m c main_arg3) (arg m c main_arg4) (ix2 P n) :=
  (MlpWhole.iblk2_0_apply (Whole.E2 m) c _ (ix2 (MlpWhole.rowIn P.val) n) (ix2 P n) (row_split P) rfl).trans
    (congrFun (v0_eq m c) (ix2 P n))

theorem black_row (c : Dev nD) (P : Fin 4096) (n : Fin 256) :
    (MlpRegion.iblk2 (Whole.E2 m) c 1 (MlpWhole.tileOf P.val P.isLt) : Vec Ideal S512x256 .f32) (ix2 (MlpWhole.rowIn P.val) n)
      = Cert.Spec.emb (arg m c main_arg2) (arg m c main_arg5) (arg m c main_arg6) (ix2 P n) :=
  (MlpWhole.iblk2_1_apply (Whole.E2 m) c _ (ix2 (MlpWhole.rowIn P.val) n) (ix2 P n) (row_split P) rfl).trans
    (congrFun (v1_eq m c) (ix2 P n))

theorem tile_split (P : Fin 4096) : P.val = (MlpWhole.tileOf P.val P.isLt).val * 512 + (MlpWhole.rowIn P.val).val := by
  show P.val = P.val / 512 * 512 + P.val % 512
  omega

/-! ## The two results -/

/-- The value head's array after the third call is the specification's, of the arguments. -/
theorem resX (c : Dev nD) :
    MlpWhole.G13 (Whole.E2 m) c = Cert.Spec.specX (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) := by
  funext i
  obtain ⟨P, n, rfl⟩ : ∃ (P : Fin 4096) (n : Fin 1), i = ix2 P n := ⟨i 0, i 1, eq_ix2 i⟩
  rw [MlpWhole.G13_at (Whole.E2 m) c (MlpWhole.tileOf P.val P.isLt) (ix2 (MlpWhole.rowIn P.val) n) (ix2 P n) (tile_split P) rfl]
  unfold MlpWhole.blk13
  rw [out13_payload, blk3 m c, blk4 m c, blk5 m c, blk6 m c, blk7 m c, blk8 m c]
  refine (MlpPayload.out1_apply _ _ _ _ _ _ _ _ _ (MlpWhole.rowIn P.val) n).trans ?_
  exact Cert.Spec.specX_tile (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) _ _ _ P (MlpWhole.rowIn P.val)
    (flag_row m c P) (white_row m c P) (black_row m c P) n

/-- The move head's array likewise. -/
theorem resA (c : Dev nD) :
    MlpWhole.G14 (Whole.E2 m) c = Cert.Spec.specA (arg m c main_arg0) (arg m c main_arg1) (arg m c main_arg2) (arg m c main_arg3) (arg m c main_arg4) (arg m c main_arg5) (arg m c main_arg6) (arg m c main_arg13) (arg m c main_arg14) (arg m c main_arg15) (arg m c main_arg16) := by
  funext i
  obtain ⟨P, n, rfl⟩ : ∃ (P : Fin 4096) (n : Fin 4096), i = ix2 P n := ⟨i 0, i 1, eq_ix2 i⟩
  rw [MlpWhole.G14_at (Whole.E2 m) c (MlpWhole.tileOf P.val P.isLt) (ix2 (MlpWhole.rowIn P.val) n) (ix2 P n) (tile_split P) rfl]
  unfold MlpWhole.blk14
  rw [out14_payload, blk9 m c, blk10 m c, blk11 m c, blk12 m c]
  refine (MlpPayload.out2_apply _ _ _ _ _ _ _ (MlpWhole.rowIn P.val) n).trans ?_
  exact Cert.Spec.specA_tile (arg m c main_arg0) (arg m c main_arg1) (arg m c main_arg2) (arg m c main_arg3) (arg m c main_arg4) (arg m c main_arg5) (arg m c main_arg6) (arg m c main_arg13) (arg m c main_arg14) (arg m c main_arg15) (arg m c main_arg16) _ _ _ P (MlpWhole.rowIn P.val)
    (flag_row m c P) (white_row m c P) (black_row m c P) n

end Cert.KernelIdeal.Bridge

end
-- ==== Proof.RefIsSpec.lean ====
/-
  The reference's two results are the specification's, entry by entry, over the extended reals.

  Stage by stage, in the reference's order: each side's feature map (the weight transposed and contracted against the
  features, the bias spread over the rows and added); the two maps joined along the columns in both orders and mixed by
  the row's flag, then the positive part; each dense layer (the weight transposed, contracted, the bias spread and
  added, with or without the positive part). Every stage reads the reference's operations at an index, identifies the
  operand indices with the coordinates, and lands on the specification's piece of the same name.
-/
import proofs.«145307_j27281632264596_1_alg».proof.Proof.Gen.ReferenceIdeal.Read
import proofs.«145307_j27281632264596_1_alg».proof.Proof.Spec
import proofs.«145307_j27281632264596_1_alg».proof.Proof.LibConcatRead

noncomputable section

open scoped BigOperators

namespace Cert.ReferenceIdeal.RefValue

open Cert.ReferenceIdeal Cert.ReferenceIdeal.Gen Cert.ReferenceIdeal.Read Idealize.ShloMosaic Idealize.ShloMosaic.ValueIdx

/-- One side's feature map in the reference (the weight transposed, contracted against the features, the bias
    spread over the rows and added) is the specification's. -/
theorem v4_eq (x1 : (⟨S4096x40960, .f32⟩ : BufTy).Contents (Elt Ideal)) (x3 : (⟨S256x40960, .f32⟩ : BufTy).Contents (Elt Ideal))
    (x4 : (⟨S256, .f32⟩ : BufTy).Contents (Elt Ideal)) :
    val_main_v4 (F := Ideal) x1 x3 x4 = Cert.Spec.emb x1 x3 x4 := by
  funext i
  obtain ⟨p, n, rfl⟩ : ∃ (p : Fin 4096) (n : Fin 256), i = ix2 p n := ⟨i 0, i 1, eq_ix2 i⟩
  have e1 : ∀ k : Fin 40960, lidx_main_v1 (ix2 p n) k = ix2 p k := fun k =>
    funext fun a => Fin.ext (by match a with | ⟨0, _⟩ => rfl | ⟨1, _⟩ => rfl)
  have e2 : ∀ k : Fin 40960, idx_main_v0 (ridx_main_v1 (ix2 p n) k) = ix2 n k := fun k =>
    funext fun a => Fin.ext (by match a with | ⟨0, _⟩ => rfl | ⟨1, _⟩ => rfl)
  have e3 : idx_main_v2 (idx_main_v3 (ix2 p n)) = ix1 n :=
    funext fun a => Fin.ext (by match a with | ⟨0, _⟩ => rfl)
  rw [val_main_v4_apply, val_main_v1_apply, val_main_v3_apply, val_main_v2_apply, Cert.Spec.emb_apply]
  simp only [val_main_v0_apply, e1, e2, e3, Ideal.addf_def]

theorem v9_eq (x2 : (⟨S4096x40960, .f32⟩ : BufTy).Contents (Elt Ideal)) (x5 : (⟨S256x40960, .f32⟩ : BufTy).Contents (Elt Ideal))
    (x6 : (⟨S256, .f32⟩ : BufTy).Contents (Elt Ideal)) :
    val_main_v9 (F := Ideal) x2 x5 x6 = Cert.Spec.emb x2 x5 x6 := by
  funext i
  obtain ⟨p, n, rfl⟩ : ∃ (p : Fin 4096) (n : Fin 256), i = ix2 p n := ⟨i 0, i 1, eq_ix2 i⟩
  have e1 : ∀ k : Fin 40960, lidx_main_v6 (ix2 p n) k = ix2 p k := fun k =>
    funext fun a => Fin.ext (by match a with | ⟨0, _⟩ => rfl | ⟨1, _⟩ => rfl)
  have e2 : ∀ k : Fin 40960, idx_main_v5 (ridx_main_v6 (ix2 p n) k) = ix2 n k := fun k =>
    funext fun a => Fin.ext (by match a with | ⟨0, _⟩ => rfl | ⟨1, _⟩ => rfl)
  have e3 : idx_main_v7 (idx_main_v8 (ix2 p n)) = ix1 n :=
    funext fun a => Fin.ext (by match a with | ⟨0, _⟩ => rfl)
  rw [val_main_v9_apply, val_main_v6_apply, val_main_v8_apply, val_main_v7_apply, Cert.Spec.emb_apply]
  simp only [val_main_v5_apply, e1, e2, e3, Ideal.addf_def]

/-- Two arrays of 256 columns joined along the columns, read at an entry. -/
theorem concat_eq (u v : (⟨S4096x256, .f32⟩ : BufTy).Contents (Elt Ideal)) :
    (concatenate S4096x512 1 [⟨S4096x256, u⟩, ⟨S4096x256, v⟩] concatenates_S4096x256_S4096x256_S4096x512_d1
      : (⟨S4096x512, .f32⟩ : BufTy).Contents (Elt Ideal)) = Cert.Spec.sideBySide u v := by
  funext i
  obtain ⟨p, j, rfl⟩ : ∃ (p : Fin 4096) (j : Fin 512), i = ix2 p j := ⟨i 0, i 1, eq_ix2 i⟩
  by_cases h : j.val < 256
  · rw [Cert.Spec.sideBySide_left _ _ _ _ h]
    exact Cert.Lib.ConcatRead.cols_left u v _ p j ⟨j.val, h⟩ rfl
  · rw [Cert.Spec.sideBySide_right _ _ _ _ h]
    exact Cert.Lib.ConcatRead.cols_right u v _ p j ⟨j.val - 256, by have := j.isLt; omega⟩
      (Nat.sub_add_cancel (Nat.le_of_not_lt h))

/-- The mixed accumulator in the reference is the specification's, over the two feature maps as given. -/
theorem v19_eq (x0 : (⟨S4096x1, .f32⟩ : BufTy).Contents (Elt Ideal)) (x1 x2 : (⟨S4096x40960, .f32⟩ : BufTy).Contents (Elt Ideal))
    (x3 : (⟨S256x40960, .f32⟩ : BufTy).Contents (Elt Ideal)) (x4 : (⟨S256, .f32⟩ : BufTy).Contents (Elt Ideal))
    (x5 : (⟨S256x40960, .f32⟩ : BufTy).Contents (Elt Ideal)) (x6 : (⟨S256, .f32⟩ : BufTy).Contents (Elt Ideal)) :
    val_main_v19 (F := Ideal) x0 x1 x2 x3 x4 x5 x6
      = Cert.Spec.base x0 (val_main_v4 (F := Ideal) x1 x3 x4) (val_main_v9 (F := Ideal) x2 x5 x6) := by
  funext i
  obtain ⟨p, j, rfl⟩ : ∃ (p : Fin 4096) (j : Fin 512), i = ix2 p j := ⟨i 0, i 1, eq_ix2 i⟩
  have e12 : idx_main_v12 (ix2 p j) = ix2 p (0 : Fin 1) :=
    funext fun a => Fin.ext (by match a with | ⟨0, _⟩ => rfl | ⟨1, _⟩ => rfl)
  have e16 : idx_main_v16 (ix2 p j) = ix2 p (0 : Fin 1) :=
    funext fun a => Fin.ext (by match a with | ⟨0, _⟩ => rfl | ⟨1, _⟩ => rfl)
  have c10 : val_main_v10 (F := Ideal) x1 x2 x3 x4 x5 x6
      = Cert.Spec.sideBySide (val_main_v4 (F := Ideal) x1 x3 x4) (val_main_v9 (F := Ideal) x2 x5 x6) := concat_eq _ _
  have c11 : val_main_v11 (F := Ideal) x1 x2 x3 x4 x5 x6
      = Cert.Spec.sideBySide (val_main_v9 (F := Ideal) x2 x5 x6) (val_main_v4 (F := Ideal) x1 x3 x4) := concat_eq _ _
  rw [val_main_v19_apply, val_main_v18_apply, val_main_v13_apply, val_main_v17_apply, val_main_v12_apply,
    val_main_v16_apply, val_main_v15_apply, val_main_v14_apply, val_main_cst_apply, val_main_call0_v0_apply,
    val_main_call0_cst_apply, c10, c11, e12, e16, Cert.Spec.base_apply]
  simp only [Ideal.addf_def, Ideal.subf_def, Ideal.mulf_def, Ideal.maximumf_def, Ideal.ofBits_def]

/-- The value head's first layer. -/
theorem v25_eq (x0 : (⟨S4096x1, .f32⟩ : BufTy).Contents (Elt Ideal)) (x1 : (⟨S4096x40960, .f32⟩ : BufTy).Contents (Elt Ideal)) (x2 : (⟨S4096x40960, .f32⟩ : BufTy).Contents (Elt Ideal)) (x3 : (⟨S256x40960, .f32⟩ : BufTy).Contents (Elt Ideal)) (x4 : (⟨S256, .f32⟩ : BufTy).Contents (Elt Ideal)) (x5 : (⟨S256x40960, .f32⟩ : BufTy).Contents (Elt Ideal)) (x6 : (⟨S256, .f32⟩ : BufTy).Contents (Elt Ideal)) (x7 : (⟨S32x512, .f32⟩ : BufTy).Contents (Elt Ideal)) (x8 : (⟨S32, .f32⟩ : BufTy).Contents (Elt Ideal)) :
    val_main_v25 (F := Ideal) x0 x1 x2 x3 x4 x5 x6 x7 x8
      = Cert.Spec.denseRelu (val_main_v19 (F := Ideal) x0 x1 x2 x3 x4 x5 x6) x7 x8 := by
  funext i
  obtain ⟨p, n, rfl⟩ : ∃ (p : Fin 4096) (n : Fin 32), i = ix2 p n := ⟨i 0, i 1, eq_ix2 i⟩
  have e1 : ∀ k, lidx_main_v21 (ix2 p n) k = ix2 p k := fun k =>
    funext fun a => Fin.ext (by match a with | ⟨0, _⟩ => rfl | ⟨1, _⟩ => rfl)
  have e2 : ∀ k, idx_main_v20 (ridx_main_v21 (ix2 p n) k) = ix2 n k := fun k =>
    funext fun a => Fin.ext (by match a with | ⟨0, _⟩ => rfl | ⟨1, _⟩ => rfl)
  have e3 : idx_main_v22 (idx_main_v23 (ix2 p n)) = ix1 n :=
    funext fun a => Fin.ext (by match a with | ⟨0, _⟩ => rfl)
  rw [val_main_v25_apply, val_main_v24_apply, val_main_v21_apply, val_main_v23_apply, val_main_v22_apply, val_main_call1_v0_apply, val_main_call1_cst_apply, Cert.Spec.denseRelu_apply]
  simp only [val_main_v20_apply, e1, e2, e3, Ideal.addf_def, Ideal.maximumf_def, Ideal.ofBits_def]

/-- The value head's second layer. -/
theorem v31_eq (x0 : (⟨S4096x1, .f32⟩ : BufTy).Contents (Elt Ideal)) (x1 : (⟨S4096x40960, .f32⟩ : BufTy).Contents (Elt Ideal)) (x2 : (⟨S4096x40960, .f32⟩ : BufTy).Contents (Elt Ideal)) (x3 : (⟨S256x40960, .f32⟩ : BufTy).Contents (Elt Ideal)) (x4 : (⟨S256, .f32⟩ : BufTy).Contents (Elt Ideal)) (x5 : (⟨S256x40960, .f32⟩ : BufTy).Contents (Elt Ideal)) (x6 : (⟨S256, .f32⟩ : BufTy).Contents (Elt Ideal)) (x7 : (⟨S32x512, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal)) :
    val_main_v31 (F := Ideal) x0 x1 x2 x3 x4 x5 x6 x7 x8 x9 x10
      = Cert.Spec.denseRelu (val_main_v25 (F := Ideal) x0 x1 x2 x3 x4 x5 x6 x7 x8) x9 x10 := by
  funext i
  obtain ⟨p, n, rfl⟩ : ∃ (p : Fin 4096) (n : Fin 32), i = ix2 p n := ⟨i 0, i 1, eq_ix2 i⟩
  have e1 : ∀ k, lidx_main_v27 (ix2 p n) k = ix2 p k := fun k =>
    funext fun a => Fin.ext (by match a with | ⟨0, _⟩ => rfl | ⟨1, _⟩ => rfl)
  have e2 : ∀ k, idx_main_v26 (ridx_main_v27 (ix2 p n) k) = ix2 n k := fun k =>
    funext fun a => Fin.ext (by match a with | ⟨0, _⟩ => rfl | ⟨1, _⟩ => rfl)
  have e3 : idx_main_v28 (idx_main_v29 (ix2 p n)) = ix1 n :=
    funext fun a => Fin.ext (by match a with | ⟨0, _⟩ => rfl)
  rw [val_main_v31_apply, val_main_v30_apply, val_main_v27_apply, val_main_v29_apply, val_main_v28_apply, val_main_call2_v0_apply, val_main_call2_cst_apply, Cert.Spec.denseRelu_apply]
  simp only [val_main_v26_apply, e1, e2, e3, Ideal.addf_def, Ideal.maximumf_def, Ideal.ofBits_def]

/-- The value head's last layer (no positive part). -/
theorem v36_eq (x0 : (⟨S4096x1, .f32⟩ : BufTy).Contents (Elt Ideal)) (x1 : (⟨S4096x40960, .f32⟩ : BufTy).Contents (Elt Ideal)) (x2 : (⟨S4096x40960, .f32⟩ : BufTy).Contents (Elt Ideal)) (x3 : (⟨S256x40960, .f32⟩ : BufTy).Contents (Elt Ideal)) (x4 : (⟨S256, .f32⟩ : BufTy).Contents (Elt Ideal)) (x5 : (⟨S256x40960, .f32⟩ : BufTy).Contents (Elt Ideal)) (x6 : (⟨S256, .f32⟩ : BufTy).Contents (Elt Ideal)) (x7 : (⟨S32x512, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal)) (x11 : (⟨S1x32, .f32⟩ : BufTy).Contents (Elt Ideal)) (x12 : (⟨S1, .f32⟩ : BufTy).Contents (Elt Ideal)) :
    val_main_v36 (F := Ideal) x0 x1 x2 x3 x4 x5 x6 x7 x8 x9 x10 x11 x12
      = Cert.Spec.dense (val_main_v31 (F := Ideal) x0 x1 x2 x3 x4 x5 x6 x7 x8 x9 x10) x11 x12 := by
  funext i
  obtain ⟨p, n, rfl⟩ : ∃ (p : Fin 4096) (n : Fin 1), i = ix2 p n := ⟨i 0, i 1, eq_ix2 i⟩
  have e1 : ∀ k, lidx_main_v33 (ix2 p n) k = ix2 p k := fun k =>
    funext fun a => Fin.ext (by match a with | ⟨0, _⟩ => rfl | ⟨1, _⟩ => rfl)
  have e2 : ∀ k, idx_main_v32 (ridx_main_v33 (ix2 p n) k) = ix2 n k := fun k =>
    funext fun a => Fin.ext (by match a with | ⟨0, _⟩ => rfl | ⟨1, _⟩ => rfl)
  have e3 : idx_main_v34 (idx_main_v35 (ix2 p n)) = ix1 n :=
    funext fun a => Fin.ext (by match a with | ⟨0, _⟩ => exact (Nat.lt_one_iff.mp n.isLt).symm)
  rw [val_main_v36_apply, val_main_v33_apply, val_main_v35_apply, val_main_v34_apply, Cert.Spec.dense_apply]
  simp only [val_main_v32_apply, e1, e2, e3, Ideal.addf_def, Ideal.maximumf_def, Ideal.ofBits_def]

/-- The move head's first layer. -/
theorem v42_eq (x0 : (⟨S4096x1, .f32⟩ : BufTy).Contents (Elt Ideal)) (x1 : (⟨S4096x40960, .f32⟩ : BufTy).Contents (Elt Ideal)) (x2 : (⟨S4096x40960, .f32⟩ : BufTy).Contents (Elt Ideal)) (x3 : (⟨S256x40960, .f32⟩ : BufTy).Contents (Elt Ideal)) (x4 : (⟨S256, .f32⟩ : BufTy).Contents (Elt Ideal)) (x5 : (⟨S256x40960, .f32⟩ : BufTy).Contents (Elt Ideal)) (x6 : (⟨S256, .f32⟩ : BufTy).Contents (Elt Ideal)) (x13 : (⟨S256x512, .f32⟩ : BufTy).Contents (Elt Ideal)) (x14 : (⟨S256, .f32⟩ : BufTy).Contents (Elt Ideal)) :
    val_main_v42 (F := Ideal) x0 x1 x2 x3 x4 x5 x6 x13 x14
      = Cert.Spec.denseRelu (val_main_v19 (F := Ideal) x0 x1 x2 x3 x4 x5 x6) x13 x14 := by
  funext i
  obtain ⟨p, n, rfl⟩ : ∃ (p : Fin 4096) (n : Fin 256), i = ix2 p n := ⟨i 0, i 1, eq_ix2 i⟩
  have e1 : ∀ k, lidx_main_v38 (ix2 p n) k = ix2 p k := fun k =>
    funext fun a => Fin.ext (by match a with | ⟨0, _⟩ => rfl | ⟨1, _⟩ => rfl)
  have e2 : ∀ k, idx_main_v37 (ridx_main_v38 (ix2 p n) k) = ix2 n k := fun k =>
    funext fun a => Fin.ext (by match a with | ⟨0, _⟩ => rfl | ⟨1, _⟩ => rfl)
  have e3 : idx_main_v39 (idx_main_v40 (ix2 p n)) = ix1 n :=
    funext fun a => Fin.ext (by match a with | ⟨0, _⟩ => rfl)
  rw [val_main_v42_apply, val_main_v41_apply, val_main_v38_apply, val_main_v40_apply, val_main_v39_apply, val_main_call3_v0_apply, val_main_call3_cst_apply, Cert.Spec.denseRelu_apply]
  simp only [val_main_v37_apply, e1, e2, e3, Ideal.addf_def, Ideal.maximumf_def, Ideal.ofBits_def]

/-- The move head's second layer. -/
theorem v48_eq (x0 : (⟨S4096x1, .f32⟩ : BufTy).Contents (Elt Ideal)) (x1 : (⟨S4096x40960, .f32⟩ : BufTy).Contents (Elt Ideal)) (x2 : (⟨S4096x40960, .f32⟩ : BufTy).Contents (Elt Ideal)) (x3 : (⟨S256x40960, .f32⟩ : BufTy).Contents (Elt Ideal)) (x4 : (⟨S256, .f32⟩ : BufTy).Contents (Elt Ideal)) (x5 : (⟨S256x40960, .f32⟩ : BufTy).Contents (Elt Ideal)) (x6 : (⟨S256, .f32⟩ : BufTy).Contents (Elt Ideal)) (x13 : (⟨S256x512, .f32⟩ : BufTy).Contents (Elt Ideal)) (x14 : (⟨S256, .f32⟩ : BufTy).Contents (Elt Ideal)) (x15 : (⟨S4096x256, .f32⟩ : BufTy).Contents (Elt Ideal)) (x16 : (⟨S4096, .f32⟩ : BufTy).Contents (Elt Ideal)) :
    val_main_v48 (F := Ideal) x0 x1 x2 x3 x4 x5 x6 x13 x14 x15 x16
      = Cert.Spec.denseRelu (val_main_v42 (F := Ideal) x0 x1 x2 x3 x4 x5 x6 x13 x14) x15 x16 := by
  funext i
  obtain ⟨p, n, rfl⟩ : ∃ (p : Fin 4096) (n : Fin 4096), i = ix2 p n := ⟨i 0, i 1, eq_ix2 i⟩
  have e1 : ∀ k, lidx_main_v44 (ix2 p n) k = ix2 p k := fun k =>
    funext fun a => Fin.ext (by match a with | ⟨0, _⟩ => rfl | ⟨1, _⟩ => rfl)
  have e2 : ∀ k, idx_main_v43 (ridx_main_v44 (ix2 p n) k) = ix2 n k := fun k =>
    funext fun a => Fin.ext (by match a with | ⟨0, _⟩ => rfl | ⟨1, _⟩ => rfl)
  have e3 : idx_main_v45 (idx_main_v46 (ix2 p n)) = ix1 n :=
    funext fun a => Fin.ext (by match a with | ⟨0, _⟩ => rfl)
  rw [val_main_v48_apply, val_main_v47_apply, val_main_v44_apply, val_main_v46_apply, val_main_v45_apply, val_main_call4_v0_apply, val_main_call4_cst_apply, Cert.Spec.denseRelu_apply]
  simp only [val_main_v43_apply, e1, e2, e3, Ideal.addf_def, Ideal.maximumf_def, Ideal.ofBits_def]

/-- The reference's first result is the specification's value head, entry by entry. -/
theorem refX (x0 : (⟨S4096x1, .f32⟩ : BufTy).Contents (Elt Ideal)) (x1 : (⟨S4096x40960, .f32⟩ : BufTy).Contents (Elt Ideal)) (x2 : (⟨S4096x40960, .f32⟩ : BufTy).Contents (Elt Ideal)) (x3 : (⟨S256x40960, .f32⟩ : BufTy).Contents (Elt Ideal)) (x4 : (⟨S256, .f32⟩ : BufTy).Contents (Elt Ideal)) (x5 : (⟨S256x40960, .f32⟩ : BufTy).Contents (Elt Ideal)) (x6 : (⟨S256, .f32⟩ : BufTy).Contents (Elt Ideal)) (x7 : (⟨S32x512, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal)) (x11 : (⟨S1x32, .f32⟩ : BufTy).Contents (Elt Ideal)) (x12 : (⟨S1, .f32⟩ : BufTy).Contents (Elt Ideal)) :
    val_main_v36 (F := Ideal) x0 x1 x2 x3 x4 x5 x6 x7 x8 x9 x10 x11 x12 = Cert.Spec.specX x0 x1 x2 x3 x4 x5 x6 x7 x8 x9 x10 x11 x12 := by
  rw [v36_eq, v31_eq, v25_eq, v19_eq, v4_eq, v9_eq]
  rfl

/-- The reference's second result is the specification's move head, entry by entry. -/
theorem refA (x0 : (⟨S4096x1, .f32⟩ : BufTy).Contents (Elt Ideal)) (x1 : (⟨S4096x40960, .f32⟩ : BufTy).Contents (Elt Ideal)) (x2 : (⟨S4096x40960, .f32⟩ : BufTy).Contents (Elt Ideal)) (x3 : (⟨S256x40960, .f32⟩ : BufTy).Contents (Elt Ideal)) (x4 : (⟨S256, .f32⟩ : BufTy).Contents (Elt Ideal)) (x5 : (⟨S256x40960, .f32⟩ : BufTy).Contents (Elt Ideal)) (x6 : (⟨S256, .f32⟩ : BufTy).Contents (Elt Ideal)) (x13 : (⟨S256x512, .f32⟩ : BufTy).Contents (Elt Ideal)) (x14 : (⟨S256, .f32⟩ : BufTy).Contents (Elt Ideal)) (x15 : (⟨S4096x256, .f32⟩ : BufTy).Contents (Elt Ideal)) (x16 : (⟨S4096, .f32⟩ : BufTy).Contents (Elt Ideal)) :
    val_main_v48 (F := Ideal) x0 x1 x2 x3 x4 x5 x6 x13 x14 x15 x16 = Cert.Spec.specA x0 x1 x2 x3 x4 x5 x6 x13 x14 x15 x16 := by
  rw [v48_eq, v42_eq, v19_eq, v4_eq, v9_eq]
  rfl

end Cert.ReferenceIdeal.RefValue

end
-- ==== Proof.Algebraic.lean ====
/-
  The algebraic claim. Run from memories that agree on the arguments, the idealized kernel program ends with its two
  results at the specification's value head and move head of the arguments (the three calls chained, each result array
  read back), and the idealized reference ends with its two results at the same two functions (its run's composed term,
  read one operation at a time). The only law between the two sides is the regrouping of each embedding product's sum
  over 40960 features into 80 partial sums of 512, accumulated from zero: commutativity and associativity of addition on
  the extended reals, so the precondition is never opened.
-/
import proofs.«145307_j27281632264596_1_alg».proof.Defs
import proofs.«145307_j27281632264596_1_alg».proof.Proof.BridgeB
import proofs.«145307_j27281632264596_1_alg».proof.Proof.RefIsSpec
import proofs.«145307_j27281632264596_1_alg».proof.Proof.Gen.ReferenceIdeal.Run
import proofs.«145307_j27281632264596_1_alg».proof.Proof.Gen.KernelIdeal
import proofs.«145307_j27281632264596_1_alg».proof.Proof.Gen.ReferenceIdeal
import proofs.«145307_j27281632264596_1_alg».proof.Proof.Gen.Pre_finite_inputs

noncomputable section

namespace Cert.Proof.Value

open Idealize.ShloMosaic Idealize.ShloMosaic.TcCoe Idealize.SL.Sem

theorem algebraic : Cert.algebraic_KernelIdeal_ReferenceIdeal := by
  intro m ρ m' ρ' _ hagree
  refine ⟨fun c => Cert.Spec.specX (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Spec.specA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ⟨(h c).1.trans ?_, (h c).2.1.trans ?_, (h c).2.2⟩)
      (Cert.KernelIdeal.Whole.run_named m ρ)
    · exact (Cert.KernelIdeal.MlpWhole.final13 (Cert.KernelIdeal.Whole.E2 m) c).trans (Cert.KernelIdeal.Bridge.resX m c)
    · exact (Cert.KernelIdeal.MlpWhole.final14 (Cert.KernelIdeal.Whole.E2 m) c).trans (Cert.KernelIdeal.Bridge.resA m c)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16⟩ := hagree c
      rw [Cert.ReferenceIdeal.Read.val_main_v36_eq, Cert.ReferenceIdeal.RefValue.refX,
        h0, h1, h2, h3, h4, h5, h6, h7, h8, h9, h10, h11, h12]
    · obtain ⟨h0, h1, h2, h3, h4, h5, h6, h7, h8, h9, h10, h11, h12, h13, h14, h15, h16⟩ := hagree c
      rw [Cert.ReferenceIdeal.Read.val_main_v48_eq, Cert.ReferenceIdeal.RefValue.refA,
        h0, h1, h2, h3, h4, h5, h6, h13, h14, h15, h16]

end Cert.Proof.Value

end
-- ==== Proof.lean ====
/-
  The five claims of this certificate, assembled. The kernel program is three calls in a row: two accumulate an embedding
  product over 80 column blocks in a scratch buffer (Proof/Embed0*.lean, Proof/Embed1*.lean: the body's three cases, the
  accumulator carried in the region's invariant, the array the call produces), the third computes both network heads on
  8 tiles of 512 rows (Proof/MlpRegion.lean, Proof/MlpWhole.lean). Proof/Whole.lean chains the three calls into one run
  and Proof/WholeArgs.lean reads the arguments and the results off it; the word-level program has the same text
  (the modules named …Bits). Proof/Frames.lean states the three frames and the empty idealization ledger;
  Proof/Spec.lean is the network as functions on the extended reals, Proof/RefIsSpec.lean reads the reference's run as
  those functions, Proof/EmbedPayload.lean, Proof/MlpPayload.lean, Proof/Embed0Ideal.lean, Proof/Embed1Ideal.lean,
  Proof/BridgeA.lean and Proof/BridgeB.lean read the kernel's arrays as the same functions, and Proof/Algebraic.lean
  puts the two runs side by side.
-/
import proofs.«145307_j27281632264596_1_alg».proof.Defs
import proofs.«145307_j27281632264596_1_alg».proof.Proof.Frames
import proofs.«145307_j27281632264596_1_alg».proof.Proof.Algebraic
import proofs.«145307_j27281632264596_1_alg».proof.Proof.Gen.Kernel
import proofs.«145307_j27281632264596_1_alg».proof.Proof.Gen.Kernel.Skeleton
import proofs.«145307_j27281632264596_1_alg».proof.Proof.Gen.Kernel.Launch
import proofs.«145307_j27281632264596_1_alg».proof.Proof.Gen.Kernel.Regions
import proofs.«145307_j27281632264596_1_alg».proof.Proof.Gen.Kernel.Points
import proofs.«145307_j27281632264596_1_alg».proof.Proof.Gen.KernelIdeal
import proofs.«145307_j27281632264596_1_alg».proof.Proof.Gen.KernelIdeal.Skeleton
import proofs.«145307_j27281632264596_1_alg».proof.Proof.Gen.KernelIdeal.Launch
import proofs.«145307_j27281632264596_1_alg».proof.Proof.Gen.KernelIdeal.Regions
import proofs.«145307_j27281632264596_1_alg».proof.Proof.Gen.KernelIdeal.Points
import proofs.«145307_j27281632264596_1_alg».proof.Proof.Gen.ReferenceIdeal
import proofs.«145307_j27281632264596_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Value.algebraic⟩

end Cert.Proof

end
